-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S4096 : Shape := ⟨1, ![4096]⟩
abbrev S4x1024 : Shape := ⟨2, ![4, 1024]⟩
abbrev S_ : Shape := ⟨0, ![]⟩
abbrev S1x4x1x1024 : Shape := ⟨4, ![1, 4, 1, 1024]⟩
abbrev S256x4x1x1024 : Shape := ⟨4, ![256, 4, 1, 1024]⟩
abbrev S1024x1024 : Shape := ⟨2, ![1024, 1024]⟩
abbrev S48x1024x1024 : Shape := ⟨3, ![48, 1024, 1024]⟩
abbrev S24 : Shape := ⟨1, ![24]⟩
abbrev S1 : Shape := ⟨1, ![1]⟩
abbrev S1x1024x1024 : Shape := ⟨3, ![1, 1024, 1024]⟩

abbrev nBuf : Space → Nat
  | .hbm => 16
  | .vmem => 1
  | .smem => 0
  | _ => 0

abbrev bufTy : (tb : Table) → Fin (tcTables nBuf tb) → BufTy
  | .hbm, ⟨0, _⟩ => ⟨S4096, .f32⟩
  | .hbm, ⟨1, _⟩ => ⟨S4x1024, .f32⟩
  | .hbm, ⟨2, _⟩ => ⟨S4x1024, .f32⟩
  | .hbm, ⟨3, _⟩ => ⟨S_, .f32⟩
  | .hbm, ⟨4, _⟩ => ⟨S4x1024, .f32⟩
  | .hbm, ⟨5, _⟩ => ⟨S4x1024, .i1⟩
  | .hbm, ⟨6, _⟩ => ⟨S_, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x4x1x1024, .f32⟩
  | .hbm, ⟨13, _⟩ => ⟨S256x4x1x1024, .f32⟩
  | .hbm, ⟨14, _⟩ => ⟨S1024x1024, .f32⟩
  | .hbm, ⟨15, _⟩ => ⟨S48x1024x1024, .f32⟩
  | .local _ .vmem, ⟨0, _⟩ => ⟨S1024x1024, .f32⟩
  | _, _ => ⟨S4096, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_sem0_0 : DmaSem sig := 0

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 3 → Nat :=
  let arg0 : BitVec 32 := BitVec.ofNat 32 (i 0).val
  let c24_i32 : BitVec 32 := 24#32
  let v0 : BitVec 32 := Scalar.muli arg0 c24_i32
  let v1 : BitVec 32 := Scalar.addi v0 c0_i32
  let c0_i32_1 : BitVec 32 := 0#32
  let c0_i32_2 : BitVec 32 := 0#32
  ![v1.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  shapeCasts_S4096_S4x1024 : S4096.ShapeCasts S4x1024
  bcast_S_S4x1024 : S_.BroadcastsInDim S4x1024 (![] : Fin 0 → Fin S4x1024.rank)
  shapeCasts_S4x1024_S1x4x1x1024 : S4x1024.ShapeCasts S1x4x1x1024
  bcast_S1x4x1x1024_S256x4x1x1024_0_1_2_3 : S1x4x1x1024.BroadcastsInDim S256x4x1x1024 (![0, 1, 2, 3] : Fin 4 → Fin S256x4x1x1024.rank)
  shapeCasts_S256x4x1x1024_S1024x1024 : S256x4x1x1024.ShapeCasts S1024x1024
  inb_S24_S1_0 : ∀ a, (![0] : Fin 1 → Nat) a + S1.size a ≤ S24.size a
  squeezes_S1_S_ : S1.Squeezes S_
  squeezes_S1x1024x1024_S1024x1024 : S1x1024x1024.Squeezes S1024x1024
  inb_S24_S1_1 : ∀ a, (![1] : Fin 1 → Nat) a + S1.size a ≤ S24.size a
  inb_S24_S1_2 : ∀ a, (![2] : Fin 1 → Nat) a + S1.size a ≤ S24.size a
  inb_S24_S1_3 : ∀ a, (![3] : Fin 1 → Nat) a + S1.size a ≤ S24.size a
  inb_S24_S1_4 : ∀ a, (![4] : Fin 1 → Nat) a + S1.size a ≤ S24.size a
  inb_S24_S1_5 : ∀ a, (![5] : Fin 1 → Nat) a + S1.size a ≤ S24.size a
  inb_S24_S1_6 : ∀ a, (![6] : Fin 1 → Nat) a + S1.size a ≤ S24.size a
  inb_S24_S1_7 : ∀ a, (![7] : Fin 1 → Nat) a + S1.size a ≤ S24.size a
  inb_S24_S1_8 : ∀ a, (![8] : Fin 1 → Nat) a + S1.size a ≤ S24.size a
  inb_S24_S1_9 : ∀ a, (![9] : Fin 1 → Nat) a + S1.size a ≤ S24.size a
  inb_S24_S1_10 : ∀ a, (![10] : Fin 1 → Nat) a + S1.size a ≤ S24.size a
  inb_S24_S1_11 : ∀ a, (![11] : Fin 1 → Nat) a + S1.size a ≤ S24.size a
  inb_S24_S1_12 : ∀ a, (![12] : Fin 1 → Nat) a + S1.size a ≤ S24.size a
  inb_S24_S1_13 : ∀ a, (![13] : Fin 1 → Nat) a + S1.size a ≤ S24.size a
  inb_S24_S1_14 : ∀ a, (![14] : Fin 1 → Nat) a + S1.size a ≤ S24.size a
  inb_S24_S1_15 : ∀ a, (![15] : Fin 1 → Nat) a + S1.size a ≤ S24.size a
  inb_S24_S1_16 : ∀ a, (![16] : Fin 1 → Nat) a + S1.size a ≤ S24.size a
  inb_S24_S1_17 : ∀ a, (![17] : Fin 1 → Nat) a + S1.size a ≤ S24.size a
  inb_S24_S1_18 : ∀ a, (![18] : Fin 1 → Nat) a + S1.size a ≤ S24.size a
  inb_S24_S1_19 : ∀ a, (![19] : Fin 1 → Nat) a + S1.size a ≤ S24.size a
  inb_S24_S1_20 : ∀ a, (![20] : Fin 1 → Nat) a + S1.size a ≤ S24.size a
  inb_S24_S1_21 : ∀ a, (![21] : Fin 1 → Nat) a + S1.size a ≤ S24.size a
  inb_S24_S1_22 : ∀ a, (![22] : Fin 1 → Nat) a + S1.size a ≤ S24.size a
  inb_S24_S1_23 : ∀ a, (![23] : Fin 1 → Nat) a + S1.size a ≤ S24.size a
  hcc0_scratch0 : 1 + S24.numel ≤ 25
  hrank0 : 0 < grid0.rank
  k0_off1_inb : ∀ i : grid0.Coords, ∀ (r : Fin 24), ∀ a, (k0_off1 i (BitVec.ofNat 32 r.val)) a + S1x1024x1024.size a ≤ S48x1024x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)

variable [Facts₀]

abbrev cc0_scratch0 : DmaSems sig S24 := SemArray.consecutive 1 S24 hcc0_scratch0

abbrev win0_0 : Pipeline.Window sig grid0 :=
  Pipeline.Window.ofSpec (Memref.whole main_v8) S1024x1024.size cc0_transform_0 reads0_0 false true 1 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S4096 : Shape := ⟨1, ![4096]⟩
abbrev S0 : Shape := ⟨1, ![0]⟩
abbrev S1048576 : Shape := ⟨1, ![1048576]⟩
abbrev S_ : Shape := ⟨0, ![]⟩
abbrev S1048576x1 : Shape := ⟨2, ![1048576, 1]⟩
abbrev S1024x1024 : Shape := ⟨2, ![1024, 1024]⟩
abbrev S1x1024x1024 : Shape := ⟨3, ![1, 1024, 1024]⟩
abbrev S48x1024x1024 : Shape := ⟨3, ![48, 1024, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096, .f32⟩
  | .hbm, ⟨1, _⟩ => ⟨S0, .i32⟩
  | .hbm, ⟨2, _⟩ => ⟨S1048576, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i1⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S_, .i1⟩
  | .hbm, ⟨19, _⟩ => ⟨S1048576, .i1⟩
  | .hbm, ⟨20, _⟩ => ⟨S1048576, .i1⟩
  | .hbm, ⟨21, _⟩ => ⟨S1048576, .i1⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576, .f32⟩
  | .hbm, ⟨34, _⟩ => ⟨S1048576, .f32⟩
  | .hbm, ⟨35, _⟩ => ⟨S_, .f32⟩
  | .hbm, ⟨36, _⟩ => ⟨S1048576, .f32⟩
  | .hbm, ⟨37, _⟩ => ⟨S1048576, .i1⟩
  | .hbm, ⟨38, _⟩ => ⟨S_, .f32⟩
  | .hbm, ⟨39, _⟩ => ⟨S_, .f32⟩
  | .hbm, ⟨40, _⟩ => ⟨S1048576, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1x1024x1024, .f32⟩
  | .hbm, ⟨49, _⟩ => ⟨S48x1024x1024, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_1 : Ref sig .tc := ⟨.hbm, 25, rfl⟩
abbrev main_v2 : Ref sig .tc := ⟨.hbm, 26, rfl⟩
abbrev main_v3 : Ref sig .tc := ⟨.hbm, 27, rfl⟩
abbrev main_c_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v12 : Ref sig .tc := ⟨.hbm, 42, rfl⟩
abbrev main_v13 : Ref sig .tc := ⟨.hbm, 43, rfl⟩
abbrev main_cst_5 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  hz_S0 : S0.numel = 0
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1024x1024 : S_.BroadcastsInDim S1024x1024 (![] : Fin 0 → Fin S1024x1024.rank)
  shapeCasts_S1048576_S1024x1024 : S1048576.ShapeCasts S1024x1024
  bcast_S1024x1024_S1x1024x1024_1_2 : S1024x1024.BroadcastsInDim S1x1024x1024 (![1, 2] : Fin 2 → Fin S1x1024x1024.rank)
  bcast_S1x1024x1024_S48x1024x1024_0_1_2 : S1x1024x1024.BroadcastsInDim S48x1024x1024 (![0, 1, 2] : Fin 3 → Fin S48x1024x1024.rank)
  gather_S4096_S1048576x1_S1048576_n_0_n_n_0_1_1_wf : GatherDims.WF S4096 S1048576x1 S1048576 [] [0] [] [0] [] 1 ![1]
  scatter_S1024x1024_S0_S1024x1024_01_n_n_0_wf : ScatterDims.WF S1024x1024 S0 S1024x1024 [0, 1] [] [] 0

variable [Facts₀]

def gather_S4096_S1048576x1_S1048576_n_0_n_n_0_1_1 : GatherDims S4096 S1048576x1 S1048576 where
  offsetDims := []
  collapsedSliceDims := [0]
  operandBatchingDims := []
  startIndicesBatchingDims := []
  startIndexMap := [0]
  indexVectorDim := 1
  sliceSizes := ![1]
  wf := gather_S4096_S1048576x1_S1048576_n_0_n_n_0_1_1_wf
def scatter_S1024x1024_S0_S1024x1024_01_n_n_0 : ScatterDims S1024x1024 S0 S1024x1024 where
  updateWindowDims := [0, 1]
  insertedWindowDims := []
  scatterDimsToOperandDims := []
  indexVectorDim := 0
  wf := scatter_S1024x1024_S0_S1024x1024_01_n_n_0_wf

class Facts : Prop extends Facts₀ where

variable [Facts]
-- ==== Proof.KFanViews.lean ====
/-
  The places the kernel's copies land. At grid point t the body starts 24 copies of its resident
  1024 × 1024 picture, copy k into channel 24·t + k of the 48-channel result, and then waits for all of
  them. `dstM t k` is copy k's destination (the one-channel slab at channel 24·t + k with its unit
  axis dropped), and `Wn t fv b n` is the result buffer after the first n copies of point t have
  landed, starting from contents `fv`, every copy carrying the same picture `b`.
-/
import proofs.«173566_j57604101374655_2_alg».proof.Proof.Gen.Kernel

noncomputable section

namespace Cert.Kernel.Fan

open Cert.Kernel Cert.Kernel.Gen
open Idealize.ShloMosaic Idealize.ShloMosaic.TcCoe

variable {F : FTy → Type} [FloatOps F]

/-- Memref `M`'s buffer contents on core `c`. -/
abbrev Bf (c : Dev nD) {sp : Space} {S : Shape} {e : EltTy} (M : Memref sig .tc sp S e) : Type := Buf (Elt F) (M.view.loc (c : Thread nD τ))

/-- Copy k's destination at point t: channel 24·t + k of the result (k is read mod 24). -/
abbrev dstM (t : Fin grid0.N) (k : ℕ) : Memref sig .tc .hbm S1024x1024 .f32 :=
  ((Memref.whole main_v9).slice (Rect.unit (s := S48x1024x1024) (k0_off1 (grid0.coords t) (BitVec.ofNat 32 (k % 24))) S1x1024x1024.size
      (k0_off1_inb (grid0.coords t) ⟨k % 24, Nat.mod_lt _ (by decide)⟩)) (fun _ => rfl)).squeeze S1024x1024 squeezes_S1x1024x1024_S1024x1024

/-- The result after the first n copies of point t, each writing the picture `b` over its whole channel. -/
def Wn (c : Dev nD) (t : Fin grid0.N) (fv : Bf (F := F) c (Memref.whole main_v9)) (b : S1024x1024.Idx → Elt F .f32) :
    ℕ → Bf (F := F) c (Memref.whole main_v9)
  | 0 => fv
  | n + 1 => (dstM t n).view.write (Elt F) (Wn c t fv b n) b Finset.univ

end Cert.Kernel.Fan

end
-- ==== Proof.KFanValue.lean ====
/-
  Where the kernel's 48 copies land, and what the result holds after them.

  Copy k of grid point t writes the one-channel slab of the result at channel 24·t + k. Two slabs at different
  channels are disjoint (they differ in the leading coordinate), so a copy leaves every other channel as it was;
  the slab's own pixel (r, q) is result element (24·t + k, r, q). After the 24 copies of both points every channel
  holds the copied picture.
-/
import proofs.«173566_j57604101374655_2_alg».proof.Proof.KFanViews
import proofs.«173566_j57604101374655_2_alg».proof.Proof.Gen.Kernel.Launch
import Idealize.ShloMosaic.Lib.ValueIdx

set_option maxRecDepth 16384

noncomputable section

namespace Cert.Kernel.Fan

open Cert.Kernel Cert.Kernel.Gen
open Idealize.ShloMosaic Idealize.ShloMosaic.TcCoe Idealize.ShloMosaic.ValueIdx

variable {F : FTy → Type} [FloatOps F]

/-! ## The slabs -/

/-- The offsets of copy k's slab at point t: channel 24·t + k, then the whole picture. -/
theorem off_eq (t : Fin grid0.N) {k : ℕ} (hk : k < 24) :
    k0_off1 (grid0.coords t) (BitVec.ofNat 32 (k % 24)) = ![24 * (grid0.coords t 0).val + k, 0, 0] := by
  have e : k0_off1 (grid0.coords t) (BitVec.ofNat 32 (k % 24)) = ![24 * (grid0.coords t 0).val + k % 24, 0, 0] :=
    k0_off1_eq (grid0.coords t) ⟨k % 24, Nat.mod_lt _ (by decide)⟩
  rw [e, Nat.mod_eq_of_lt hk]

/-- The two grid points' coordinates. -/
theorem coords_t0_0 : (grid0.coords Gen.t0_0 0).val = 0 := by decide
theorem coords_t0_1 : (grid0.coords Gen.t0_1 0).val = 1 := by decide

/-- The elements under copy k's destination are the slab's rectangle. -/
theorem dst_set (t : Fin grid0.N) (k : ℕ) :
    (dstM t k).view.set
      = (Rect.unit (s := S48x1024x1024) (k0_off1 (grid0.coords t) (BitVec.ofNat 32 (k % 24))) S1x1024x1024.size
          (k0_off1_inb (grid0.coords t) ⟨k % 24, Nat.mod_lt _ (by decide)⟩)).set := by
  show (((View.whole main_v9).slice _).reshape S1024x1024 _).set = _
  rw [View.set_reshape, View.set_slice_whole]

/-- Slabs at channels c₁ ≠ c₂ are disjoint: they are separated on the leading axis. -/
theorem slab_disjoint (t t' : Fin grid0.N) {j k : ℕ} (hj : j < 24) (hk : k < 24)
    (h : 24 * (grid0.coords t 0).val + j ≠ 24 * (grid0.coords t' 0).val + k) :
    Disjoint (dstM t j).view.set (dstM t' k).view.set := by
  rw [dst_set, dst_set]
  refine Rect.unit_disjoint (0 : Fin 3) ?_
  rw [off_eq t hj, off_eq t' hk]
  show 24 * (grid0.coords t 0).val + j + 1 ≤ 24 * (grid0.coords t' 0).val + k
    ∨ 24 * (grid0.coords t' 0).val + k + 1 ≤ 24 * (grid0.coords t 0).val + j
  omega

/-- Two different copies of one point write disjoint slabs. -/
theorem dst_disjoint (t : Fin grid0.N) {j k : ℕ} (hj : j < 24) (hk : k < 24) (hjk : j ≠ k) :
    Disjoint (dstM t j).view.set (dstM t k).view.set :=
  slab_disjoint t t hj hk (by omega)

/-- A copy of the first point and a copy of the second write disjoint slabs. -/
theorem dst_disjoint_points {j k : ℕ} (hj : j < 24) (hk : k < 24) :
    Disjoint (dstM Gen.t0_0 j).view.set (dstM Gen.t0_1 k).view.set :=
  slab_disjoint Gen.t0_0 Gen.t0_1 hj hk (by rw [coords_t0_0, coords_t0_1]; omega)

/-- An element whose leading coordinate is not 24·t + k lies outside copy k's slab at point t. -/
theorem not_mem_dst (t : Fin grid0.N) {k : ℕ} (hk : k < 24) (i : S48x1024x1024.Idx)
    (h : (i 0).val ≠ 24 * (grid0.coords t 0).val + k) : i ∉ (dstM t k).view.set := by
  rw [dst_set, Rect.mem_set_unit]
  intro hall
  have h0 := hall (0 : Fin 3)
  rw [off_eq t hk] at h0
  have h1 : 24 * (grid0.coords t 0).val + k ≤ (i 0).val ∧ (i 0).val < 24 * (grid0.coords t 0).val + k + 1 := h0
  omega

/-! ## The result between copies -/

/-- Before any copy the result is what it was. -/
theorem Wn_zero (c : Dev nD) (t : Fin grid0.N) (fv : Bf (F := F) c (Memref.whole main_v9))
    (b : S1024x1024.Idx → Elt F .f32) : Wn c t fv b 0 = fv := rfl

/-- One more copy writes the picture over its slab. -/
theorem Wn_succ (c : Dev nD) (t : Fin grid0.N) (fv : Bf (F := F) c (Memref.whole main_v9))
    (b : S1024x1024.Idx → Elt F .f32) (n : ℕ) :
    Wn c t fv b (n + 1) = (dstM t n).view.write (Elt F) (Wn c t fv b n) b Finset.univ := rfl

-- From here on the result after n copies is handled only through the two equations above.
attribute [local irreducible] Wn

/-- An element no copy from the k-th to the n-th touches is after n copies what it was after k. -/
theorem Wn_of_not_mem (c : Dev nD) (t : Fin grid0.N) (fv : Bf (F := F) c (Memref.whole main_v9))
    (b : S1024x1024.Idx → Elt F .f32) {k n : ℕ} (hkn : k ≤ n) (i : S48x1024x1024.Idx)
    (h : ∀ j, k ≤ j → j < n → i ∉ (dstM t j).view.set) : Wn c t fv b n i = Wn c t fv b k i := by
  induction n, hkn using Nat.le_induction with
  | base => rfl
  | succ n hkn ih =>
    have step : Wn c t fv b (n + 1) i = Wn c t fv b n i := by
      rw [Wn_succ]
      exact View.write_of_not_mem _ _ _ (by rw [View.setOn_univ]; exact h n hkn (Nat.lt_succ_self n))
    rw [step]
    exact ih (fun j hj hjn => h j hj (Nat.lt_succ_of_lt hjn))

/-! ## A copy at its own slab -/

/-- Pixel (r, q) of copy k's destination at point t is result element (24·t + k, r, q). -/
theorem dst_emb (t : Fin grid0.N) {k : ℕ} (hk : k < 24) (ch : Fin 48) (hch : ch.val = 24 * (grid0.coords t 0).val + k)
    (r q : Fin 1024) : (dstM t k).view.emb (ix2 r q) = ix3 ch r q := by
  show (Rect.unit (s := S48x1024x1024) (k0_off1 (grid0.coords t) (BitVec.ofNat 32 (k % 24))) S1x1024x1024.size
      (k0_off1_inb (grid0.coords t) ⟨k % 24, Nat.mod_lt _ (by decide)⟩)).emb
    (Shape.reshapeEquiv squeezes_S1x1024x1024_S1024x1024.numel_eq (ix2 r q)) = _
  -- dropping the unit axis keeps the row-major position: (r, q) is (0, r, q)
  rw [Shape.reshapeEquiv_eq_of_rowMajor (y := ix3 (0 : Fin 1) r q) _
    (by rw [Shape.rowMajor_val_three, Shape.rowMajor_val_two]
        show (0 * 1024 + r.val) * 1024 + q.val = r.val * 1024 + q.val
        omega)]
  -- the slab sits at offsets (24·t + k, 0, 0)
  funext a
  refine Fin.ext ?_
  rw [Rect.emb_apply, Rect.off_unit, Rect.stride_unit]
  have hoff := off_eq t hk
  match a with
  | ⟨0, h0⟩ =>
    have e : k0_off1 (grid0.coords t) (BitVec.ofNat 32 (k % 24)) ⟨0, h0⟩ = 24 * (grid0.coords t 0).val + k :=
      congrFun hoff ⟨0, h0⟩
    show k0_off1 (grid0.coords t) (BitVec.ofNat 32 (k % 24)) ⟨0, h0⟩ + 1 * 0 = ch.val
    omega
  | ⟨1, h1⟩ =>
    have e : k0_off1 (grid0.coords t) (BitVec.ofNat 32 (k % 24)) ⟨1, h1⟩ = 0 := congrFun hoff ⟨1, h1⟩
    show k0_off1 (grid0.coords t) (BitVec.ofNat 32 (k % 24)) ⟨1, h1⟩ + 1 * r.val = r.val
    omega
  | ⟨2, h2⟩ =>
    have e : k0_off1 (grid0.coords t) (BitVec.ofNat 32 (k % 24)) ⟨2, h2⟩ = 0 := congrFun hoff ⟨2, h2⟩
    show k0_off1 (grid0.coords t) (BitVec.ofNat 32 (k % 24)) ⟨2, h2⟩ + 1 * q.val = q.val
    omega

/-- Right after copy k of point t, channel 24·t + k holds the picture. -/
theorem Wn_succ_at (c : Dev nD) (t : Fin grid0.N) (fv : Bf (F := F) c (Memref.whole main_v9))
    (b : S1024x1024.Idx → Elt F .f32) {k : ℕ} (hk : k < 24) (ch : Fin 48)
    (hch : ch.val = 24 * (grid0.coords t 0).val + k) (r q : Fin 1024) :
    Wn c t fv b (k + 1) (ix3 ch r q) = b (ix2 r q) := by
  have h := View.write_emb_of_mem (v := (dstM t k).view) (Val := Elt F) (Wn c t fv b k) b
    (Finset.mem_univ (ix2 r q))
  rw [dst_emb t hk ch hch r q] at h
  rw [Wn_succ]
  exact h

/-- After all 24 copies of point t, channel 24·t + k holds the picture. -/
theorem Wn_point_at (c : Dev nD) (t : Fin grid0.N) (fv : Bf (F := F) c (Memref.whole main_v9))
    (b : S1024x1024.Idx → Elt F .f32) {k : ℕ} (hk : k < 24) (ch : Fin 48)
    (hch : ch.val = 24 * (grid0.coords t 0).val + k) (r q : Fin 1024) :
    Wn c t fv b 24 (ix3 ch r q) = b (ix2 r q) := by
  rw [Wn_of_not_mem c t fv b (k := k + 1) (n := 24) (by omega) (ix3 ch r q) (fun j hj1 hj2 =>
    not_mem_dst t hj2 (ix3 ch r q) (by show ch.val ≠ 24 * (grid0.coords t 0).val + j; omega))]
  exact Wn_succ_at c t fv b hk ch hch r q

/-! ## The result after both points -/

/-- After the copies of both points, every channel's pixel (r, q) is the picture's. -/
theorem Wn_both_ix3 (c : Dev nD) (fv : Bf (F := F) c (Memref.whole main_v9)) (b : S1024x1024.Idx → Elt F .f32)
    (ch : Fin 48) (r q : Fin 1024) :
    Wn c Gen.t0_1 (Wn c Gen.t0_0 fv b 24) b 24 (ix3 ch r q) = b (ix2 r q) := by
  by_cases h24 : ch.val < 24
  · -- a channel of the first point: the second point's copies leave it as the first point left it
    have hch : ch.val = 24 * (grid0.coords Gen.t0_0 0).val + ch.val := by rw [coords_t0_0]; omega
    rw [Wn_of_not_mem c Gen.t0_1 (Wn c Gen.t0_0 fv b 24) b (k := 0) (n := 24) (by omega) (ix3 ch r q) (fun j _ hj =>
      not_mem_dst Gen.t0_1 hj (ix3 ch r q) (by
        show ch.val ≠ 24 * (grid0.coords Gen.t0_1 0).val + j
        rw [coords_t0_1]; omega)), Wn_zero]
    exact Wn_point_at c Gen.t0_0 fv b h24 ch hch r q
  · -- a channel of the second point
    have hk : ch.val - 24 < 24 := by have := ch.isLt; omega
    have hch : ch.val = 24 * (grid0.coords Gen.t0_1 0).val + (ch.val - 24) := by rw [coords_t0_1]; omega
    exact Wn_point_at c Gen.t0_1 (Wn c Gen.t0_0 fv b 24) b hk ch hch r q

/-- The result after both points: 48 copies of the picture. -/
theorem Wn_both (c : Dev nD) (fv : Bf (F := F) c (Memref.whole main_v9)) (b : S1024x1024.Idx → Elt F .f32) :
    Wn c Gen.t0_1 (Wn c Gen.t0_0 fv b 24) b 24 = fun i : S48x1024x1024.Idx => b (ix2 (i 1) (i 2)) := by
  funext i
  obtain ⟨ch, r, q, rfl⟩ : ∃ (ch : Fin 48) (r q : Fin 1024), i = ix3 ch r q := ⟨i 0, i 1, i 2, eq_ix3 i⟩
  exact Wn_both_ix3 c fv b ch r q

end Cert.Kernel.Fan

end
-- ==== Proof.KFanBody.lean ====
/-
  The kernel's body, run once per grid point at symbolic contents. At point t the body starts 24 copies of its
  resident 1024 × 1024 picture, copy k into channel 24·t + k of the result on the k-th DMA semaphore of its own, and then
  waits for the 24. All 24 copies read the one picture at once: the picture is held as one read share per semaphore cell
  (cell k + 1 for copy k) beside a remainder, each copy borrows its cell's share and its own channel of the result and its
  wait returns both. After the waits the result is whole again with the 24 channels overwritten (`Wn … 24`), the picture
  and the 24 cells are as they were. The last sixteen channels come back into the rest of the result at their waits; the
  first eight are put back here, each one equal on its own channel to the final contents because the later copies land in
  other channels.
-/
import proofs.«173566_j57604101374655_2_alg».proof.Proof.KFanValue
import proofs.«173566_j57604101374655_2_alg».proof.Proof.Gen.Kernel.Skeleton
import proofs.«173566_j57604101374655_2_alg».proof.Proof.Gen.Kernel.Launch
import Idealize.ShloMosaic.Lib.Transfers
import Idealize.ShloMosaic.Lib.Writes
import Idealize.ShloMosaic.Lib.Pipeline.FrameBody
import Idealize.ShloMosaic.Lib.Tactic

noncomputable section

namespace Cert.Kernel.Fan

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's rounds copy beside the transfers' counters. -/
abbrev UC : Type := UR sig nD τ × Counters
local notation "𝕄" => MT nD τ sig Unit (Elt F) ℕ UC ℕ

/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- A part of a buffer held at contents `fs`, and the rest of `Ss` held at contents `g` that agree with `fs` on the part:
    `Ss` held at `g`. -/
theorem join_one {ℓ : Loc nD τ sig} {Ss I : Finset (Idx ℓ)} {q : PosShare TreeShare} {fs g : Buf (Elt F) ℓ} (hI : I ⊆ Ss)
    (hfg : ∀ i ∈ I, fs i = g i) : iprop((ℓ ↦[I]{q} fs) ∗ (ℓ ↦[Ss \ I]{q} g)) ⊢ (ℓ ↦[Ss]{q} g : sProp 𝕄) := by
  rw [pointsTo_congr hfg]; exact (pointsTo_split_subset hI).2

/-- On copy k's own channel the result after k + 1 copies is already the result after all 24: the later copies land in
    other channels. -/
theorem hfg (c : Dev nD) (t : Fin grid0.N) (fv : Bf (F := F) c (Memref.whole main_v9)) (b : S1024x1024.Idx → Elt F .f32) {k : ℕ} (hk : k < 24) :
    ∀ i ∈ (dstM t k).view.set, Wn c t fv b (k + 1) i = Wn c t fv b 24 i := fun i hi =>
  (Wn_of_not_mem c t fv b (by omega : k + 1 ≤ 24) i (fun j h1 h2 =>
    Finset.disjoint_left.mp (dst_disjoint t (j := k) (k := j) hk h2 (by omega)) hi)).symm

/-! Copy k's channel lies in the result less the channels of the copies before it. -/
theorem hI0 (t : Fin grid0.N) : (dstM t 0).view.set ⊆ (Finset.univ : Finset _) :=
  Finset.subset_univ _
theorem hI1 (t : Fin grid0.N) : (dstM t 1).view.set ⊆ ((Finset.univ : Finset _) \ (dstM t 0).view.set) :=
  Finset.subset_sdiff.2 ⟨Finset.subset_univ _, dst_disjoint t (by decide : 1 < 24) (by decide : 0 < 24) (by decide)⟩
theorem hI2 (t : Fin grid0.N) : (dstM t 2).view.set ⊆ (((Finset.univ : Finset _) \ (dstM t 0).view.set) \ (dstM t 1).view.set) :=
  Finset.subset_sdiff.2 ⟨Finset.subset_sdiff.2 ⟨Finset.subset_univ _, dst_disjoint t (by decide : 2 < 24) (by decide : 0 < 24) (by decide)⟩, dst_disjoint t (by decide : 2 < 24) (by decide : 1 < 24) (by decide)⟩
theorem hI3 (t : Fin grid0.N) : (dstM t 3).view.set ⊆ ((((Finset.univ : Finset _) \ (dstM t 0).view.set) \ (dstM t 1).view.set) \ (dstM t 2).view.set) :=
  Finset.subset_sdiff.2 ⟨Finset.subset_sdiff.2 ⟨Finset.subset_sdiff.2 ⟨Finset.subset_univ _, dst_disjoint t (by decide : 3 < 24) (by decide : 0 < 24) (by decide)⟩, dst_disjoint t (by decide : 3 < 24) (by decide : 1 < 24) (by decide)⟩, dst_disjoint t (by decide : 3 < 24) (by decide : 2 < 24) (by decide)⟩
theorem hI4 (t : Fin grid0.N) : (dstM t 4).view.set ⊆ (((((Finset.univ : Finset _) \ (dstM t 0).view.set) \ (dstM t 1).view.set) \ (dstM t 2).view.set) \ (dstM t 3).view.set) :=
  Finset.subset_sdiff.2 ⟨Finset.subset_sdiff.2 ⟨Finset.subset_sdiff.2 ⟨Finset.subset_sdiff.2 ⟨Finset.subset_univ _, dst_disjoint t (by decide : 4 < 24) (by decide : 0 < 24) (by decide)⟩, dst_disjoint t (by decide : 4 < 24) (by decide : 1 < 24) (by decide)⟩, dst_disjoint t (by decide : 4 < 24) (by decide : 2 < 24) (by decide)⟩, dst_disjoint t (by decide : 4 < 24) (by decide : 3 < 24) (by decide)⟩
theorem hI5 (t : Fin grid0.N) : (dstM t 5).view.set ⊆ ((((((Finset.univ : Finset _) \ (dstM t 0).view.set) \ (dstM t 1).view.set) \ (dstM t 2).view.set) \ (dstM t 3).view.set) \ (dstM t 4).view.set) :=
  Finset.subset_sdiff.2 ⟨Finset.subset_sdiff.2 ⟨Finset.subset_sdiff.2 ⟨Finset.subset_sdiff.2 ⟨Finset.subset_sdiff.2 ⟨Finset.subset_univ _, dst_disjoint t (by decide : 5 < 24) (by decide : 0 < 24) (by decide)⟩, dst_disjoint t (by decide : 5 < 24) (by decide : 1 < 24) (by decide)⟩, dst_disjoint t (by decide : 5 < 24) (by decide : 2 < 24) (by decide)⟩, dst_disjoint t (by decide : 5 < 24) (by decide : 3 < 24) (by decide)⟩, dst_disjoint t (by decide : 5 < 24) (by decide : 4 < 24) (by decide)⟩
theorem hI6 (t : Fin grid0.N) : (dstM t 6).view.set ⊆ (((((((Finset.univ : Finset _) \ (dstM t 0).view.set) \ (dstM t 1).view.set) \ (dstM t 2).view.set) \ (dstM t 3).view.set) \ (dstM t 4).view.set) \ (dstM t 5).view.set) :=
  Finset.subset_sdiff.2 ⟨Finset.subset_sdiff.2 ⟨Finset.subset_sdiff.2 ⟨Finset.subset_sdiff.2 ⟨Finset.subset_sdiff.2 ⟨Finset.subset_sdiff.2 ⟨Finset.subset_univ _, dst_disjoint t (by decide : 6 < 24) (by decide : 0 < 24) (by decide)⟩, dst_disjoint t (by decide : 6 < 24) (by decide : 1 < 24) (by decide)⟩, dst_disjoint t (by decide : 6 < 24) (by decide : 2 < 24) (by decide)⟩, dst_disjoint t (by decide : 6 < 24) (by decide : 3 < 24) (by decide)⟩, dst_disjoint t (by decide : 6 < 24) (by decide : 4 < 24) (by decide)⟩, dst_disjoint t (by decide : 6 < 24) (by decide : 5 < 24) (by decide)⟩
theorem hI7 (t : Fin grid0.N) : (dstM t 7).view.set ⊆ ((((((((Finset.univ : Finset _) \ (dstM t 0).view.set) \ (dstM t 1).view.set) \ (dstM t 2).view.set) \ (dstM t 3).view.set) \ (dstM t 4).view.set) \ (dstM t 5).view.set) \ (dstM t 6).view.set) :=
  Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, dst_disjoint t (by decide : 7 < 24) (by decide : 0 < 24) (by decide)⟩, dst_disjoint t (by decide : 7 < 24) (by decide : 1 < 24) (by decide)⟩, dst_disjoint t (by decide : 7 < 24) (by decide : 2 < 24) (by decide)⟩, dst_disjoint t (by decide : 7 < 24) (by decide : 3 < 24) (by decide)⟩, dst_disjoint t (by decide : 7 < 24) (by decide : 4 < 24) (by decide)⟩, dst_disjoint t (by decide : 7 < 24) (by decide : 5 < 24) (by decide)⟩, dst_disjoint t (by decide : 7 < 24) (by decide : 6 < 24) (by decide)⟩

section Runs
variable (c : Dev nD) (fv : Bf (F := F) c (Memref.whole main_v9))
  (M0 : Memref sig .tc .vmem S1024x1024 .f32) (h0 : M0.IsWhole) (f0 : Bf (F := F) c M0) (W : Waits sig Unit)

/-- The picture's read share for cell k, and the share left after k of them. -/
abbrev tok (k : ℕ) : sProp 𝕄 := M0.view.loc (c : Thread nD τ) ↦[M0.view.set]{Transfers.shareTokN fullShare k} f0
abbrev rest (k : ℕ) : sProp 𝕄 := M0.view.loc (c : Thread nD τ) ↦[M0.view.set]{Transfers.shareDrop fullShare k} f0
/-- The kernel's k-th DMA semaphore cell at zero. -/
abbrev sem0 (k : ℕ) (hk : k < 25) : sProp 𝕄 := semVal ((c : Thread nD τ), SemLoc.dma (⟨k, hk⟩ : DmaSem sig)) 0
/-- What every copy moves: the picture as the resident buffer reads it. -/
abbrev pay : S1024x1024.Idx → Elt F .f32 := ReadAs.same.apply (M0.view.read (Elt F) f0)

local notation "FAN" t => cc0__fanout_kernel (grid0.coords t) M0 h0 (Memref.whole main_v9) (Memref.isWhole_whole _) cc0_scratch0

set_option sl_exec.dmaWindow true in
set_option sl_exec.dmaWindowLent true in
/-- Point 0: the 24 copies are started, each lending its own channel of the result and one read share of the picture, and
    then waited for; everything comes back, the result with channels 0 … 23 overwritten by the picture. -/
theorem run0 (Q : PUnit → sProp 𝕄) :
    iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) fv ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide) ∗ owes (c : Thread nD τ) 0 W
      ∗ (iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) (Wn c t0_0 fv (pay c M0 f0) 24) ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)
          ∗ ∃ W', owes (c : Thread nD τ) 0 W') -∗ Q ⟨⟩))
      ⊢ wp frame (wpE (defs₀ (F := F)) Variants.none c none) Set.univ (FAN t0_0) Q := by
  iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, HO, Hk⟩
  sl_exec! (disch := decide)
  sl_step
  ihave Hv := (join_one (fs := Wn c t0_0 fv (pay c M0 f0) 8) (g := Wn c t0_0 fv (pay c M0 f0) 24) (hI7 t0_0) (hfg c t0_0 fv (pay c M0 f0) (k := 7) (by decide))) $$ [Hv_9 Hv]
  · isplitl [Hv_9]; · iexact Hv_9
    iexact Hv
  ihave Hv := (join_one (fs := Wn c t0_0 fv (pay c M0 f0) 7) (g := Wn c t0_0 fv (pay c M0 f0) 24) (hI6 t0_0) (hfg c t0_0 fv (pay c M0 f0) (k := 6) (by decide))) $$ [Hv_8 Hv]
  · isplitl [Hv_8]; · iexact Hv_8
    iexact Hv
  ihave Hv := (join_one (fs := Wn c t0_0 fv (pay c M0 f0) 6) (g := Wn c t0_0 fv (pay c M0 f0) 24) (hI5 t0_0) (hfg c t0_0 fv (pay c M0 f0) (k := 5) (by decide))) $$ [Hv_7 Hv]
  · isplitl [Hv_7]; · iexact Hv_7
    iexact Hv
  ihave Hv := (join_one (fs := Wn c t0_0 fv (pay c M0 f0) 5) (g := Wn c t0_0 fv (pay c M0 f0) 24) (hI4 t0_0) (hfg c t0_0 fv (pay c M0 f0) (k := 4) (by decide))) $$ [Hv_6 Hv]
  · isplitl [Hv_6]; · iexact Hv_6
    iexact Hv
  ihave Hv := (join_one (fs := Wn c t0_0 fv (pay c M0 f0) 4) (g := Wn c t0_0 fv (pay c M0 f0) 24) (hI3 t0_0) (hfg c t0_0 fv (pay c M0 f0) (k := 3) (by decide))) $$ [Hv_5 Hv]
  · isplitl [Hv_5]; · iexact Hv_5
    iexact Hv
  ihave Hv := (join_one (fs := Wn c t0_0 fv (pay c M0 f0) 3) (g := Wn c t0_0 fv (pay c M0 f0) 24) (hI2 t0_0) (hfg c t0_0 fv (pay c M0 f0) (k := 2) (by decide))) $$ [Hv_4 Hv]
  · isplitl [Hv_4]; · iexact Hv_4
    iexact Hv
  ihave Hv := (join_one (fs := Wn c t0_0 fv (pay c M0 f0) 2) (g := Wn c t0_0 fv (pay c M0 f0) 24) (hI1 t0_0) (hfg c t0_0 fv (pay c M0 f0) (k := 1) (by decide))) $$ [Hv_3 Hv]
  · isplitl [Hv_3]; · iexact Hv_3
    iexact Hv
  ihave Hv := (join_one (fs := Wn c t0_0 fv (pay c M0 f0) 1) (g := Wn c t0_0 fv (pay c M0 f0) 24) (hI0 t0_0) (hfg c t0_0 fv (pay c M0 f0) (k := 0) (by decide))) $$ [Hv_2 Hv]
  · isplitl [Hv_2]; · iexact Hv_2
    iexact Hv
  iapply Hk
  isplitl [Hr]; · iexact Hr
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [Hv]; · iexact Hv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  iexists _; iexact HO

set_option sl_exec.dmaWindow true in
set_option sl_exec.dmaWindowLent true in
/-- Point 1: the 24 copies are started, each lending its own channel of the result and one read share of the picture, and
    then waited for; everything comes back, the result with channels 24 … 47 overwritten by the picture. -/
theorem run1 (Q : PUnit → sProp 𝕄) :
    iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) fv ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide) ∗ owes (c : Thread nD τ) 0 W
      ∗ (iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) (Wn c t0_1 fv (pay c M0 f0) 24) ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)
          ∗ ∃ W', owes (c : Thread nD τ) 0 W') -∗ Q ⟨⟩))
      ⊢ wp frame (wpE (defs₀ (F := F)) Variants.none c none) Set.univ (FAN t0_1) Q := by
  iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, HO, Hk⟩
  sl_exec! (disch := decide)
  sl_step
  ihave Hv := (join_one (fs := Wn c t0_1 fv (pay c M0 f0) 8) (g := Wn c t0_1 fv (pay c M0 f0) 24) (hI7 t0_1) (hfg c t0_1 fv (pay c M0 f0) (k := 7) (by decide))) $$ [Hv_9 Hv]
  · isplitl [Hv_9]; · iexact Hv_9
    iexact Hv
  ihave Hv := (join_one (fs := Wn c t0_1 fv (pay c M0 f0) 7) (g := Wn c t0_1 fv (pay c M0 f0) 24) (hI6 t0_1) (hfg c t0_1 fv (pay c M0 f0) (k := 6) (by decide))) $$ [Hv_8 Hv]
  · isplitl [Hv_8]; · iexact Hv_8
    iexact Hv
  ihave Hv := (join_one (fs := Wn c t0_1 fv (pay c M0 f0) 6) (g := Wn c t0_1 fv (pay c M0 f0) 24) (hI5 t0_1) (hfg c t0_1 fv (pay c M0 f0) (k := 5) (by decide))) $$ [Hv_7 Hv]
  · isplitl [Hv_7]; · iexact Hv_7
    iexact Hv
  ihave Hv := (join_one (fs := Wn c t0_1 fv (pay c M0 f0) 5) (g := Wn c t0_1 fv (pay c M0 f0) 24) (hI4 t0_1) (hfg c t0_1 fv (pay c M0 f0) (k := 4) (by decide))) $$ [Hv_6 Hv]
  · isplitl [Hv_6]; · iexact Hv_6
    iexact Hv
  ihave Hv := (join_one (fs := Wn c t0_1 fv (pay c M0 f0) 4) (g := Wn c t0_1 fv (pay c M0 f0) 24) (hI3 t0_1) (hfg c t0_1 fv (pay c M0 f0) (k := 3) (by decide))) $$ [Hv_5 Hv]
  · isplitl [Hv_5]; · iexact Hv_5
    iexact Hv
  ihave Hv := (join_one (fs := Wn c t0_1 fv (pay c M0 f0) 3) (g := Wn c t0_1 fv (pay c M0 f0) 24) (hI2 t0_1) (hfg c t0_1 fv (pay c M0 f0) (k := 2) (by decide))) $$ [Hv_4 Hv]
  · isplitl [Hv_4]; · iexact Hv_4
    iexact Hv
  ihave Hv := (join_one (fs := Wn c t0_1 fv (pay c M0 f0) 2) (g := Wn c t0_1 fv (pay c M0 f0) 24) (hI1 t0_1) (hfg c t0_1 fv (pay c M0 f0) (k := 1) (by decide))) $$ [Hv_3 Hv]
  · isplitl [Hv_3]; · iexact Hv_3
    iexact Hv
  ihave Hv := (join_one (fs := Wn c t0_1 fv (pay c M0 f0) 1) (g := Wn c t0_1 fv (pay c M0 f0) 24) (hI0 t0_1) (hfg c t0_1 fv (pay c M0 f0) (k := 0) (by decide))) $$ [Hv_2 Hv]
  · isplitl [Hv_2]; · iexact Hv_2
    iexact Hv
  iapply Hk
  isplitl [Hr]; · iexact Hr
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [Hv]; · iexact Hv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  iexists _; iexact HO

end Runs

end Cert.Kernel.Fan

end
-- ==== Proof.LibReadShares.lean ====
/-
  One full share of a held region cut into 25 read shares and a remainder, and joined back. A region of a buffer held
  at the full share can be lent to only one reader at a time; to let 24 transfers read it at once the holder cuts the
  share in two, keeps the left half and sets the right half aside as a read share, and repeats on what it kept: after k
  cuts the remainder is the share halved k times and read share i is the right half of the remainder after i cuts. The
  shares are pairwise disjoint and compose to the full share, so the 25 cuts can be undone in the opposite order.
-/
import Idealize.ShloMosaic.Lib.Transfers

noncomputable section

namespace Cert.LibReadShares

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {S : Finset (Idx ℓ)} {f : Buf Val ℓ}

/-- What is left after k read shares is what is left after k + 1 and the k-th read share. -/
theorem tok_step (k : ℕ) :
    (ℓ ↦[S]{Transfers.shareDrop fullShare k} f : sProp 𝕄)
      ⊣⊢ iprop((ℓ ↦[S]{Transfers.shareDrop fullShare (k + 1)} f) ∗ (ℓ ↦[S]{Transfers.shareTokN fullShare k} f)) :=
  pointsTo_share (PosShare.mem_left_op_right _)

/-- The first cut, of the full share itself. -/
theorem tok_step0 :
    (ℓ ↦[S]{fullShare} f : sProp 𝕄)
      ⊣⊢ iprop((ℓ ↦[S]{Transfers.shareDrop fullShare 1} f) ∗ (ℓ ↦[S]{Transfers.shareTokN fullShare 0} f)) :=
  tok_step 0

/-- The full share cut into the remainder and read shares 0 … 24. -/
theorem toks_split : (ℓ ↦[S]{fullShare} f : sProp 𝕄) ⊢ iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) := by
  iintro H
  ihave H := (tok_step0 (ℓ := ℓ) (S := S) (f := f)).1 $$ H
  icases H with ⟨H, T0⟩
  ihave H := (tok_step (ℓ := ℓ) (S := S) (f := f) 1).1 $$ H
  icases H with ⟨H, T1⟩
  ihave H := (tok_step (ℓ := ℓ) (S := S) (f := f) 2).1 $$ H
  icases H with ⟨H, T2⟩
  ihave H := (tok_step (ℓ := ℓ) (S := S) (f := f) 3).1 $$ H
  icases H with ⟨H, T3⟩
  ihave H := (tok_step (ℓ := ℓ) (S := S) (f := f) 4).1 $$ H
  icases H with ⟨H, T4⟩
  ihave H := (tok_step (ℓ := ℓ) (S := S) (f := f) 5).1 $$ H
  icases H with ⟨H, T5⟩
  ihave H := (tok_step (ℓ := ℓ) (S := S) (f := f) 6).1 $$ H
  icases H with ⟨H, T6⟩
  ihave H := (tok_step (ℓ := ℓ) (S := S) (f := f) 7).1 $$ H
  icases H with ⟨H, T7⟩
  ihave H := (tok_step (ℓ := ℓ) (S := S) (f := f) 8).1 $$ H
  icases H with ⟨H, T8⟩
  ihave H := (tok_step (ℓ := ℓ) (S := S) (f := f) 9).1 $$ H
  icases H with ⟨H, T9⟩
  ihave H := (tok_step (ℓ := ℓ) (S := S) (f := f) 10).1 $$ H
  icases H with ⟨H, T10⟩
  ihave H := (tok_step (ℓ := ℓ) (S := S) (f := f) 11).1 $$ H
  icases H with ⟨H, T11⟩
  ihave H := (tok_step (ℓ := ℓ) (S := S) (f := f) 12).1 $$ H
  icases H with ⟨H, T12⟩
  ihave H := (tok_step (ℓ := ℓ) (S := S) (f := f) 13).1 $$ H
  icases H with ⟨H, T13⟩
  ihave H := (tok_step (ℓ := ℓ) (S := S) (f := f) 14).1 $$ H
  icases H with ⟨H, T14⟩
  ihave H := (tok_step (ℓ := ℓ) (S := S) (f := f) 15).1 $$ H
  icases H with ⟨H, T15⟩
  ihave H := (tok_step (ℓ := ℓ) (S := S) (f := f) 16).1 $$ H
  icases H with ⟨H, T16⟩
  ihave H := (tok_step (ℓ := ℓ) (S := S) (f := f) 17).1 $$ H
  icases H with ⟨H, T17⟩
  ihave H := (tok_step (ℓ := ℓ) (S := S) (f := f) 18).1 $$ H
  icases H with ⟨H, T18⟩
  ihave H := (tok_step (ℓ := ℓ) (S := S) (f := f) 19).1 $$ H
  icases H with ⟨H, T19⟩
  ihave H := (tok_step (ℓ := ℓ) (S := S) (f := f) 20).1 $$ H
  icases H with ⟨H, T20⟩
  ihave H := (tok_step (ℓ := ℓ) (S := S) (f := f) 21).1 $$ H
  icases H with ⟨H, T21⟩
  ihave H := (tok_step (ℓ := ℓ) (S := S) (f := f) 22).1 $$ H
  icases H with ⟨H, T22⟩
  ihave H := (tok_step (ℓ := ℓ) (S := S) (f := f) 23).1 $$ H
  icases H with ⟨H, T23⟩
  ihave H := (tok_step (ℓ := ℓ) (S := S) (f := f) 24).1 $$ H
  icases H with ⟨H, T24⟩
  isplitl [H]; · iexact H
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  iexact T24

/-- And joined back. -/
theorem toks_join : iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) ⊢ (ℓ ↦[S]{fullShare} f : sProp 𝕄) := by
  iintro ⟨H, T0, T1, T2, T3, T4, T5, T6, T7, T8, T9, T10, T11, T12, T13, T14, T15, T16, T17, T18, T19, T20, T21, T22, T23, T24⟩
  ihave H := (tok_step (ℓ := ℓ) (S := S) (f := f) 24).2 $$ [H T24]
  · isplitl [H] <;> iassumption
  ihave H := (tok_step (ℓ := ℓ) (S := S) (f := f) 23).2 $$ [H T23]
  · isplitl [H] <;> iassumption
  ihave H := (tok_step (ℓ := ℓ) (S := S) (f := f) 22).2 $$ [H T22]
  · isplitl [H] <;> iassumption
  ihave H := (tok_step (ℓ := ℓ) (S := S) (f := f) 21).2 $$ [H T21]
  · isplitl [H] <;> iassumption
  ihave H := (tok_step (ℓ := ℓ) (S := S) (f := f) 20).2 $$ [H T20]
  · isplitl [H] <;> iassumption
  ihave H := (tok_step (ℓ := ℓ) (S := S) (f := f) 19).2 $$ [H T19]
  · isplitl [H] <;> iassumption
  ihave H := (tok_step (ℓ := ℓ) (S := S) (f := f) 18).2 $$ [H T18]
  · isplitl [H] <;> iassumption
  ihave H := (tok_step (ℓ := ℓ) (S := S) (f := f) 17).2 $$ [H T17]
  · isplitl [H] <;> iassumption
  ihave H := (tok_step (ℓ := ℓ) (S := S) (f := f) 16).2 $$ [H T16]
  · isplitl [H] <;> iassumption
  ihave H := (tok_step (ℓ := ℓ) (S := S) (f := f) 15).2 $$ [H T15]
  · isplitl [H] <;> iassumption
  ihave H := (tok_step (ℓ := ℓ) (S := S) (f := f) 14).2 $$ [H T14]
  · isplitl [H] <;> iassumption
  ihave H := (tok_step (ℓ := ℓ) (S := S) (f := f) 13).2 $$ [H T13]
  · isplitl [H] <;> iassumption
  ihave H := (tok_step (ℓ := ℓ) (S := S) (f := f) 12).2 $$ [H T12]
  · isplitl [H] <;> iassumption
  ihave H := (tok_step (ℓ := ℓ) (S := S) (f := f) 11).2 $$ [H T11]
  · isplitl [H] <;> iassumption
  ihave H := (tok_step (ℓ := ℓ) (S := S) (f := f) 10).2 $$ [H T10]
  · isplitl [H] <;> iassumption
  ihave H := (tok_step (ℓ := ℓ) (S := S) (f := f) 9).2 $$ [H T9]
  · isplitl [H] <;> iassumption
  ihave H := (tok_step (ℓ := ℓ) (S := S) (f := f) 8).2 $$ [H T8]
  · isplitl [H] <;> iassumption
  ihave H := (tok_step (ℓ := ℓ) (S := S) (f := f) 7).2 $$ [H T7]
  · isplitl [H] <;> iassumption
  ihave H := (tok_step (ℓ := ℓ) (S := S) (f := f) 6).2 $$ [H T6]
  · isplitl [H] <;> iassumption
  ihave H := (tok_step (ℓ := ℓ) (S := S) (f := f) 5).2 $$ [H T5]
  · isplitl [H] <;> iassumption
  ihave H := (tok_step (ℓ := ℓ) (S := S) (f := f) 4).2 $$ [H T4]
  · isplitl [H] <;> iassumption
  ihave H := (tok_step (ℓ := ℓ) (S := S) (f := f) 3).2 $$ [H T3]
  · isplitl [H] <;> iassumption
  ihave H := (tok_step (ℓ := ℓ) (S := S) (f := f) 2).2 $$ [H T2]
  · isplitl [H] <;> iassumption
  ihave H := (tok_step (ℓ := ℓ) (S := S) (f := f) 1).2 $$ [H T1]
  · isplitl [H] <;> iassumption
  ihave H := (tok_step0 (ℓ := ℓ) (S := S) (f := f)).2 $$ [H T0]
  · isplitl [H] <;> iassumption
  iexact H

end Cert.LibReadShares

end
-- ==== Proof.KFanRun.lean ====
/-
  The kernel's launch. @main is fourteen host operations (seven of its own, the three of the elementwise choice it
  calls, and four more of its own: together they build the 1024 × 1024 picture) and then one two-point pipeline.
  The pipeline stages the picture once in on-chip memory and keeps it there; at point t the body copies it into
  channels 24·t … 24·t + 23 of the 48-channel result by 24 transfers of its own on 24 semaphore cells of its own, and
  waits for them all. The result is no window's array: it is carried through the body's invariant, which between
  points is just "the result whole at its contents so far, the 24 cells at zero" — every point drains what it
  issues. All 24 transfers of a point read the one picture at once, so the body's full share of the staged picture is
  cut into 24 read shares (and a remainder) before the point's run and joined back after it. The run's post: the
  result holds the picture in all 48 channels (`written`), the argument is as launched.
-/
import proofs.«173566_j57604101374655_2_alg».proof.Proof.KFanBody
import Idealize.ShloMosaic.Lib.Pipeline.Routed
import proofs.«173566_j57604101374655_2_alg».proof.Proof.LibReadShares
import proofs.«173566_j57604101374655_2_alg».proof.Proof.Gen.Kernel.Frame
import proofs.«173566_j57604101374655_2_alg».proof.Proof.Gen.Kernel.Points

set_option maxRecDepth 16384

noncomputable section

namespace Cert.Kernel.Fan

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

/-! ## One full share as 24 read shares and a remainder -/

section Shares
variable {ℓ : Loc nD τ sig} {S : Finset (Idx ℓ)} {f : Buf (Elt F) ℓ}

/-- What is left after k read shares is what is left after k + 1 and the k-th read share. -/
theorem tok_step (k : ℕ) :
    (ℓ ↦[S]{Transfers.shareDrop fullShare k} f : sProp 𝕄)
      ⊣⊢ iprop((ℓ ↦[S]{Transfers.shareDrop fullShare (k + 1)} f) ∗ (ℓ ↦[S]{Transfers.shareTokN fullShare k} f)) :=
  Cert.LibReadShares.tok_step k

/-- The first cut, of the full share itself. -/
theorem tok_step0 :
    (ℓ ↦[S]{fullShare} f : sProp 𝕄)
      ⊣⊢ iprop((ℓ ↦[S]{Transfers.shareDrop fullShare 1} f) ∗ (ℓ ↦[S]{Transfers.shareTokN fullShare 0} f)) :=
  Cert.LibReadShares.tok_step0

/-- The full share cut into the remainder and read shares 0 … 24. -/
theorem toks_split : (ℓ ↦[S]{fullShare} f : sProp 𝕄) ⊢ iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) :=
  Cert.LibReadShares.toks_split

/-- And joined back. -/
theorem toks_join : iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) ⊢ (ℓ ↦[S]{fullShare} f : sProp 𝕄) :=
  Cert.LibReadShares.toks_join

end Shares

variable (m : (ℓ : Loc nD τ sig) → Buf (Elt F) ℓ) (ρ : Dev nD → PrngReg)

/-! ## The kernel's own cells -/

/-- The kernel's own cells: DMA semaphores 1 … 24 (0 is the staging buffer's), cell k + 1 for copy k. -/
abbrev osem : Fin 24 → SemLoc sig := fun k => .dma (⟨k.val + 1, by have := k.isLt; omega⟩ : Fin 25)

omit [FloatOps F] in
/-- The 24 cells at zero, listed. -/
theorem ownSems0_eq (c : Dev nD) :
    (Pipeline.ownSems0 (Ix := Unit) (Name := ℕ) (U := UC) (Lvl := ℕ) (Val := Elt F) (τ := τ) osem c : sProp 𝕄)
      = iprop(sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)) :=
  Pipeline.ownSems0_eq_of_list c osem [0, 1, 2, 3, 4, 5, 6, 7, 8, 9, 10, 11, 12, 13, 14, 15, 16, 17, 18, 19, 20, 21, 22, 23] (by decide) (by decide)

/-- The layout the launch needs of the kernel's own semaphores: scoped, distinct, and none the staging semaphore. -/
theorem ownSemFacts : Pipeline.OwnSemFacts spec0 osem := by decide

/-- The ends of the invariant at this program's lists: the result buffer, the 24 cells, no other scoped buffer, the register. -/
theorem ends_eq (c : Dev nD) (W : (b : Ref sig .tc) → Buf (Elt F) ((c : Thread nD τ).loc b)) :
    (Ends spec0 osem {main_v9} c W : sProp 𝕄)
      = iprop(pt c (Memref.whole main_v9) (W main_v9)
          ∗ (sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide))
          ∗ (BI.emp : sProp 𝕄) ∗ ∃ r, prngReg c r) := by
  unfold Ends; rw [routed_singleton, ownSems0_eq, scopedRest0_eq]

/-! ## The result, point by point -/

/-- The result after point 0: channels 0 … 23 hold the picture. -/
def written0 (c : Dev nD) : Bf (F := F) c (Memref.whole main_v9) := Wn c t0_0 (V m c main_v9) (iblk m c 0 t0_0) 24
/-- The result after point 1: channels 24 … 47 hold it too. -/
def written (c : Dev nD) : Bf (F := F) c (Memref.whole main_v9) := Wn c t0_1 (written0 m c) (iblk m c 0 t0_1) 24

/-- The routed buffer's contents between the points and at the exit, as valuations. -/
def Y0 (c : Dev nD) : (b : Ref sig .tc) → Buf (Elt F) ((c : Thread nD τ).loc b) := Function.update (V m c) main_v9 (written0 m c)
def Y (c : Dev nD) : (b : Ref sig .tc) → Buf (Elt F) ((c : Thread nD τ).loc b) := Function.update (V m c) main_v9 (written m c)

theorem Y0_main_v9 (c : Dev nD) : Y0 m c main_v9 = written0 m c := Function.update_self ..
theorem Y_main_v9 (c : Dev nD) : Y m c main_v9 = written m c := Function.update_self ..

/-! ## The proof data -/

/-- The proof data on core `c`: the picture's array at its entry contents; after the body the staging buffer still at
    the picture; the invariant the ends at the result's contents so far; nothing owed; the full share. -/
def dats (_ : Fin 1) (c : Dev nD) : Dat τ (Elt F) Unit ℕ UC ℕ cfg0 c where
  A w := V m c (Pipeline.arrRef spec0 w)
  after w t := match w with
    | ⟨0, _⟩ => iblk m c 0 t
  Φ t := match t with
    | ⟨0, _⟩ => Ends spec0 osem {main_v9} c (V m c)
    | ⟨1, _⟩ => Ends spec0 osem {main_v9} c (Y0 m c)
    | ⟨_ + 2, _⟩ => Ends spec0 osem {main_v9} c (Y m c)
  q _ := fullShare
  owed _ := 0

abbrev 𝒱₀ : Variants := Variants.none

theorem after_0 (c : Dev nD) (t : Fin cfg0.N) : (dats m 0 c).after 0 t = iblk m c 0 t := by dsimp only [dats]

/-- The staging buffer holds the picture when the body runs, at the point that fetched it and at the one that did not:
    the block index does not move and the body leaves the buffer as it found it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rfl) t d).trans
    (by unfold Dat.fetched Dat.blockOf iblk; rfl)

/-- @main up to the region: the three stretches of host operations, then the region. -/
theorem hmainC : Pipeline.HMain (Ix := Unit) (Name := ℕ) (U := UC) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The core's `owes` as the post wants it, from what a run hands back (the bound is everything: nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at each point: the ends taken apart, the staged picture's share cut, the point's run applied, everything
    put back as the ends at the next contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [after_0]
  unfold Dat.owesAt Pipeline.owesWithin
  rw [show (dats m 0 c).owed t.castSucc = 0 from rfl]
  rcases fin_N0 t with rfl | rfl
  · -- point 0: the picture's full share cut into the 24 read shares, the copies run, the shares joined back
    rw [show (dats m 0 c).Φ t0_0.castSucc = Ends spec0 osem {main_v9} c (V m c) from rfl,
      show (dats m 0 c).Φ t0_0.succ = Ends spec0 osem {main_v9} c (Y0 m c) from rfl, ends_eq, ends_eq, Y0_main_v9]
    unfold owns
    iintro ⟨⟨Hv, ⟨S1, S2, S3, S4, S5, S6, S7, S8, S9, S10, S11, S12, S13, S14, S15, S16, S17, S18, S19, S20, S21, S22, S23, S24⟩, He, Hp⟩, ⟨%W, %hW, HO⟩, ⟨%d0, %f0, %hf0, H0⟩⟩
    have hw : Wn c t0_0 (V m c main_v9) (pay c (st0_0 t0_0) f0) 24 = written0 m c := by
      unfold written0
      rw [← hf0]
    ihave H := (toks_split (ℓ := (st0_0 t0_0).view.loc (c : Thread nD τ)) (S := (st0_0 t0_0).view.set) (f := f0)) $$ H0
    icases H with ⟨Hr, T0, T1, T2, T3, T4, T5, T6, T7, T8, T9, T10, T11, T12, T13, T14, T15, T16, T17, T18, T19, T20, T21, T22, T23, T24⟩
    iapply (run0 c (V m c main_v9) (st0_0 t0_0) (hstage0_0 ((cfg0.slots t0_0 0).cast nbuf0_0)) f0 W)
    isplitl [Hr]; · iexact Hr
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [Hv]; · iexact Hv
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [HO]; · iexact HO
    iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, ⟨%W', HO⟩⟩
    isplitl [Hv S1 S2 S3 S4 S5 S6 S7 S8 S9 S10 S11 S12 S13 S14 S15 S16 S17 S18 S19 S20 S21 S22 S23 S24 He Hp]
    · isplitl [Hv]; · rw [← hw]; iexact Hv
      isplitl [S1 S2 S3 S4 S5 S6 S7 S8 S9 S10 S11 S12 S13 S14 S15 S16 S17 S18 S19 S20 S21 S22 S23 S24]
      · isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        iexact S24
      isplitl [He]; · iexact He
      iexact Hp
    isplitl [HO]; · iapply (owesAt_intro m c); iexact HO
    iexists f0
    isplitr; · ipureintro; exact hf0
    iapply (toks_join (ℓ := (st0_0 t0_0).view.loc (c : Thread nD τ)) (S := (st0_0 t0_0).view.set) (f := f0))
    isplitl [Hr]; · iexact Hr
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    iexact T24
  · -- point 1: the picture's full share cut into the 24 read shares, the copies run, the shares joined back
    rw [show (dats m 0 c).Φ t0_1.castSucc = Ends spec0 osem {main_v9} c (Y0 m c) from rfl,
      show (dats m 0 c).Φ t0_1.succ = Ends spec0 osem {main_v9} c (Y m c) from rfl, ends_eq, ends_eq, Y_main_v9, Y0_main_v9]
    unfold owns
    iintro ⟨⟨Hv, ⟨S1, S2, S3, S4, S5, S6, S7, S8, S9, S10, S11, S12, S13, S14, S15, S16, S17, S18, S19, S20, S21, S22, S23, S24⟩, He, Hp⟩, ⟨%W, %hW, HO⟩, ⟨%d0, %f0, %hf0, H0⟩⟩
    have hw : Wn c t0_1 (written0 m c) (pay c (st0_0 t0_1) f0) 24 = written m c := by
      unfold written
      rw [← hf0]
    ihave H := (toks_split (ℓ := (st0_0 t0_1).view.loc (c : Thread nD τ)) (S := (st0_0 t0_1).view.set) (f := f0)) $$ H0
    icases H with ⟨Hr, T0, T1, T2, T3, T4, T5, T6, T7, T8, T9, T10, T11, T12, T13, T14, T15, T16, T17, T18, T19, T20, T21, T22, T23, T24⟩
    iapply (run1 c (written0 m c) (st0_0 t0_1) (hstage0_0 ((cfg0.slots t0_1 0).cast nbuf0_0)) f0 W)
    isplitl [Hr]; · iexact Hr
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [Hv]; · iexact Hv
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [HO]; · iexact HO
    iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, ⟨%W', HO⟩⟩
    isplitl [Hv S1 S2 S3 S4 S5 S6 S7 S8 S9 S10 S11 S12 S13 S14 S15 S16 S17 S18 S19 S20 S21 S22 S23 S24 He Hp]
    · isplitl [Hv]; · rw [← hw]; iexact Hv
      isplitl [S1 S2 S3 S4 S5 S6 S7 S8 S9 S10 S11 S12 S13 S14 S15 S16 S17 S18 S19 S20 S21 S22 S23 S24]
      · isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        iexact S24
      isplitl [He]; · iexact He
      iexact Hp
    isplitl [HO]; · iapply (owesAt_intro m c); iexact HO
    iexists f0
    isplitr; · ipureintro; exact hf0
    iapply (toks_join (ℓ := (st0_0 t0_1).view.loc (c : Thread nD τ)) (S := (st0_0 t0_1).view.set) (f := f0))
    isplitl [Hr]; · iexact Hr
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    iexact T24

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The launch -/

/-- At the compiled mesh, for any float values, from any memory with zero counters: every weakly fair execution of
    @main on the TensorCores terminates, and every final state has the picture's array at the library's account of an
    input window, the result at `written`, and every other unscoped buffer as the host operations left it. -/
theorem run_main : θ_run defs (onTc (τ := τ) (main (F := F))) (s₀ m ρ) (RoutedPost cfgs (dats m) 0 {main_v9} (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := hmainC m)
    (hA := fun _ _ => rfl) (R := {main_v9}) (hR := by decide) (Y := Y m) (hin := fun _ => .rfl) (hout := fun _ => .rfl)

/-! ## The final contents, read off the post -/

variable {m ρ}

theorem final_v9 {r : PUnit × MemSt nD τ sig (Elt F)} (h : RoutedPost cfgs (dats m) 0 {main_v9} (V m) (Y m) r) (c : Dev nD) :
    r.2.mem ((c : Thread nD τ).loc main_v9) = written m c :=
  ((h c).2.1 main_v9 (Finset.mem_singleton_self _)).trans (Y_main_v9 m c)

theorem final_arg0 {r : PUnit × MemSt nD τ sig (Elt F)} (h : RoutedPost cfgs (dats m) 0 {main_v9} (V m) (Y m) r) (c : Dev nD) :
    r.2.mem ((c : Thread nD τ).loc main_arg0) = m ((c : Thread nD τ).loc main_arg0) :=
  ((h c).2.2 main_arg0 (Finset.mem_sdiff.2 ⟨Pipeline.mem_restRefs_of main_arg0 (by decide) (by decide), by decide⟩)).trans
    (V_main_arg0 m c)

end Cert.Kernel.Fan

end
-- ==== Proof.FanViews.lean ====
/-
  The places the kernel's copies land. At grid point t the body starts 24 copies of its resident
  1024 × 1024 picture, copy k into channel 24·t + k of the 48-channel result, and then waits for all of
  them. `dstM t k` is copy k's destination (the one-channel slab at channel 24·t + k with its unit
  axis dropped), and `Wn t fv b n` is the result buffer after the first n copies of point t have
  landed, starting from contents `fv`, every copy carrying the same picture `b`.
-/
import proofs.«173566_j57604101374655_2_alg».proof.Proof.Gen.KernelIdeal

noncomputable section

namespace Cert.KernelIdeal.Fan

open Cert.KernelIdeal Cert.KernelIdeal.Gen
open Idealize.ShloMosaic Idealize.ShloMosaic.TcCoe

variable {F : FTy → Type} [FloatOps F]

/-- Memref `M`'s buffer contents on core `c`. -/
abbrev Bf (c : Dev nD) {sp : Space} {S : Shape} {e : EltTy} (M : Memref sig .tc sp S e) : Type := Buf (Elt F) (M.view.loc (c : Thread nD τ))

/-- Copy k's destination at point t: channel 24·t + k of the result (k is read mod 24). -/
abbrev dstM (t : Fin grid0.N) (k : ℕ) : Memref sig .tc .hbm S1024x1024 .f32 :=
  ((Memref.whole main_v9).slice (Rect.unit (s := S48x1024x1024) (k0_off1 (grid0.coords t) (BitVec.ofNat 32 (k % 24))) S1x1024x1024.size
      (k0_off1_inb (grid0.coords t) ⟨k % 24, Nat.mod_lt _ (by decide)⟩)) (fun _ => rfl)).squeeze S1024x1024 squeezes_S1x1024x1024_S1024x1024

/-- The result after the first n copies of point t, each writing the picture `b` over its whole channel. -/
def Wn (c : Dev nD) (t : Fin grid0.N) (fv : Bf (F := F) c (Memref.whole main_v9)) (b : S1024x1024.Idx → Elt F .f32) :
    ℕ → Bf (F := F) c (Memref.whole main_v9)
  | 0 => fv
  | n + 1 => (dstM t n).view.write (Elt F) (Wn c t fv b n) b Finset.univ

end Cert.KernelIdeal.Fan

end
-- ==== Proof.FanValue.lean ====
/-
  Where the kernel's 48 copies land, and what the result holds after them.

  Copy k of grid point t writes the one-channel slab of the result at channel 24·t + k. Two slabs at different
  channels are disjoint (they differ in the leading coordinate), so a copy leaves every other channel as it was;
  the slab's own pixel (r, q) is result element (24·t + k, r, q). After the 24 copies of both points every channel
  holds the copied picture.
-/
import proofs.«173566_j57604101374655_2_alg».proof.Proof.FanViews
import proofs.«173566_j57604101374655_2_alg».proof.Proof.Gen.KernelIdeal.Launch
import Idealize.ShloMosaic.Lib.ValueIdx

set_option maxRecDepth 16384

noncomputable section

namespace Cert.KernelIdeal.Fan

open Cert.KernelIdeal Cert.KernelIdeal.Gen
open Idealize.ShloMosaic Idealize.ShloMosaic.TcCoe Idealize.ShloMosaic.ValueIdx

variable {F : FTy → Type} [FloatOps F]

/-! ## The slabs -/

/-- The offsets of copy k's slab at point t: channel 24·t + k, then the whole picture. -/
theorem off_eq (t : Fin grid0.N) {k : ℕ} (hk : k < 24) :
    k0_off1 (grid0.coords t) (BitVec.ofNat 32 (k % 24)) = ![24 * (grid0.coords t 0).val + k, 0, 0] := by
  have e : k0_off1 (grid0.coords t) (BitVec.ofNat 32 (k % 24)) = ![24 * (grid0.coords t 0).val + k % 24, 0, 0] :=
    k0_off1_eq (grid0.coords t) ⟨k % 24, Nat.mod_lt _ (by decide)⟩
  rw [e, Nat.mod_eq_of_lt hk]

/-- The two grid points' coordinates. -/
theorem coords_t0_0 : (grid0.coords Gen.t0_0 0).val = 0 := by decide
theorem coords_t0_1 : (grid0.coords Gen.t0_1 0).val = 1 := by decide

/-- The elements under copy k's destination are the slab's rectangle. -/
theorem dst_set (t : Fin grid0.N) (k : ℕ) :
    (dstM t k).view.set
      = (Rect.unit (s := S48x1024x1024) (k0_off1 (grid0.coords t) (BitVec.ofNat 32 (k % 24))) S1x1024x1024.size
          (k0_off1_inb (grid0.coords t) ⟨k % 24, Nat.mod_lt _ (by decide)⟩)).set := by
  show (((View.whole main_v9).slice _).reshape S1024x1024 _).set = _
  rw [View.set_reshape, View.set_slice_whole]

/-- Slabs at channels c₁ ≠ c₂ are disjoint: they are separated on the leading axis. -/
theorem slab_disjoint (t t' : Fin grid0.N) {j k : ℕ} (hj : j < 24) (hk : k < 24)
    (h : 24 * (grid0.coords t 0).val + j ≠ 24 * (grid0.coords t' 0).val + k) :
    Disjoint (dstM t j).view.set (dstM t' k).view.set := by
  rw [dst_set, dst_set]
  refine Rect.unit_disjoint (0 : Fin 3) ?_
  rw [off_eq t hj, off_eq t' hk]
  show 24 * (grid0.coords t 0).val + j + 1 ≤ 24 * (grid0.coords t' 0).val + k
    ∨ 24 * (grid0.coords t' 0).val + k + 1 ≤ 24 * (grid0.coords t 0).val + j
  omega

/-- Two different copies of one point write disjoint slabs. -/
theorem dst_disjoint (t : Fin grid0.N) {j k : ℕ} (hj : j < 24) (hk : k < 24) (hjk : j ≠ k) :
    Disjoint (dstM t j).view.set (dstM t k).view.set :=
  slab_disjoint t t hj hk (by omega)

/-- A copy of the first point and a copy of the second write disjoint slabs. -/
theorem dst_disjoint_points {j k : ℕ} (hj : j < 24) (hk : k < 24) :
    Disjoint (dstM Gen.t0_0 j).view.set (dstM Gen.t0_1 k).view.set :=
  slab_disjoint Gen.t0_0 Gen.t0_1 hj hk (by rw [coords_t0_0, coords_t0_1]; omega)

/-- An element whose leading coordinate is not 24·t + k lies outside copy k's slab at point t. -/
theorem not_mem_dst (t : Fin grid0.N) {k : ℕ} (hk : k < 24) (i : S48x1024x1024.Idx)
    (h : (i 0).val ≠ 24 * (grid0.coords t 0).val + k) : i ∉ (dstM t k).view.set := by
  rw [dst_set, Rect.mem_set_unit]
  intro hall
  have h0 := hall (0 : Fin 3)
  rw [off_eq t hk] at h0
  have h1 : 24 * (grid0.coords t 0).val + k ≤ (i 0).val ∧ (i 0).val < 24 * (grid0.coords t 0).val + k + 1 := h0
  omega

/-! ## The result between copies -/

/-- Before any copy the result is what it was. -/
theorem Wn_zero (c : Dev nD) (t : Fin grid0.N) (fv : Bf (F := F) c (Memref.whole main_v9))
    (b : S1024x1024.Idx → Elt F .f32) : Wn c t fv b 0 = fv := rfl

/-- One more copy writes the picture over its slab. -/
theorem Wn_succ (c : Dev nD) (t : Fin grid0.N) (fv : Bf (F := F) c (Memref.whole main_v9))
    (b : S1024x1024.Idx → Elt F .f32) (n : ℕ) :
    Wn c t fv b (n + 1) = (dstM t n).view.write (Elt F) (Wn c t fv b n) b Finset.univ := rfl

-- From here on the result after n copies is handled only through the two equations above.
attribute [local irreducible] Wn

/-- An element no copy from the k-th to the n-th touches is after n copies what it was after k. -/
theorem Wn_of_not_mem (c : Dev nD) (t : Fin grid0.N) (fv : Bf (F := F) c (Memref.whole main_v9))
    (b : S1024x1024.Idx → Elt F .f32) {k n : ℕ} (hkn : k ≤ n) (i : S48x1024x1024.Idx)
    (h : ∀ j, k ≤ j → j < n → i ∉ (dstM t j).view.set) : Wn c t fv b n i = Wn c t fv b k i := by
  induction n, hkn using Nat.le_induction with
  | base => rfl
  | succ n hkn ih =>
    have step : Wn c t fv b (n + 1) i = Wn c t fv b n i := by
      rw [Wn_succ]
      exact View.write_of_not_mem _ _ _ (by rw [View.setOn_univ]; exact h n hkn (Nat.lt_succ_self n))
    rw [step]
    exact ih (fun j hj hjn => h j hj (Nat.lt_succ_of_lt hjn))

/-! ## A copy at its own slab -/

/-- Pixel (r, q) of copy k's destination at point t is result element (24·t + k, r, q). -/
theorem dst_emb (t : Fin grid0.N) {k : ℕ} (hk : k < 24) (ch : Fin 48) (hch : ch.val = 24 * (grid0.coords t 0).val + k)
    (r q : Fin 1024) : (dstM t k).view.emb (ix2 r q) = ix3 ch r q := by
  show (Rect.unit (s := S48x1024x1024) (k0_off1 (grid0.coords t) (BitVec.ofNat 32 (k % 24))) S1x1024x1024.size
      (k0_off1_inb (grid0.coords t) ⟨k % 24, Nat.mod_lt _ (by decide)⟩)).emb
    (Shape.reshapeEquiv squeezes_S1x1024x1024_S1024x1024.numel_eq (ix2 r q)) = _
  -- dropping the unit axis keeps the row-major position: (r, q) is (0, r, q)
  rw [Shape.reshapeEquiv_eq_of_rowMajor (y := ix3 (0 : Fin 1) r q) _
    (by rw [Shape.rowMajor_val_three, Shape.rowMajor_val_two]
        show (0 * 1024 + r.val) * 1024 + q.val = r.val * 1024 + q.val
        omega)]
  -- the slab sits at offsets (24·t + k, 0, 0)
  funext a
  refine Fin.ext ?_
  rw [Rect.emb_apply, Rect.off_unit, Rect.stride_unit]
  have hoff := off_eq t hk
  match a with
  | ⟨0, h0⟩ =>
    have e : k0_off1 (grid0.coords t) (BitVec.ofNat 32 (k % 24)) ⟨0, h0⟩ = 24 * (grid0.coords t 0).val + k :=
      congrFun hoff ⟨0, h0⟩
    show k0_off1 (grid0.coords t) (BitVec.ofNat 32 (k % 24)) ⟨0, h0⟩ + 1 * 0 = ch.val
    omega
  | ⟨1, h1⟩ =>
    have e : k0_off1 (grid0.coords t) (BitVec.ofNat 32 (k % 24)) ⟨1, h1⟩ = 0 := congrFun hoff ⟨1, h1⟩
    show k0_off1 (grid0.coords t) (BitVec.ofNat 32 (k % 24)) ⟨1, h1⟩ + 1 * r.val = r.val
    omega
  | ⟨2, h2⟩ =>
    have e : k0_off1 (grid0.coords t) (BitVec.ofNat 32 (k % 24)) ⟨2, h2⟩ = 0 := congrFun hoff ⟨2, h2⟩
    show k0_off1 (grid0.coords t) (BitVec.ofNat 32 (k % 24)) ⟨2, h2⟩ + 1 * q.val = q.val
    omega

/-- Right after copy k of point t, channel 24·t + k holds the picture. -/
theorem Wn_succ_at (c : Dev nD) (t : Fin grid0.N) (fv : Bf (F := F) c (Memref.whole main_v9))
    (b : S1024x1024.Idx → Elt F .f32) {k : ℕ} (hk : k < 24) (ch : Fin 48)
    (hch : ch.val = 24 * (grid0.coords t 0).val + k) (r q : Fin 1024) :
    Wn c t fv b (k + 1) (ix3 ch r q) = b (ix2 r q) := by
  have h := View.write_emb_of_mem (v := (dstM t k).view) (Val := Elt F) (Wn c t fv b k) b
    (Finset.mem_univ (ix2 r q))
  rw [dst_emb t hk ch hch r q] at h
  rw [Wn_succ]
  exact h

/-- After all 24 copies of point t, channel 24·t + k holds the picture. -/
theorem Wn_point_at (c : Dev nD) (t : Fin grid0.N) (fv : Bf (F := F) c (Memref.whole main_v9))
    (b : S1024x1024.Idx → Elt F .f32) {k : ℕ} (hk : k < 24) (ch : Fin 48)
    (hch : ch.val = 24 * (grid0.coords t 0).val + k) (r q : Fin 1024) :
    Wn c t fv b 24 (ix3 ch r q) = b (ix2 r q) := by
  rw [Wn_of_not_mem c t fv b (k := k + 1) (n := 24) (by omega) (ix3 ch r q) (fun j hj1 hj2 =>
    not_mem_dst t hj2 (ix3 ch r q) (by show ch.val ≠ 24 * (grid0.coords t 0).val + j; omega))]
  exact Wn_succ_at c t fv b hk ch hch r q

/-! ## The result after both points -/

/-- After the copies of both points, every channel's pixel (r, q) is the picture's. -/
theorem Wn_both_ix3 (c : Dev nD) (fv : Bf (F := F) c (Memref.whole main_v9)) (b : S1024x1024.Idx → Elt F .f32)
    (ch : Fin 48) (r q : Fin 1024) :
    Wn c Gen.t0_1 (Wn c Gen.t0_0 fv b 24) b 24 (ix3 ch r q) = b (ix2 r q) := by
  by_cases h24 : ch.val < 24
  · -- a channel of the first point: the second point's copies leave it as the first point left it
    have hch : ch.val = 24 * (grid0.coords Gen.t0_0 0).val + ch.val := by rw [coords_t0_0]; omega
    rw [Wn_of_not_mem c Gen.t0_1 (Wn c Gen.t0_0 fv b 24) b (k := 0) (n := 24) (by omega) (ix3 ch r q) (fun j _ hj =>
      not_mem_dst Gen.t0_1 hj (ix3 ch r q) (by
        show ch.val ≠ 24 * (grid0.coords Gen.t0_1 0).val + j
        rw [coords_t0_1]; omega)), Wn_zero]
    exact Wn_point_at c Gen.t0_0 fv b h24 ch hch r q
  · -- a channel of the second point
    have hk : ch.val - 24 < 24 := by have := ch.isLt; omega
    have hch : ch.val = 24 * (grid0.coords Gen.t0_1 0).val + (ch.val - 24) := by rw [coords_t0_1]; omega
    exact Wn_point_at c Gen.t0_1 (Wn c Gen.t0_0 fv b 24) b hk ch hch r q

/-- The result after both points: 48 copies of the picture. -/
theorem Wn_both (c : Dev nD) (fv : Bf (F := F) c (Memref.whole main_v9)) (b : S1024x1024.Idx → Elt F .f32) :
    Wn c Gen.t0_1 (Wn c Gen.t0_0 fv b 24) b 24 = fun i : S48x1024x1024.Idx => b (ix2 (i 1) (i 2)) := by
  funext i
  obtain ⟨ch, r, q, rfl⟩ : ∃ (ch : Fin 48) (r q : Fin 1024), i = ix3 ch r q := ⟨i 0, i 1, i 2, eq_ix3 i⟩
  exact Wn_both_ix3 c fv b ch r q

end Cert.KernelIdeal.Fan

end
-- ==== Proof.FanBody.lean ====
/-
  The kernel's body, run once per grid point at symbolic contents. At point t the body starts 24 copies of its
  resident 1024 × 1024 picture, copy k into channel 24·t + k of the result on the k-th DMA semaphore of its own, and then
  waits for the 24. All 24 copies read the one picture at once: the picture is held as one read share per semaphore cell
  (cell k + 1 for copy k) beside a remainder, each copy borrows its cell's share and its own channel of the result and its
  wait returns both. After the waits the result is whole again with the 24 channels overwritten (`Wn … 24`), the picture
  and the 24 cells are as they were. The last sixteen channels come back into the rest of the result at their waits; the
  first eight are put back here, each one equal on its own channel to the final contents because the later copies land in
  other channels.
-/
import proofs.«173566_j57604101374655_2_alg».proof.Proof.FanValue
import proofs.«173566_j57604101374655_2_alg».proof.Proof.Gen.KernelIdeal.Skeleton
import proofs.«173566_j57604101374655_2_alg».proof.Proof.Gen.KernelIdeal.Launch
import Idealize.ShloMosaic.Lib.Transfers
import Idealize.ShloMosaic.Lib.Writes
import Idealize.ShloMosaic.Lib.Pipeline.FrameBody
import Idealize.ShloMosaic.Lib.Tactic

noncomputable section

namespace Cert.KernelIdeal.Fan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's rounds copy beside the transfers' counters. -/
abbrev UC : Type := UR sig nD τ × Counters
local notation "𝕄" => MT nD τ sig Unit (Elt F) ℕ UC ℕ

/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- A part of a buffer held at contents `fs`, and the rest of `Ss` held at contents `g` that agree with `fs` on the part:
    `Ss` held at `g`. -/
theorem join_one {ℓ : Loc nD τ sig} {Ss I : Finset (Idx ℓ)} {q : PosShare TreeShare} {fs g : Buf (Elt F) ℓ} (hI : I ⊆ Ss)
    (hfg : ∀ i ∈ I, fs i = g i) : iprop((ℓ ↦[I]{q} fs) ∗ (ℓ ↦[Ss \ I]{q} g)) ⊢ (ℓ ↦[Ss]{q} g : sProp 𝕄) := by
  rw [pointsTo_congr hfg]; exact (pointsTo_split_subset hI).2

/-- On copy k's own channel the result after k + 1 copies is already the result after all 24: the later copies land in
    other channels. -/
theorem hfg (c : Dev nD) (t : Fin grid0.N) (fv : Bf (F := F) c (Memref.whole main_v9)) (b : S1024x1024.Idx → Elt F .f32) {k : ℕ} (hk : k < 24) :
    ∀ i ∈ (dstM t k).view.set, Wn c t fv b (k + 1) i = Wn c t fv b 24 i := fun i hi =>
  (Wn_of_not_mem c t fv b (by omega : k + 1 ≤ 24) i (fun j h1 h2 =>
    Finset.disjoint_left.mp (dst_disjoint t (j := k) (k := j) hk h2 (by omega)) hi)).symm

/-! Copy k's channel lies in the result less the channels of the copies before it. -/
theorem hI0 (t : Fin grid0.N) : (dstM t 0).view.set ⊆ (Finset.univ : Finset _) :=
  Finset.subset_univ _
theorem hI1 (t : Fin grid0.N) : (dstM t 1).view.set ⊆ ((Finset.univ : Finset _) \ (dstM t 0).view.set) :=
  Finset.subset_sdiff.2 ⟨Finset.subset_univ _, dst_disjoint t (by decide : 1 < 24) (by decide : 0 < 24) (by decide)⟩
theorem hI2 (t : Fin grid0.N) : (dstM t 2).view.set ⊆ (((Finset.univ : Finset _) \ (dstM t 0).view.set) \ (dstM t 1).view.set) :=
  Finset.subset_sdiff.2 ⟨Finset.subset_sdiff.2 ⟨Finset.subset_univ _, dst_disjoint t (by decide : 2 < 24) (by decide : 0 < 24) (by decide)⟩, dst_disjoint t (by decide : 2 < 24) (by decide : 1 < 24) (by decide)⟩
theorem hI3 (t : Fin grid0.N) : (dstM t 3).view.set ⊆ ((((Finset.univ : Finset _) \ (dstM t 0).view.set) \ (dstM t 1).view.set) \ (dstM t 2).view.set) :=
  Finset.subset_sdiff.2 ⟨Finset.subset_sdiff.2 ⟨Finset.subset_sdiff.2 ⟨Finset.subset_univ _, dst_disjoint t (by decide : 3 < 24) (by decide : 0 < 24) (by decide)⟩, dst_disjoint t (by decide : 3 < 24) (by decide : 1 < 24) (by decide)⟩, dst_disjoint t (by decide : 3 < 24) (by decide : 2 < 24) (by decide)⟩
theorem hI4 (t : Fin grid0.N) : (dstM t 4).view.set ⊆ (((((Finset.univ : Finset _) \ (dstM t 0).view.set) \ (dstM t 1).view.set) \ (dstM t 2).view.set) \ (dstM t 3).view.set) :=
  Finset.subset_sdiff.2 ⟨Finset.subset_sdiff.2 ⟨Finset.subset_sdiff.2 ⟨Finset.subset_sdiff.2 ⟨Finset.subset_univ _, dst_disjoint t (by decide : 4 < 24) (by decide : 0 < 24) (by decide)⟩, dst_disjoint t (by decide : 4 < 24) (by decide : 1 < 24) (by decide)⟩, dst_disjoint t (by decide : 4 < 24) (by decide : 2 < 24) (by decide)⟩, dst_disjoint t (by decide : 4 < 24) (by decide : 3 < 24) (by decide)⟩
theorem hI5 (t : Fin grid0.N) : (dstM t 5).view.set ⊆ ((((((Finset.univ : Finset _) \ (dstM t 0).view.set) \ (dstM t 1).view.set) \ (dstM t 2).view.set) \ (dstM t 3).view.set) \ (dstM t 4).view.set) :=
  Finset.subset_sdiff.2 ⟨Finset.subset_sdiff.2 ⟨Finset.subset_sdiff.2 ⟨Finset.subset_sdiff.2 ⟨Finset.subset_sdiff.2 ⟨Finset.subset_univ _, dst_disjoint t (by decide : 5 < 24) (by decide : 0 < 24) (by decide)⟩, dst_disjoint t (by decide : 5 < 24) (by decide : 1 < 24) (by decide)⟩, dst_disjoint t (by decide : 5 < 24) (by decide : 2 < 24) (by decide)⟩, dst_disjoint t (by decide : 5 < 24) (by decide : 3 < 24) (by decide)⟩, dst_disjoint t (by decide : 5 < 24) (by decide : 4 < 24) (by decide)⟩
theorem hI6 (t : Fin grid0.N) : (dstM t 6).view.set ⊆ (((((((Finset.univ : Finset _) \ (dstM t 0).view.set) \ (dstM t 1).view.set) \ (dstM t 2).view.set) \ (dstM t 3).view.set) \ (dstM t 4).view.set) \ (dstM t 5).view.set) :=
  Finset.subset_sdiff.2 ⟨Finset.subset_sdiff.2 ⟨Finset.subset_sdiff.2 ⟨Finset.subset_sdiff.2 ⟨Finset.subset_sdiff.2 ⟨Finset.subset_sdiff.2 ⟨Finset.subset_univ _, dst_disjoint t (by decide : 6 < 24) (by decide : 0 < 24) (by decide)⟩, dst_disjoint t (by decide : 6 < 24) (by decide : 1 < 24) (by decide)⟩, dst_disjoint t (by decide : 6 < 24) (by decide : 2 < 24) (by decide)⟩, dst_disjoint t (by decide : 6 < 24) (by decide : 3 < 24) (by decide)⟩, dst_disjoint t (by decide : 6 < 24) (by decide : 4 < 24) (by decide)⟩, dst_disjoint t (by decide : 6 < 24) (by decide : 5 < 24) (by decide)⟩
theorem hI7 (t : Fin grid0.N) : (dstM t 7).view.set ⊆ ((((((((Finset.univ : Finset _) \ (dstM t 0).view.set) \ (dstM t 1).view.set) \ (dstM t 2).view.set) \ (dstM t 3).view.set) \ (dstM t 4).view.set) \ (dstM t 5).view.set) \ (dstM t 6).view.set) :=
  Finset.subset_sdiff.2 ⟨Finset.subset_sdiff.2 ⟨Finset.subset_sdiff.2 ⟨Finset.subset_sdiff.2 ⟨Finset.subset_sdiff.2 ⟨Finset.subset_sdiff.2 ⟨Finset.subset_sdiff.2 ⟨Finset.subset_univ _, dst_disjoint t (by decide : 7 < 24) (by decide : 0 < 24) (by decide)⟩, dst_disjoint t (by decide : 7 < 24) (by decide : 1 < 24) (by decide)⟩, dst_disjoint t (by decide : 7 < 24) (by decide : 2 < 24) (by decide)⟩, dst_disjoint t (by decide : 7 < 24) (by decide : 3 < 24) (by decide)⟩, dst_disjoint t (by decide : 7 < 24) (by decide : 4 < 24) (by decide)⟩, dst_disjoint t (by decide : 7 < 24) (by decide : 5 < 24) (by decide)⟩, dst_disjoint t (by decide : 7 < 24) (by decide : 6 < 24) (by decide)⟩

section Runs
variable (c : Dev nD) (fv : Bf (F := F) c (Memref.whole main_v9))
  (M0 : Memref sig .tc .vmem S1024x1024 .f32) (h0 : M0.IsWhole) (f0 : Bf (F := F) c M0) (W : Waits sig Unit)

/-- The picture's read share for cell k, and the share left after k of them. -/
abbrev tok (k : ℕ) : sProp 𝕄 := M0.view.loc (c : Thread nD τ) ↦[M0.view.set]{Transfers.shareTokN fullShare k} f0
abbrev rest (k : ℕ) : sProp 𝕄 := M0.view.loc (c : Thread nD τ) ↦[M0.view.set]{Transfers.shareDrop fullShare k} f0
/-- The kernel's k-th DMA semaphore cell at zero. -/
abbrev sem0 (k : ℕ) (hk : k < 25) : sProp 𝕄 := semVal ((c : Thread nD τ), SemLoc.dma (⟨k, hk⟩ : DmaSem sig)) 0
/-- What every copy moves: the picture as the resident buffer reads it. -/
abbrev pay : S1024x1024.Idx → Elt F .f32 := ReadAs.same.apply (M0.view.read (Elt F) f0)

local notation "FAN" t => cc0__fanout_kernel (grid0.coords t) M0 h0 (Memref.whole main_v9) (Memref.isWhole_whole _) cc0_scratch0

set_option sl_exec.dmaWindow true in
set_option sl_exec.dmaWindowLent true in
/-- Point 0: the 24 copies are started, each lending its own channel of the result and one read share of the picture, and
    then waited for; everything comes back, the result with channels 0 … 23 overwritten by the picture. -/
theorem run0 (Q : PUnit → sProp 𝕄) :
    iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) fv ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide) ∗ owes (c : Thread nD τ) 0 W
      ∗ (iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) (Wn c t0_0 fv (pay c M0 f0) 24) ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)
          ∗ ∃ W', owes (c : Thread nD τ) 0 W') -∗ Q ⟨⟩))
      ⊢ wp frame (wpE (defs₀ (F := F)) Variants.none c none) Set.univ (FAN t0_0) Q := by
  iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, HO, Hk⟩
  sl_exec! (disch := decide)
  sl_step
  ihave Hv := (join_one (fs := Wn c t0_0 fv (pay c M0 f0) 8) (g := Wn c t0_0 fv (pay c M0 f0) 24) (hI7 t0_0) (hfg c t0_0 fv (pay c M0 f0) (k := 7) (by decide))) $$ [Hv_9 Hv]
  · isplitl [Hv_9]; · iexact Hv_9
    iexact Hv
  ihave Hv := (join_one (fs := Wn c t0_0 fv (pay c M0 f0) 7) (g := Wn c t0_0 fv (pay c M0 f0) 24) (hI6 t0_0) (hfg c t0_0 fv (pay c M0 f0) (k := 6) (by decide))) $$ [Hv_8 Hv]
  · isplitl [Hv_8]; · iexact Hv_8
    iexact Hv
  ihave Hv := (join_one (fs := Wn c t0_0 fv (pay c M0 f0) 6) (g := Wn c t0_0 fv (pay c M0 f0) 24) (hI5 t0_0) (hfg c t0_0 fv (pay c M0 f0) (k := 5) (by decide))) $$ [Hv_7 Hv]
  · isplitl [Hv_7]; · iexact Hv_7
    iexact Hv
  ihave Hv := (join_one (fs := Wn c t0_0 fv (pay c M0 f0) 5) (g := Wn c t0_0 fv (pay c M0 f0) 24) (hI4 t0_0) (hfg c t0_0 fv (pay c M0 f0) (k := 4) (by decide))) $$ [Hv_6 Hv]
  · isplitl [Hv_6]; · iexact Hv_6
    iexact Hv
  ihave Hv := (join_one (fs := Wn c t0_0 fv (pay c M0 f0) 4) (g := Wn c t0_0 fv (pay c M0 f0) 24) (hI3 t0_0) (hfg c t0_0 fv (pay c M0 f0) (k := 3) (by decide))) $$ [Hv_5 Hv]
  · isplitl [Hv_5]; · iexact Hv_5
    iexact Hv
  ihave Hv := (join_one (fs := Wn c t0_0 fv (pay c M0 f0) 3) (g := Wn c t0_0 fv (pay c M0 f0) 24) (hI2 t0_0) (hfg c t0_0 fv (pay c M0 f0) (k := 2) (by decide))) $$ [Hv_4 Hv]
  · isplitl [Hv_4]; · iexact Hv_4
    iexact Hv
  ihave Hv := (join_one (fs := Wn c t0_0 fv (pay c M0 f0) 2) (g := Wn c t0_0 fv (pay c M0 f0) 24) (hI1 t0_0) (hfg c t0_0 fv (pay c M0 f0) (k := 1) (by decide))) $$ [Hv_3 Hv]
  · isplitl [Hv_3]; · iexact Hv_3
    iexact Hv
  ihave Hv := (join_one (fs := Wn c t0_0 fv (pay c M0 f0) 1) (g := Wn c t0_0 fv (pay c M0 f0) 24) (hI0 t0_0) (hfg c t0_0 fv (pay c M0 f0) (k := 0) (by decide))) $$ [Hv_2 Hv]
  · isplitl [Hv_2]; · iexact Hv_2
    iexact Hv
  iapply Hk
  isplitl [Hr]; · iexact Hr
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [Hv]; · iexact Hv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  iexists _; iexact HO

set_option sl_exec.dmaWindow true in
set_option sl_exec.dmaWindowLent true in
/-- Point 1: the 24 copies are started, each lending its own channel of the result and one read share of the picture, and
    then waited for; everything comes back, the result with channels 24 … 47 overwritten by the picture. -/
theorem run1 (Q : PUnit → sProp 𝕄) :
    iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) fv ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide) ∗ owes (c : Thread nD τ) 0 W
      ∗ (iprop(rest c M0 f0 25 ∗ tok c M0 f0 1 ∗ tok c M0 f0 2 ∗ tok c M0 f0 3 ∗ tok c M0 f0 4 ∗ tok c M0 f0 5 ∗ tok c M0 f0 6 ∗ tok c M0 f0 7 ∗ tok c M0 f0 8 ∗ tok c M0 f0 9 ∗ tok c M0 f0 10 ∗ tok c M0 f0 11 ∗ tok c M0 f0 12 ∗ tok c M0 f0 13 ∗ tok c M0 f0 14 ∗ tok c M0 f0 15 ∗ tok c M0 f0 16 ∗ tok c M0 f0 17 ∗ tok c M0 f0 18 ∗ tok c M0 f0 19 ∗ tok c M0 f0 20 ∗ tok c M0 f0 21 ∗ tok c M0 f0 22 ∗ tok c M0 f0 23 ∗ tok c M0 f0 24 ∗ pt c (Memref.whole main_v9) (Wn c t0_1 fv (pay c M0 f0) 24) ∗ sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)
          ∗ ∃ W', owes (c : Thread nD τ) 0 W') -∗ Q ⟨⟩))
      ⊢ wp frame (wpE (defs₀ (F := F)) Variants.none c none) Set.univ (FAN t0_1) Q := by
  iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, HO, Hk⟩
  sl_exec! (disch := decide)
  sl_step
  ihave Hv := (join_one (fs := Wn c t0_1 fv (pay c M0 f0) 8) (g := Wn c t0_1 fv (pay c M0 f0) 24) (hI7 t0_1) (hfg c t0_1 fv (pay c M0 f0) (k := 7) (by decide))) $$ [Hv_9 Hv]
  · isplitl [Hv_9]; · iexact Hv_9
    iexact Hv
  ihave Hv := (join_one (fs := Wn c t0_1 fv (pay c M0 f0) 7) (g := Wn c t0_1 fv (pay c M0 f0) 24) (hI6 t0_1) (hfg c t0_1 fv (pay c M0 f0) (k := 6) (by decide))) $$ [Hv_8 Hv]
  · isplitl [Hv_8]; · iexact Hv_8
    iexact Hv
  ihave Hv := (join_one (fs := Wn c t0_1 fv (pay c M0 f0) 6) (g := Wn c t0_1 fv (pay c M0 f0) 24) (hI5 t0_1) (hfg c t0_1 fv (pay c M0 f0) (k := 5) (by decide))) $$ [Hv_7 Hv]
  · isplitl [Hv_7]; · iexact Hv_7
    iexact Hv
  ihave Hv := (join_one (fs := Wn c t0_1 fv (pay c M0 f0) 5) (g := Wn c t0_1 fv (pay c M0 f0) 24) (hI4 t0_1) (hfg c t0_1 fv (pay c M0 f0) (k := 4) (by decide))) $$ [Hv_6 Hv]
  · isplitl [Hv_6]; · iexact Hv_6
    iexact Hv
  ihave Hv := (join_one (fs := Wn c t0_1 fv (pay c M0 f0) 4) (g := Wn c t0_1 fv (pay c M0 f0) 24) (hI3 t0_1) (hfg c t0_1 fv (pay c M0 f0) (k := 3) (by decide))) $$ [Hv_5 Hv]
  · isplitl [Hv_5]; · iexact Hv_5
    iexact Hv
  ihave Hv := (join_one (fs := Wn c t0_1 fv (pay c M0 f0) 3) (g := Wn c t0_1 fv (pay c M0 f0) 24) (hI2 t0_1) (hfg c t0_1 fv (pay c M0 f0) (k := 2) (by decide))) $$ [Hv_4 Hv]
  · isplitl [Hv_4]; · iexact Hv_4
    iexact Hv
  ihave Hv := (join_one (fs := Wn c t0_1 fv (pay c M0 f0) 2) (g := Wn c t0_1 fv (pay c M0 f0) 24) (hI1 t0_1) (hfg c t0_1 fv (pay c M0 f0) (k := 1) (by decide))) $$ [Hv_3 Hv]
  · isplitl [Hv_3]; · iexact Hv_3
    iexact Hv
  ihave Hv := (join_one (fs := Wn c t0_1 fv (pay c M0 f0) 1) (g := Wn c t0_1 fv (pay c M0 f0) 24) (hI0 t0_1) (hfg c t0_1 fv (pay c M0 f0) (k := 0) (by decide))) $$ [Hv_2 Hv]
  · isplitl [Hv_2]; · iexact Hv_2
    iexact Hv
  iapply Hk
  isplitl [Hr]; · iexact Hr
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  isplitl [T23]; · iexact T23
  isplitl [T24]; · iexact T24
  isplitl [Hv]; · iexact Hv
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  iexists _; iexact HO

end Runs

end Cert.KernelIdeal.Fan

end
-- ==== Proof.FanRun.lean ====
/-
  The kernel's launch. @main is fourteen host operations (seven of its own, the three of the elementwise choice it
  calls, and four more of its own: together they build the 1024 × 1024 picture) and then one two-point pipeline.
  The pipeline stages the picture once in on-chip memory and keeps it there; at point t the body copies it into
  channels 24·t … 24·t + 23 of the 48-channel result by 24 transfers of its own on 24 semaphore cells of its own, and
  waits for them all. The result is no window's array: it is carried through the body's invariant, which between
  points is just "the result whole at its contents so far, the 24 cells at zero" — every point drains what it
  issues. All 24 transfers of a point read the one picture at once, so the body's full share of the staged picture is
  cut into 24 read shares (and a remainder) before the point's run and joined back after it. The run's post: the
  result holds the picture in all 48 channels (`written`), the argument is as launched.
-/
import proofs.«173566_j57604101374655_2_alg».proof.Proof.FanBody
import Idealize.ShloMosaic.Lib.Pipeline.Routed
import proofs.«173566_j57604101374655_2_alg».proof.Proof.LibReadShares
import proofs.«173566_j57604101374655_2_alg».proof.Proof.Gen.KernelIdeal.Frame
import proofs.«173566_j57604101374655_2_alg».proof.Proof.Gen.KernelIdeal.Points

set_option maxRecDepth 16384

noncomputable section

namespace Cert.KernelIdeal.Fan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

/-! ## One full share as 24 read shares and a remainder -/

section Shares
variable {ℓ : Loc nD τ sig} {S : Finset (Idx ℓ)} {f : Buf (Elt F) ℓ}

/-- What is left after k read shares is what is left after k + 1 and the k-th read share. -/
theorem tok_step (k : ℕ) :
    (ℓ ↦[S]{Transfers.shareDrop fullShare k} f : sProp 𝕄)
      ⊣⊢ iprop((ℓ ↦[S]{Transfers.shareDrop fullShare (k + 1)} f) ∗ (ℓ ↦[S]{Transfers.shareTokN fullShare k} f)) :=
  Cert.LibReadShares.tok_step k

/-- The first cut, of the full share itself. -/
theorem tok_step0 :
    (ℓ ↦[S]{fullShare} f : sProp 𝕄)
      ⊣⊢ iprop((ℓ ↦[S]{Transfers.shareDrop fullShare 1} f) ∗ (ℓ ↦[S]{Transfers.shareTokN fullShare 0} f)) :=
  Cert.LibReadShares.tok_step0

/-- The full share cut into the remainder and read shares 0 … 24. -/
theorem toks_split : (ℓ ↦[S]{fullShare} f : sProp 𝕄) ⊢ iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) :=
  Cert.LibReadShares.toks_split

/-- And joined back. -/
theorem toks_join : iprop((ℓ ↦[S]{Transfers.shareDrop fullShare 25} f) ∗ (ℓ ↦[S]{Transfers.shareTokN fullShare 0} f) ∗ (ℓ ↦[S]{Transfers.shareTokN fullShare 1} f) ∗ (ℓ ↦[S]{Transfers.shareTokN fullShare 2} f) ∗ (ℓ ↦[S]{Transfers.shareTokN fullShare 3} f) ∗ (ℓ ↦[S]{Transfers.shareTokN fullShare 4} f) ∗ (ℓ ↦[S]{Transfers.shareTokN fullShare 5} f) ∗ (ℓ ↦[S]{Transfers.shareTokN fullShare 6} f) ∗ (ℓ ↦[S]{Transfers.shareTokN fullShare 7} f) ∗ (ℓ ↦[S]{Transfers.shareTokN fullShare 8} f) ∗ (ℓ ↦[S]{Transfers.shareTokN fullShare 9} f) ∗ (ℓ ↦[S]{Transfers.shareTokN fullShare 10} f) ∗ (ℓ ↦[S]{Transfers.shareTokN fullShare 11} f) ∗ (ℓ ↦[S]{Transfers.shareTokN fullShare 12} f) ∗ (ℓ ↦[S]{Transfers.shareTokN fullShare 13} f) ∗ (ℓ ↦[S]{Transfers.shareTokN fullShare 14} f) ∗ (ℓ ↦[S]{Transfers.shareTokN fullShare 15} f) ∗ (ℓ ↦[S]{Transfers.shareTokN fullShare 16} f) ∗ (ℓ ↦[S]{Transfers.shareTokN fullShare 17} f) ∗ (ℓ ↦[S]{Transfers.shareTokN fullShare 18} f) ∗ (ℓ ↦[S]{Transfers.shareTokN fullShare 19} f) ∗ (ℓ ↦[S]{Transfers.shareTokN fullShare 20} f) ∗ (ℓ ↦[S]{Transfers.shareTokN fullShare 21} f) ∗ (ℓ ↦[S]{Transfers.shareTokN fullShare 22} f) ∗ (ℓ ↦[S]{Transfers.shareTokN fullShare 23} f) ∗ (ℓ ↦[S]{Transfers.shareTokN fullShare 24} f)) ⊢ (ℓ ↦[S]{fullShare} f : sProp 𝕄) :=
  Cert.LibReadShares.toks_join

end Shares

variable (m : (ℓ : Loc nD τ sig) → Buf (Elt F) ℓ) (ρ : Dev nD → PrngReg)

/-! ## The kernel's own cells -/

/-- The kernel's own cells: DMA semaphores 1 … 24 (0 is the staging buffer's), cell k + 1 for copy k. -/
abbrev osem : Fin 24 → SemLoc sig := fun k => .dma (⟨k.val + 1, by have := k.isLt; omega⟩ : Fin 25)

omit [FloatOps F] in
/-- The 24 cells at zero, listed. -/
theorem ownSems0_eq (c : Dev nD) :
    (Pipeline.ownSems0 (Ix := Unit) (Name := ℕ) (U := UC) (Lvl := ℕ) (Val := Elt F) (τ := τ) osem c : sProp 𝕄)
      = iprop(sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide)) :=
  Pipeline.ownSems0_eq_of_list c osem [0, 1, 2, 3, 4, 5, 6, 7, 8, 9, 10, 11, 12, 13, 14, 15, 16, 17, 18, 19, 20, 21, 22, 23] (by decide) (by decide)

/-- The layout the launch needs of the kernel's own semaphores: scoped, distinct, and none the staging semaphore. -/
theorem ownSemFacts : Pipeline.OwnSemFacts spec0 osem := by decide

/-- The ends of the invariant at this program's lists: the result buffer, the 24 cells, no other scoped buffer, the register. -/
theorem ends_eq (c : Dev nD) (W : (b : Ref sig .tc) → Buf (Elt F) ((c : Thread nD τ).loc b)) :
    (Ends spec0 osem {main_v9} c W : sProp 𝕄)
      = iprop(pt c (Memref.whole main_v9) (W main_v9)
          ∗ (sem0 (F := F) c 1 (by decide) ∗ sem0 (F := F) c 2 (by decide) ∗ sem0 (F := F) c 3 (by decide) ∗ sem0 (F := F) c 4 (by decide) ∗ sem0 (F := F) c 5 (by decide) ∗ sem0 (F := F) c 6 (by decide) ∗ sem0 (F := F) c 7 (by decide) ∗ sem0 (F := F) c 8 (by decide) ∗ sem0 (F := F) c 9 (by decide) ∗ sem0 (F := F) c 10 (by decide) ∗ sem0 (F := F) c 11 (by decide) ∗ sem0 (F := F) c 12 (by decide) ∗ sem0 (F := F) c 13 (by decide) ∗ sem0 (F := F) c 14 (by decide) ∗ sem0 (F := F) c 15 (by decide) ∗ sem0 (F := F) c 16 (by decide) ∗ sem0 (F := F) c 17 (by decide) ∗ sem0 (F := F) c 18 (by decide) ∗ sem0 (F := F) c 19 (by decide) ∗ sem0 (F := F) c 20 (by decide) ∗ sem0 (F := F) c 21 (by decide) ∗ sem0 (F := F) c 22 (by decide) ∗ sem0 (F := F) c 23 (by decide) ∗ sem0 (F := F) c 24 (by decide))
          ∗ (BI.emp : sProp 𝕄) ∗ ∃ r, prngReg c r) := by
  unfold Ends; rw [routed_singleton, ownSems0_eq, scopedRest0_eq]

/-! ## The result, point by point -/

/-- The result after point 0: channels 0 … 23 hold the picture. -/
def written0 (c : Dev nD) : Bf (F := F) c (Memref.whole main_v9) := Wn c t0_0 (V m c main_v9) (iblk m c 0 t0_0) 24
/-- The result after point 1: channels 24 … 47 hold it too. -/
def written (c : Dev nD) : Bf (F := F) c (Memref.whole main_v9) := Wn c t0_1 (written0 m c) (iblk m c 0 t0_1) 24

/-- The routed buffer's contents between the points and at the exit, as valuations. -/
def Y0 (c : Dev nD) : (b : Ref sig .tc) → Buf (Elt F) ((c : Thread nD τ).loc b) := Function.update (V m c) main_v9 (written0 m c)
def Y (c : Dev nD) : (b : Ref sig .tc) → Buf (Elt F) ((c : Thread nD τ).loc b) := Function.update (V m c) main_v9 (written m c)

theorem Y0_main_v9 (c : Dev nD) : Y0 m c main_v9 = written0 m c := Function.update_self ..
theorem Y_main_v9 (c : Dev nD) : Y m c main_v9 = written m c := Function.update_self ..

/-! ## The proof data -/

/-- The proof data on core `c`: the picture's array at its entry contents; after the body the staging buffer still at
    the picture; the invariant the ends at the result's contents so far; nothing owed; the full share. -/
def dats (_ : Fin 1) (c : Dev nD) : Dat τ (Elt F) Unit ℕ UC ℕ cfg0 c where
  A w := V m c (Pipeline.arrRef spec0 w)
  after w t := match w with
    | ⟨0, _⟩ => iblk m c 0 t
  Φ t := match t with
    | ⟨0, _⟩ => Ends spec0 osem {main_v9} c (V m c)
    | ⟨1, _⟩ => Ends spec0 osem {main_v9} c (Y0 m c)
    | ⟨_ + 2, _⟩ => Ends spec0 osem {main_v9} c (Y m c)
  q _ := fullShare
  owed _ := 0

abbrev 𝒱₀ : Variants := Variants.none

theorem after_0 (c : Dev nD) (t : Fin cfg0.N) : (dats m 0 c).after 0 t = iblk m c 0 t := by dsimp only [dats]

/-- The staging buffer holds the picture when the body runs, at the point that fetched it and at the one that did not:
    the block index does not move and the body leaves the buffer as it found it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rfl) t d).trans
    (by unfold Dat.fetched Dat.blockOf iblk; rfl)

/-- @main up to the region: the three stretches of host operations, then the region. -/
theorem hmainC : Pipeline.HMain (Ix := Unit) (Name := ℕ) (U := UC) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The core's `owes` as the post wants it, from what a run hands back (the bound is everything: nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at each point: the ends taken apart, the staged picture's share cut, the point's run applied, everything
    put back as the ends at the next contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0]
  rw [after_0]
  unfold Dat.owesAt Pipeline.owesWithin
  rw [show (dats m 0 c).owed t.castSucc = 0 from rfl]
  rcases fin_N0 t with rfl | rfl
  · -- point 0: the picture's full share cut into the 24 read shares, the copies run, the shares joined back
    rw [show (dats m 0 c).Φ t0_0.castSucc = Ends spec0 osem {main_v9} c (V m c) from rfl,
      show (dats m 0 c).Φ t0_0.succ = Ends spec0 osem {main_v9} c (Y0 m c) from rfl, ends_eq, ends_eq, Y0_main_v9]
    unfold owns
    iintro ⟨⟨Hv, ⟨S1, S2, S3, S4, S5, S6, S7, S8, S9, S10, S11, S12, S13, S14, S15, S16, S17, S18, S19, S20, S21, S22, S23, S24⟩, He, Hp⟩, ⟨%W, %hW, HO⟩, ⟨%d0, %f0, %hf0, H0⟩⟩
    have hw : Wn c t0_0 (V m c main_v9) (pay c (st0_0 t0_0) f0) 24 = written0 m c := by
      unfold written0
      rw [← hf0]
    ihave H := (toks_split (ℓ := (st0_0 t0_0).view.loc (c : Thread nD τ)) (S := (st0_0 t0_0).view.set) (f := f0)) $$ H0
    icases H with ⟨Hr, T0, T1, T2, T3, T4, T5, T6, T7, T8, T9, T10, T11, T12, T13, T14, T15, T16, T17, T18, T19, T20, T21, T22, T23, T24⟩
    iapply (run0 c (V m c main_v9) (st0_0 t0_0) (hstage0_0 ((cfg0.slots t0_0 0).cast nbuf0_0)) f0 W)
    isplitl [Hr]; · iexact Hr
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [Hv]; · iexact Hv
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [HO]; · iexact HO
    iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, ⟨%W', HO⟩⟩
    isplitl [Hv S1 S2 S3 S4 S5 S6 S7 S8 S9 S10 S11 S12 S13 S14 S15 S16 S17 S18 S19 S20 S21 S22 S23 S24 He Hp]
    · isplitl [Hv]; · rw [← hw]; iexact Hv
      isplitl [S1 S2 S3 S4 S5 S6 S7 S8 S9 S10 S11 S12 S13 S14 S15 S16 S17 S18 S19 S20 S21 S22 S23 S24]
      · isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        iexact S24
      isplitl [He]; · iexact He
      iexact Hp
    isplitl [HO]; · iapply (owesAt_intro m c); iexact HO
    iexists f0
    isplitr; · ipureintro; exact hf0
    iapply (toks_join (ℓ := (st0_0 t0_0).view.loc (c : Thread nD τ)) (S := (st0_0 t0_0).view.set) (f := f0))
    isplitl [Hr]; · iexact Hr
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    iexact T24
  · -- point 1: the picture's full share cut into the 24 read shares, the copies run, the shares joined back
    rw [show (dats m 0 c).Φ t0_1.castSucc = Ends spec0 osem {main_v9} c (Y0 m c) from rfl,
      show (dats m 0 c).Φ t0_1.succ = Ends spec0 osem {main_v9} c (Y m c) from rfl, ends_eq, ends_eq, Y_main_v9, Y0_main_v9]
    unfold owns
    iintro ⟨⟨Hv, ⟨S1, S2, S3, S4, S5, S6, S7, S8, S9, S10, S11, S12, S13, S14, S15, S16, S17, S18, S19, S20, S21, S22, S23, S24⟩, He, Hp⟩, ⟨%W, %hW, HO⟩, ⟨%d0, %f0, %hf0, H0⟩⟩
    have hw : Wn c t0_1 (written0 m c) (pay c (st0_0 t0_1) f0) 24 = written m c := by
      unfold written
      rw [← hf0]
    ihave H := (toks_split (ℓ := (st0_0 t0_1).view.loc (c : Thread nD τ)) (S := (st0_0 t0_1).view.set) (f := f0)) $$ H0
    icases H with ⟨Hr, T0, T1, T2, T3, T4, T5, T6, T7, T8, T9, T10, T11, T12, T13, T14, T15, T16, T17, T18, T19, T20, T21, T22, T23, T24⟩
    iapply (run1 c (written0 m c) (st0_0 t0_1) (hstage0_0 ((cfg0.slots t0_1 0).cast nbuf0_0)) f0 W)
    isplitl [Hr]; · iexact Hr
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    isplitl [T24]; · iexact T24
    isplitl [Hv]; · iexact Hv
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [HO]; · iexact HO
    iintro ⟨Hr, T1, T2, T3, T4, T5, T6, T7, T8, T9, T10, T11, T12, T13, T14, T15, T16, T17, T18, T19, T20, T21, T22, T23, T24, Hv, S1, S2, S3, S4, S5, S6, S7, S8, S9, S10, S11, S12, S13, S14, S15, S16, S17, S18, S19, S20, S21, S22, S23, S24, ⟨%W', HO⟩⟩
    isplitl [Hv S1 S2 S3 S4 S5 S6 S7 S8 S9 S10 S11 S12 S13 S14 S15 S16 S17 S18 S19 S20 S21 S22 S23 S24 He Hp]
    · isplitl [Hv]; · rw [← hw]; iexact Hv
      isplitl [S1 S2 S3 S4 S5 S6 S7 S8 S9 S10 S11 S12 S13 S14 S15 S16 S17 S18 S19 S20 S21 S22 S23 S24]
      · isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        isplitl [S12]; · iexact S12
        isplitl [S13]; · iexact S13
        isplitl [S14]; · iexact S14
        isplitl [S15]; · iexact S15
        isplitl [S16]; · iexact S16
        isplitl [S17]; · iexact S17
        isplitl [S18]; · iexact S18
        isplitl [S19]; · iexact S19
        isplitl [S20]; · iexact S20
        isplitl [S21]; · iexact S21
        isplitl [S22]; · iexact S22
        isplitl [S23]; · iexact S23
        iexact S24
      isplitl [He]; · iexact He
      iexact Hp
    isplitl [HO]; · iapply (owesAt_intro m c); iexact HO
    iexists f0
    isplitr; · ipureintro; exact hf0
    iapply (toks_join (ℓ := (st0_0 t0_1).view.loc (c : Thread nD τ)) (S := (st0_0 t0_1).view.set) (f := f0))
    isplitl [Hr]; · iexact Hr
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    isplitl [T22]; · iexact T22
    isplitl [T23]; · iexact T23
    iexact T24

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The launch -/

/-- At the compiled mesh, for any float values, from any memory with zero counters: every weakly fair execution of
    @main on the TensorCores terminates, and every final state has the picture's array at the library's account of an
    input window, the result at `written`, and every other unscoped buffer as the host operations left it. -/
theorem run_main : θ_run defs (onTc (τ := τ) (main (F := F))) (s₀ m ρ) (RoutedPost cfgs (dats m) 0 {main_v9} (V m) (Y m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := hmainC m)
    (hA := fun _ _ => rfl) (R := {main_v9}) (hR := by decide) (Y := Y m) (hin := fun _ => .rfl) (hout := fun _ => .rfl)

/-! ## The final contents, read off the post -/

variable {m ρ}

theorem final_v9 {r : PUnit × MemSt nD τ sig (Elt F)} (h : RoutedPost cfgs (dats m) 0 {main_v9} (V m) (Y m) r) (c : Dev nD) :
    r.2.mem ((c : Thread nD τ).loc main_v9) = written m c :=
  ((h c).2.1 main_v9 (Finset.mem_singleton_self _)).trans (Y_main_v9 m c)

theorem final_arg0 {r : PUnit × MemSt nD τ sig (Elt F)} (h : RoutedPost cfgs (dats m) 0 {main_v9} (V m) (Y m) r) (c : Dev nD) :
    r.2.mem ((c : Thread nD τ).loc main_arg0) = m ((c : Thread nD τ).loc main_arg0) :=
  ((h c).2.2 main_arg0 (Finset.mem_sdiff.2 ⟨Pipeline.mem_restRefs_of main_arg0 (by decide) (by decide), by decide⟩)).trans
    (V_main_arg0 m c)

end Cert.KernelIdeal.Fan

end
-- ==== Proof.Spec.lean ====
/-
  The one function both programs compute, stated once over literal shapes and importing no program.

  The 4096 input numbers are shown as a 1024 × 1024 picture in which pixel (r, q) looks at input cell
  (r mod 4) · 1024 + q — the picture is four distinct rows of 1024 cells repeated 256 times down — and
  shows 1 where the cell's absolute value exceeds 1/2 and 0 elsewhere; the result is 48 identical copies
  of that picture, one per channel.
-/
import Idealize.ShloMosaic.PureOps
import Idealize.ShloMosaic.PureOps.Ideal
import Idealize.ShloMosaic.Lib.ValueIdx

noncomputable section

namespace Cert.Spec

open Idealize.ShloMosaic Idealize.ShloMosaic.ValueIdx

variable {F : FTy → Type} [FloatOps F]

/-- The threshold: 1 where |x| > 1/2, else 0 (the three float words are 0.5, 1.0 and 0.0). -/
def thr (x : F .f32) : F .f32 :=
  Scalar.select (FloatOps.cmpf .ogt (FloatOps.hostAbsf x) (FloatOps.ofBits .f32 0x3F000000#32))
    (FloatOps.ofBits .f32 0x3F800000#32) (FloatOps.ofBits .f32 0x00000000#32)

/-- The input cell pixel (r, q) looks at: (r mod 4) · 1024 + q. -/
def cellOf (r q : Fin 1024) : Fin 4096 := ⟨(r.val % 4) * 1024 + q.val, by omega⟩

/-- Row-major position r · 1024 + q of a pixel, reduced mod 4096, is the same cell. -/
theorem cellOf_eq_mod (r q : Fin 1024) : (cellOf r q).val = (r.val * 1024 + q.val) % 4096 := by
  show (r.val % 4) * 1024 + q.val = (r.val * 1024 + q.val) % 4096
  omega

/-- The result: channel ch, pixel (r, q) is the threshold of the cell the pixel looks at. -/
def G (a : (⟨1, ![4096]⟩ : Shape).Idx → F .f32) : (⟨3, ![48, 1024, 1024]⟩ : Shape).Idx → F .f32 :=
  fun j => thr (a (ix1 (cellOf (j 1) (j 2))))

theorem G_ix3 (a : (⟨1, ![4096]⟩ : Shape).Idx → F .f32) (ch : Fin 48) (r q : Fin 1024) :
    G a (ix3 ch r q) = thr (a (ix1 (cellOf r q))) := rfl

/-- The picture itself (one channel). -/
def pic (a : (⟨1, ![4096]⟩ : Shape).Idx → F .f32) : (⟨2, ![1024, 1024]⟩ : Shape).Idx → F .f32 :=
  fun j => thr (a (ix1 (cellOf (j 0) (j 1))))

theorem pic_ix2 (a : (⟨1, ![4096]⟩ : Shape).Idx → F .f32) (r q : Fin 1024) :
    pic a (ix2 r q) = thr (a (ix1 (cellOf r q))) := rfl

theorem G_eq_pic (a : (⟨1, ![4096]⟩ : Shape).Idx → F .f32) (ch : Fin 48) (r q : Fin 1024) :
    G a (ix3 ch r q) = pic a (ix2 r q) := rfl

end Cert.Spec

end
-- ==== Proof.KerHost.lean ====
/-
  The host operations the first program runs before its one region, read at an index.

  The input's 4096 numbers are reshaped to four rows of 1024; each is replaced by its threshold (1 where the
  absolute value exceeds 1/2, else 0) — the pattern; the pattern [4, 1024] is reshaped to [1, 4, 1, 1024],
  repeated 256 times along the leading axis to [256, 4, 1, 1024], and reshaped to the 1024 × 1024 picture. Row
  r = 4·k + i of the picture is row-major position (k, i, 0) of the leading axes [256, 4, 1], so it is pattern
  row i = r mod 4: pixel (r, q) is the threshold of input cell (r mod 4) · 1024 + q.
-/
import proofs.«173566_j57604101374655_2_alg».proof.Proof.Gen.KernelIdeal.Frame
import proofs.«173566_j57604101374655_2_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KerHost

open Idealize.ShloMosaic Idealize.ShloMosaic.TcCoe Idealize.ShloMosaic.Tactic Idealize.ShloMosaic.ValueIdx

/-! ## The pattern: four rows of 1024 thresholds -/

/-- The pattern as the program computes it: reshape, absolute value, compare with 1/2, select 1 or 0. -/
def pat (a : S4096.Idx → EReal) : S4x1024.Idx → EReal :=
  select
    (cmpf .ogt (Host.absf (F := Ideal) (φ := .f32) (shapeCast S4x1024 a Gen.shapeCasts_S4096_S4x1024))
      (broadcastInDim S4x1024 ![] Gen.bcast_S_S4x1024 (constant (F := Ideal) S_ .f32 0x3F000000#32)))
    (broadcastInDim S4x1024 ![] Gen.bcast_S_S4x1024 (constant (F := Ideal) S_ .f32 0x3F800000#32))
    (broadcastInDim S4x1024 ![] Gen.bcast_S_S4x1024 (constant (F := Ideal) S_ .f32 0x00000000#32))

/-- A scalar constant repeated over the four rows reads the constant everywhere. -/
theorem bcast_const (b : BitVec 32) (j : S4x1024.Idx) :
    broadcastInDim S4x1024 ![] Gen.bcast_S_S4x1024 (constant (F := Ideal) S_ .f32 b) j = Ideal.ofBits .f32 b := rfl

/-- The host's absolute value acts index by index. -/
theorem hostAbsf_apply (x : S4x1024.Idx → EReal) (j : S4x1024.Idx) :
    Host.absf (F := Ideal) (φ := .f32) x j = FloatOps.hostAbsf (F := Ideal) (φ := .f32) (x j) := rfl

/-- The input as four rows: row i, column q is cell i · 1024 + q. -/
theorem rows_ix2 (a : S4096.Idx → EReal) (i : Fin 4) (q : Fin 1024) :
    shapeCast S4x1024 a Gen.shapeCasts_S4096_S4x1024 (ix2 i q) = a (ix1 ⟨i.val * 1024 + q.val, by omega⟩) := by
  refine shapeCast_apply a _ (ix2 i q) (ix1 ⟨i.val * 1024 + q.val, by omega⟩) ?_
  rw [Shape.rowMajor_val_one, Shape.rowMajor_val_two]
  show i.val * 1024 + q.val = i.val * 1024 + q.val
  rfl

/-- The pattern at row i, column q is the threshold of cell i · 1024 + q. -/
theorem pat_ix2 (a : S4096.Idx → EReal) (i : Fin 4) (q : Fin 1024) :
    pat a (ix2 i q) = Cert.Spec.thr (F := Ideal) (a (ix1 ⟨i.val * 1024 + q.val, by omega⟩)) := by
  unfold pat
  rw [select_apply, cmpf_apply, bcast_const, bcast_const, bcast_const]
  rw [hostAbsf_apply, rows_ix2]
  rfl

/-! ## The picture: the pattern repeated 256 times down -/

/-- The picture as the program computes it from the pattern: [4,1024] → [1,4,1,1024] → [256,4,1,1024] → [1024,1024]. -/
def tile (p : S4x1024.Idx → EReal) : S1024x1024.Idx → EReal :=
  shapeCast S1024x1024
    (broadcastInDim S256x4x1x1024 ![0, 1, 2, 3] Gen.bcast_S1x4x1x1024_S256x4x1x1024_0_1_2_3
      (shapeCast S1x4x1x1024 p Gen.shapeCasts_S4x1024_S1x4x1x1024))
    Gen.shapeCasts_S256x4x1x1024_S1024x1024

/-- Pixel (r, q) of the picture is the pattern at row r mod 4, column q. -/
theorem tile_ix2 (p : S4x1024.Idx → EReal) (r q : Fin 1024) :
    tile p (ix2 r q) = p (ix2 (⟨r.val % 4, Nat.mod_lt _ (by decide)⟩ : Fin 4) q) := by
  unfold tile
  -- the outer reshape: [1024,1024] at (r, q) reads [256,4,1,1024] at (r / 4, r mod 4, 0, q)
  refine (shapeCast_apply _ _ (ix2 r q)
    (ix4 (⟨r.val / 4, by omega⟩ : Fin 256) (⟨r.val % 4, Nat.mod_lt _ (by decide)⟩ : Fin 4) (0 : Fin 1) q)
    (by rw [Shape.rowMajor_val_four, Shape.rowMajor_val_two]
        show ((r.val / 4 * 4 + r.val % 4) * 1 + 0) * 1024 + q.val = r.val * 1024 + q.val
        omega)).trans ?_
  -- the repetition: [256,4,1,1024] at (k, i, 0, q) reads [1,4,1,1024] at (0, i, 0, q)
  refine (broadcastInDim_apply _ _ _ _
    (ix4 (0 : Fin 1) (⟨r.val % 4, Nat.mod_lt _ (by decide)⟩ : Fin 4) (0 : Fin 1) q)
    (fun a => match a with | ⟨0, _⟩ => rfl | ⟨1, _⟩ => rfl | ⟨2, _⟩ => rfl | ⟨3, _⟩ => rfl)).trans ?_
  -- the inner reshape: [1,4,1,1024] at (0, i, 0, q) reads [4,1024] at (i, q)
  refine shapeCast_apply _ _ _ (ix2 (⟨r.val % 4, Nat.mod_lt _ (by decide)⟩ : Fin 4) q)
    (by rw [Shape.rowMajor_val_two, Shape.rowMajor_val_four]
        show r.val % 4 * 1024 + q.val = ((0 * 4 + r.val % 4) * 1 + 0) * 1024 + q.val
        omega)

/-! ## The array the region finds -/

/-- The picture array when the region is entered, as the operations' term over the launched input. -/
theorem V_main_v8_term (m : (ℓ : Loc nD τ sig) → Buf (Elt Ideal) ℓ) (c : Dev nD) :
    (Cert.KernelIdeal.Gen.V (F := Ideal) m c main_v8 : S1024x1024.Idx → EReal)
      = tile (pat (m ((c : Thread nD τ).loc main_arg0))) := by
  dsimp only [Gen.V]
  simp only [Gen.hostOps0, Gen.hostOps0_1, Gen.hostOps0_2, List.flatten_cons, List.flatten_nil, List.append_nil,
    List.cons_append, List.nil_append]
  after_results
  rfl

/-- The picture array the region finds is the specification's picture of the launched input. -/
theorem V_main_v8 (m : (ℓ : Loc nD τ sig) → Buf (Elt Ideal) ℓ) (c : Dev nD) :
    (Cert.KernelIdeal.Gen.V (F := Ideal) m c main_v8 : S1024x1024.Idx → EReal)
      = Cert.Spec.pic (F := Ideal) (m ((c : Thread nD τ).loc main_arg0)) := by
  rw [V_main_v8_term]
  funext j
  obtain ⟨r, q, rfl⟩ : ∃ (r q : Fin 1024), j = ix2 r q := ⟨j 0, j 1, eq_ix2 j⟩
  rw [tile_ix2, pat_ix2, Cert.Spec.pic_ix2]
  rfl

end Cert.KernelIdeal.KerHost

end
-- ==== Proof.KerBridge.lean ====
/-
  From the kernel's copies to the specification. The kernel's one input window has the constant index map
  (0, 0) and a block as large as its array, so at either grid point its block is the whole 1024 × 1024
  picture array; that array is the specification's picture of the input; and the 48 copies, 24 per grid
  point, write that one picture over every channel of the result. So the result buffer after both points
  is the specification's function of the input.
-/
import proofs.«173566_j57604101374655_2_alg».proof.Proof.FanViews
import proofs.«173566_j57604101374655_2_alg».proof.Proof.FanValue
import proofs.«173566_j57604101374655_2_alg».proof.Proof.KerHost
import proofs.«173566_j57604101374655_2_alg».proof.Proof.Spec
import proofs.«173566_j57604101374655_2_alg».proof.Proof.Gen.KernelIdeal.Frame
import Idealize.ShloMosaic.PureOps.Ideal
import Idealize.ShloMosaic.Lib.ValueIdx

noncomputable section

namespace Cert.KernelIdeal.Bridge

open Cert.KernelIdeal Cert.KernelIdeal.Gen Cert.KernelIdeal.Fan
open Idealize.ShloMosaic Idealize.ShloMosaic.TcCoe Idealize.ShloMosaic.ValueIdx Idealize.SL.Sem

section AnyFloat

variable {F : FTy → Type} [FloatOps F]

/-- The input window's index map is (0, 0) at every grid point. -/
theorem index_zero : ∀ t : Fin cfg0.N, win0_0.index t (0 : Fin 2) = 0 ∧ win0_0.index t (1 : Fin 2) = 0 :=
  (by decide +kernel : ∀ t : Fin grid0.N, _)

/-- The input window's block at a grid point is the whole picture array as the region finds it: block (0, 0) of
    an array cut into blocks of its own size. -/
theorem iblk_eq (m : (ℓ : Loc nD τ sig) → Buf (Elt F) ℓ) (c : Dev nD) (t : Fin cfg0.N) :
    (Gen.iblk m c 0 t : S1024x1024.Idx → Elt F .f32) = Gen.V m c main_v8 := by
  funext y
  show Gen.V m c main_v8 (((cfg0.win 0).blk t).view.emb y) = Gen.V m c main_v8 y
  obtain ⟨e0, e1⟩ := index_zero t
  have h : ((cfg0.win 0).blk t).view.emb y = y := by
    funext a; apply Fin.ext
    match a with
    | ⟨0, _⟩ => show win0_0.index t (0 : Fin 2) * 1024 + 1 * (y 0).val = (y 0).val; omega
    | ⟨1, _⟩ => show win0_0.index t (1 : Fin 2) * 1024 + 1 * (y 1).val = (y 1).val; omega
  rw [h]

end AnyFloat

/-- The specification's result at any index is its picture at the index's last two coordinates. -/
theorem G_eq_pic (a : (⟨1, ![4096]⟩ : Shape).Idx → Ideal .f32) (i : (⟨3, ![48, 1024, 1024]⟩ : Shape).Idx) :
    Cert.Spec.G a i = Cert.Spec.pic a (ix2 (i 1) (i 2)) := rfl

/-- At the ideal instance, the result buffer after both grid points' copies is the specification's function of
    the launched input: each point's block is the picture array, the picture array is the specification's
    picture, and the 48 copies write it over every channel. -/
theorem written_eq_G (m : (ℓ : Loc nD τ sig) → Buf (Elt Ideal) ℓ) (c : Dev nD) :
    Wn c t0_1 (Wn c t0_0 (Gen.V m c main_v9) (Gen.iblk m c 0 t0_0) 24) (Gen.iblk m c 0 t0_1) 24
      = Cert.Spec.G (F := Ideal) (m ((c : Thread nD τ).loc main_arg0)) := by
  rw [iblk_eq m c t0_0, iblk_eq m c t0_1, Wn_both, KerHost.V_main_v8]
  funext i
  exact (G_eq_pic _ i).symm

end Cert.KernelIdeal.Bridge

end
-- ==== Proof.RefTerm.lean ====
/-
  The reference program's result written as one term: each operation's function applied to the
  values of its operands, in the order the program performs them.

  The integer part builds, for every position i below 2^20, the index i mod 4096 (a signed
  remainder followed by two sign fix-ups that never fire); the float part gathers the input at that
  index, thresholds its absolute value against 1/2, lays the 2^20 results out as a 1024 × 1024
  picture, writes that picture over a picture of zeros, and repeats it along a new leading axis.
-/
import proofs.«173566_j57604101374655_2_alg».proof.ReferenceIdeal

noncomputable section

namespace Cert.ReferenceIdeal.RefTerm

open Idealize.ShloMosaic Idealize.SL.Sem

variable {F : FTy → Type} [FloatOps F] [Facts]
open Facts₀ Facts

/-- The divisor the remainder uses: 4096, or 1 were it 0. -/
def divisor : IVec S_ 32 :=
  select (cmpi .eq (id (constantI S_ 32 4096#32)) (constantI S_ 32 0#32)) (constantI S_ 32 1#32)
    (id (constantI S_ 32 4096#32))

/-- The signed remainder of the position by the divisor. -/
def rem0 : IVec S1048576 32 :=
  Host.remsi (iotaInDim S1048576 32 0) (broadcastInDim S1048576 ![] bcast_S_S1048576 divisor)

/-- The remainder with the sign of the divisor: the remainder, plus the divisor where the two signs
    differ and the remainder is not zero. -/
def rem1 : IVec S1048576 32 :=
  select
    (andi
      (cmpi .ne
        (cmpi .slt rem0 (broadcastInDim S1048576 ![] bcast_S_S1048576 (constantI S_ 32 0#32)))
        (broadcastInDim S1048576 ![] bcast_S_S1048576 (cmpi .slt divisor (constantI S_ 32 0#32))))
      (cmpi .ne rem0 (broadcastInDim S1048576 ![] bcast_S_S1048576 (constantI S_ 32 0#32))))
    (addi rem0 (broadcastInDim S1048576 ![] bcast_S_S1048576 divisor))
    rem0

/-- The gather index: a negative remainder is wrapped by 4096. -/
def idxFlat : IVec S1048576 32 :=
  select
    (cmpi .slt rem1 (broadcastInDim S1048576 ![] bcast_S_S1048576 (constantI S_ 32 0#32)))
    (addi rem1 (broadcastInDim S1048576 ![] bcast_S_S1048576 (constantI S_ 32 4096#32)))
    rem1

/-- The gather indices as a column of one-component index vectors. -/
def idxCol : IVec S1048576x1 32 :=
  broadcastInDim S1048576x1 ![0] bcast_S1048576_S1048576x1_0 idxFlat

/-- The thresholded gathered values, flat: 2^20 of them. -/
def flat (a : FVec F S4096 .f32) : FVec F S1048576 .f32 :=
  id
    (select
      (cmpf .ogt
        (Host.absf (Host.gather gather_S4096_S1048576x1_S1048576_n_0_n_n_0_1_1 a idxCol))
        (broadcastInDim S1048576 ![] bcast_S_S1048576 (constant S_ .f32 0x3F000000#32)))
      (broadcastInDim S1048576 ![] bcast_S_S1048576 (constant S_ .f32 0x3F800000#32))
      (broadcastInDim S1048576 ![] bcast_S_S1048576 (constant S_ .f32 0x00000000#32)))

/-- The picture: the flat values at 1024 × 1024, written over zeros. -/
def picture (a : FVec F S4096 .f32) : FVec F S1024x1024 .f32 :=
  Host.scatter scatter_S1024x1024_S0_S1024x1024_01_n_n_0 (fun _ b => b)
    (broadcastInDim S1024x1024 ![] bcast_S_S1024x1024 (constant S_ .f32 0x00000000#32))
    (emptyVec S0 hz_S0 : IVec S0 32)
    (shapeCast S1024x1024 (flat a) shapeCasts_S1048576_S1024x1024)

/-- The reference program's result. -/
def refOut (a : FVec F S4096 .f32) : FVec F S48x1024x1024 .f32 :=
  broadcastInDim S48x1024x1024 ![0, 1, 2] bcast_S1x1024x1024_S48x1024x1024_0_1_2
    (broadcastInDim S1x1024x1024 ![1, 2] bcast_S1024x1024_S1x1024x1024_1_2 (picture a))

end Cert.ReferenceIdeal.RefTerm

end
-- ==== Proof.RefRun.lean ====
/-
  The reference program's run, read back.

  The reference's @main is a straight line of host operations once its three module-local functions are
  substituted at their calls: the signed remainder of the pixel counter by 4096 (twenty-one operations, one of
  them the scalar select of the divisor guard, itself a function called from inside the remainder) and the
  elementwise choice between two broadcast scalars (three operations). Listed in order that is forty-nine
  operations over the forty-nine buffers they write. Every weakly fair execution then terminates with each
  buffer at the fold of the operations' results over the launch contents; the result buffer is read off that
  fold as the composed pure term of the argument, and the argument buffer, which no operation writes, is unchanged.
-/
import proofs.«173566_j57604101374655_2_alg».proof.ReferenceIdeal
import Idealize.ShloMosaic.Lib.StableHlo.Run
import proofs.«173566_j57604101374655_2_alg».proof.Proof.RefTerm

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- @main's forty-nine operations in order, the calls substituted: three of @main's own (the empty index table,
    the counter 0 … 1048575, the scalar 4096); the remainder's twenty-one over the first call's buffers (the
    divisor's copy, the guard `divisor = 0 ? 1 : divisor` — the inner call's one select —, the truncated
    remainder, and its correction towards the divisor's sign); @main's fifteen up to the two scalars 1 and 0
    (the wrap of a negative index by 4096, the gather of the argument, the absolute value and its comparison
    with 1/2); the choice's three over the second call's buffers; @main's last seven (the copy, the zero
    picture, the reshape to 1024 × 1024, the scatter writing the whole picture, the two broadcasts to 48
    channels). -/
abbrev ops : List (HloOp τ sig (Elt F)) :=
  [
    nullary main_c (emptyVec S0 hz_S0),
    nullary main_v0 (iotaInDim S1048576 32 0),
    nullary main_c_0 (constantI S_ 32 4096#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1048576 ![] bcast_S_S1048576),
    TRef.binary (.of main_v0) main_call0.v3 main_call0.v4 Host.remsi,
    TRef.nullary main_call0.c_1 (constantI S_ 32 0#32),
    TRef.unary main_call0.c_1 main_call0.v5 (broadcastInDim S1048576 ![] bcast_S_S1048576),
    TRef.binary main_call0.v4 main_call0.v5 main_call0.v6 (cmpi .ne),
    TRef.nullary main_call0.c_2 (constantI S_ 32 0#32),
    TRef.unary main_call0.c_2 main_call0.v7 (broadcastInDim S1048576 ![] bcast_S_S1048576),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1048576 ![] bcast_S_S1048576),
    TRef.binary main_call0.v8 main_call0.v10 main_call0.v11 (cmpi .ne),
    TRef.binary main_call0.v11 main_call0.v6 main_call0.v12 andi,
    TRef.unary main_call0.call0.v0 main_call0.v13 (broadcastInDim S1048576 ![] bcast_S_S1048576),
    TRef.binary main_call0.v4 main_call0.v13 main_call0.v14 addi,
    TRef.ternary main_call0.v12 main_call0.v14 main_call0.v4 main_call0.v15 select,
    nullary main_c_1 (constantI S_ 32 0#32),
    unary main_c_1 main_v2 (broadcastInDim S1048576 ![] bcast_S_S1048576 : (⟨S_, .i32⟩ : BufTy).Contents (Elt F) → (⟨S1048576, .i32⟩ : BufTy).Contents (Elt F)),
    binary main_v1 main_v2 main_v3 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 4096#32),
    unary main_c_2 main_v4 (broadcastInDim S1048576 ![] bcast_S_S1048576 : (⟨S_, .i32⟩ : BufTy).Contents (Elt F) → (⟨S1048576, .i32⟩ : BufTy).Contents (Elt F)),
    binary main_v1 main_v4 main_v5 (addi : (⟨S1048576, .i32⟩ : BufTy).Contents (Elt F) → (⟨S1048576, .i32⟩ : BufTy).Contents (Elt F) → (⟨S1048576, .i32⟩ : BufTy).Contents (Elt F)),
    ternary main_v3 main_v5 main_v1 main_v6 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v6 main_v7 (broadcastInDim S1048576x1 ![0] bcast_S1048576_S1048576x1_0 : (⟨S1048576, .i32⟩ : BufTy).Contents (Elt F) → (⟨S1048576x1, .i32⟩ : BufTy).Contents (Elt F)),
    binary main_arg0 main_v7 main_v8 ((fun x i => Host.gather gather_S4096_S1048576x1_S1048576_n_0_n_n_0_1_1 x i) : (⟨S4096, .f32⟩ : BufTy).Contents (Elt F) → (⟨S1048576x1, .i32⟩ : BufTy).Contents (Elt F) → (⟨S1048576, .f32⟩ : BufTy).Contents (Elt F)),
    unary main_v8 main_v9 (Host.absf : (⟨S1048576, .f32⟩ : BufTy).Contents (Elt F) → (⟨S1048576, .f32⟩ : BufTy).Contents (Elt F)),
    nullary main_cst (constant S_ .f32 0x3F000000#32),
    unary main_cst main_v10 (broadcastInDim S1048576 ![] bcast_S_S1048576 : (⟨S_, .f32⟩ : BufTy).Contents (Elt F) → (⟨S1048576, .f32⟩ : BufTy).Contents (Elt F)),
    binary main_v9 main_v10 main_v11 (cmpf .ogt : (⟨S1048576, .f32⟩ : BufTy).Contents (Elt F) → (⟨S1048576, .f32⟩ : BufTy).Contents (Elt F) → (⟨S1048576, .i1⟩ : BufTy).Contents (Elt F)),
    nullary main_cst_3 (constant S_ .f32 0x3F800000#32),
    nullary main_cst_4 (constant S_ .f32 0x00000000#32),
    TRef.unary (.of main_cst_3 : TRef sig ⟨S_, .f32⟩) main_call1.v0 (broadcastInDim S1048576 ![] bcast_S_S1048576),
    TRef.unary (.of main_cst_4 : TRef sig ⟨S_, .f32⟩) main_call1.v1 (broadcastInDim S1048576 ![] bcast_S_S1048576),
    TRef.ternary (.of main_v11) main_call1.v0 main_call1.v1 main_call1.v2 select,
    unary main_v12 main_v13 (id : (⟨S1048576, .f32⟩ : BufTy).Contents (Elt F) → (⟨S1048576, .f32⟩ : BufTy).Contents (Elt F)),
    nullary main_cst_5 (constant S_ .f32 0x00000000#32),
    unary main_cst_5 main_v14 (broadcastInDim S1024x1024 ![] bcast_S_S1024x1024 : (⟨S_, .f32⟩ : BufTy).Contents (Elt F) → (⟨S1024x1024, .f32⟩ : BufTy).Contents (Elt F)),
    reshape main_v13 main_v15 rfl shapeCasts_S1048576_S1024x1024,
    ternary main_v14 main_c main_v15 main_v16 ((fun x i u => Host.scatter scatter_S1024x1024_S0_S1024x1024_01_n_n_0 (fun _ b => b) x i u) : (⟨S1024x1024, .f32⟩ : BufTy).Contents (Elt F) → (⟨S0, .i32⟩ : BufTy).Contents (Elt F) → (⟨S1024x1024, .f32⟩ : BufTy).Contents (Elt F) → (⟨S1024x1024, .f32⟩ : BufTy).Contents (Elt F)),
    unary main_v16 main_v17 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v17 main_v18 (broadcastInDim S48x1024x1024 ![0, 1, 2] bcast_S1x1024x1024_S48x1024x1024_0_1_2 : (⟨S1x1024x1024, .f32⟩ : BufTy).Contents (Elt F) → (⟨S48x1024x1024, .f32⟩ : BufTy).Contents (Elt F)) ]

-- forty-nine binds re-associated: the rewrite under the chain recurses once per statement
set_option maxRecDepth 1024 in
/-- @main is that straight line: the three functions' bodies unfolded at their calls and the calls' buffer
    records at their fields, both sides are one chain of operation steps once sequencing is re-associated. -/
theorem main_eq (c : Dev nD) : main (F := F) c = seq ops := by
  simp only [main, fn_remainder.body, fn_where.body, fn_where_0.body, seq, bind_assoc, pure_bind]

/-- No TensorCore buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    binary_bufs_sub .., nullary_bufs_sub .., nullary_bufs_sub .., unary_bufs_sub .., unary_bufs_sub .., ternary_bufs_sub ..,
    unary_bufs_sub .., nullary_bufs_sub .., unary_bufs_sub .., reshape_bufs_sub .., ternary_bufs_sub .., unary_bufs_sub ..,
    unary_bufs_sub ..⟩

/-- From any memory with zero counters every weakly fair execution of @main terminates, each TensorCore buffer at
    the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

/-- The fold at the result buffer is the composed term of the argument's contents: each operation's result read
    at its own buffer is its function of its operands' contents, and at any other buffer what was there. -/
theorem out_eq (V : Valuation τ sig (Elt F)) :
    after ops V (main_v18 : DevRef τ sig) = RefTerm.refOut (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

/-- From any memory with zero counters every weakly fair execution of @main terminates with the result buffer at
    the composed term of the argument's launch contents and the argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v18) = RefTerm.refOut (m ((c.tc : Thread nD τ).loc main_arg0))
      ∧ r.2.mem ((c.tc : Thread nD τ).loc main_arg0) = m ((c.tc : Thread nD τ).loc main_arg0)) :=
  (θ_run defs _ _).mono (fun _ h c => ⟨(h c main_v18).trans (out_eq _), (h c main_arg0).trans (arg0_eq _)⟩)
    (run_after m ρ)

end Cert.ReferenceIdeal.RefRun

end
-- ==== Proof.LibScatterRead.lean ====
/-
  An accumulating scatter (each update added onto the operand element its start index names, an update
  whose start index names no element dropped) and a gather (each result element the operand element its
  start index names, the start index clamped into range), read at an index, for the dimension numbers of
  an edge list scattered into, or gathered from, an array of nodes: one start index per edge, or a pair.
-/
import Idealize.ShloMosaic.Lib.ValueIdx

open scoped BigOperators

namespace Cert.LibScatterRead

open Idealize.ShloMosaic Idealize.ShloMosaic.ValueIdx

/-! ## Generalities -/

/-- An update lands on operand index `i` exactly when, on every axis, its start (read signed, not
    clamped) plus its window coordinate is `i`'s coordinate: a sum that leaves `[0, size)` on some axis
    drops the update, and no coordinate of `i` is outside that range. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- Rank-1 indices are the coordinates. -/
def ix1Equiv (n : Nat) : Fin n ≃ (⟨1, ![n]⟩ : Shape).Idx where
  toFun := ix1
  invFun j := j 0
  left_inv _ := rfl
  right_inv j := (eq_ix1 j).symm

/-- Indices of an `[n, 1]` array are the first coordinates. -/
def ix2Equiv1 (n : Nat) : Fin n ≃ (⟨2, ![n, 1]⟩ : Shape).Idx where
  toFun e := ix2 e 0
  invFun j := j 0
  left_inv _ := rfl
  right_inv j := by
    funext a
    refine Fin.ext ?_
    match a with
    | ⟨0, _⟩ => rfl
    | ⟨1, _⟩ =>
      show (0 : ℕ) = (j 1).val
      have := idx2_lt1 j
      omega

/-- A sum over the members of a finite type that satisfy `P`, carried along a bijection. -/
theorem sum_filter_equiv {α β M : Type*} [Fintype α] [Fintype β] [AddCommMonoid M] (σ : α ≃ β)
    (P : β → Prop) [DecidablePred P] (f : β → M) :
    ∑ b ∈ Finset.univ.filter P, f b = ∑ a ∈ Finset.univ.filter (fun a => P (σ a)), f (σ a) := by
  rw [Finset.sum_filter, Finset.sum_filter, ← Equiv.sum_comp σ]

/-! ## One start index per edge, into a rank-1 array of nodes -/

section Scatter1
variable {N E w : Nat} (wf : ScatterDims.WF ⟨1, ![N]⟩ ⟨2, ![E, 1]⟩ ⟨1, ![E]⟩ [] [0] [0] 1)

/-- `x.at[idx].add(upd)` for `x : [N]`, `idx : [E, 1]`, `upd : [E]`: no window axes, the operand's one
    axis inserted and named by the start index's one component. -/
abbrev scatter1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Edge `e`'s start on the node axis is `idx[e, 0]` read signed. -/
theorem scatter1_start (e : Fin E) (idx : IVec ⟨2, ![E, 1]⟩ w) :
    (scatter1Dims N E wf).start (ix1 e) idx 0 = (idx (ix2 e 0)).toInt := by
  unfold ScatterDims.start
  rw [dif_pos (show (0 : Fin 1) ∈ (scatter1Dims N E wf).scatterDimsToOperandDims from List.mem_singleton.mpr rfl)]
  have hsi : (scatter1Dims N E wf).siIdx (ix1 e) ⟨List.idxOf (0 : Fin 1) (scatter1Dims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window: the window coordinate on the node axis is `0`. -/
theorem scatter1_window (j : (⟨1, ![E]⟩ : Shape).Idx) : (scatter1Dims N E wf).window j 0 = 0 := by
  unfold ScatterDims.window
  have hk : (0 : Fin 1) ∉ (scatter1Dims N E wf).sKept := by
    show (0 : Fin 1) ∉ ([] : List (Fin 1))
    exact List.not_mem_nil
  rw [dif_neg hk]

/-- Edge `e` lands on node `i` exactly when `idx[e, 0]`, read signed, is `i`. -/
theorem scatter1_resultIdx?_iff (e : Fin E) (i : Fin N) (idx : IVec ⟨2, ![E, 1]⟩ w) :
    (scatter1Dims N E wf).resultIdx? (ix1 e) idx = some (ix1 i) ↔ (idx (ix2 e 0)).toInt = (i.val : ℤ) := by
  rw [resultIdx?_eq_some_iff]
  constructor
  · intro h
    have := h 0
    rw [scatter1_start, scatter1_window, Nat.cast_zero, add_zero] at this
    exact this
  · intro h a
    obtain rfl : a = 0 := Subsingleton.elim _ _
    rw [scatter1_start, scatter1_window, Nat.cast_zero, add_zero]
    exact h

/-- THE SCATTER-ADD READ AT NODE `i`: the operand there plus the updates of the edges whose start index is `i`. -/
theorem scatterAdd1_apply {φ : FTy} (x : FVec Ideal ⟨1, ![N]⟩ φ) (idx : IVec ⟨2, ![E, 1]⟩ w)
    (upd : FVec Ideal ⟨1, ![E]⟩ φ) (i : Fin N) :
    Host.scatterAdd (F := Ideal) (scatter1Dims N E wf) x idx upd (ix1 i)
      = x (ix1 i) + ∑ e ∈ Finset.univ.filter (fun e : Fin E => (idx (ix2 e 0)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter1_resultIdx?_iff wf e i idx) fun _ _ => rfl

/-- The same read when the start indices are known to name nodes: `col e` is edge `e`'s node. -/
theorem scatterAdd1_apply_of_nodes {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : ℤ)) (i : Fin N) :
    Host.scatterAdd (F := Ideal) (scatter1Dims N E wf) x idx upd (ix1 i)
      = x (ix1 i) + ∑ e ∈ Finset.univ.filter (fun e : Fin E => col e = i), upd (ix1 e) := by
  rw [scatterAdd1_apply]
  congr 1
  refine Finset.sum_congr (Finset.filter_congr fun e _ => ?_) fun _ _ => rfl
  rw [hcol e, Nat.cast_inj, Fin.val_inj]

end Scatter1

/-! ## One start index per edge, into an `[N, 1]` array of nodes: a window axis of size 1 -/

section Scatter1Col
variable {N E w : Nat} (wf : ScatterDims.WF ⟨2, ![N, 1]⟩ ⟨2, ![E, 1]⟩ ⟨2, ![E, 1]⟩ [1] [0] [0] 1)

/-- `x.at[idx].add(upd)` for `x : [N, 1]`, `idx : [E, 1]`, `upd : [E, 1]`: the updates' trailing axis is a
    window over the operand's trailing axis, the operand's leading axis inserted and named by the start
    index's one component. -/
abbrev scatter1ColDims (N E : Nat) (wf : ScatterDims.WF ⟨2, ![N, 1]⟩ ⟨2, ![E, 1]⟩ ⟨2, ![E, 1]⟩ [1] [0] [0] 1) :
    ScatterDims ⟨2, ![N, 1]⟩ ⟨2, ![E, 1]⟩ ⟨2, ![E, 1]⟩ where
  updateWindowDims := [1]
  insertedWindowDims := [0]
  scatterDimsToOperandDims := [0]
  indexVectorDim := 1
  wf := wf

/-- Edge `e`'s start on the node axis is `idx[e, 0]` read signed. -/
theorem scatter1Col_start0 (e : Fin E) (idx : IVec ⟨2, ![E, 1]⟩ w) :
    (scatter1ColDims N E wf).start (ix2 e 0) idx 0 = (idx (ix2 e 0)).toInt := by
  unfold ScatterDims.start
  rw [dif_pos (show (0 : Fin 2) ∈ (scatter1ColDims N E wf).scatterDimsToOperandDims from List.mem_singleton.mpr rfl)]
  have hsi : (scatter1ColDims N E wf).siIdx (ix2 e 0) ⟨List.idxOf (0 : Fin 2) (scatter1ColDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The start index names no position on the trailing axis: the start there is `0`. -/
theorem scatter1Col_start1 (j : (⟨2, ![E, 1]⟩ : Shape).Idx) (idx : IVec ⟨2, ![E, 1]⟩ w) :
    (scatter1ColDims N E wf).start j idx 1 = 0 := by
  unfold ScatterDims.start
  have h : (1 : Fin 2) ∉ (scatter1ColDims N E wf).scatterDimsToOperandDims := by
    show (1 : Fin 2) ∉ ([0] : List (Fin 2))
    decide
  rw [dif_neg h]

/-- The node axis is inserted: the window coordinate there is `0`. -/
theorem scatter1Col_window0 (j : (⟨2, ![E, 1]⟩ : Shape).Idx) : (scatter1ColDims N E wf).window j 0 = 0 := by
  unfold ScatterDims.window
  have hk : (0 : Fin 2) ∉ (scatter1ColDims N E wf).sKept := by
    show (0 : Fin 2) ∉ ([1] : List (Fin 2))
    decide
  rw [dif_neg hk]

/-- The window coordinate on the trailing axis is the update's trailing coordinate, `0`. -/
theorem scatter1Col_window1 (e : Fin E) : (scatter1ColDims N E wf).window (ix2 e 0) 1 = 0 := by
  unfold ScatterDims.window
  have hk : (1 : Fin 2) ∈ (scatter1ColDims N E wf).sKept := by
    show (1 : Fin 2) ∈ ([1] : List (Fin 2))
    decide
  rw [dif_pos hk]
  rfl

/-- Update `(e, 0)` lands on `(i, 0)` exactly when `idx[e, 0]`, read signed, is `i`. -/
theorem scatter1Col_resultIdx?_iff (e : Fin E) (i : Fin N) (idx : IVec ⟨2, ![E, 1]⟩ w) :
    (scatter1ColDims N E wf).resultIdx? (ix2 e 0) idx = some (ix2 i 0) ↔ (idx (ix2 e 0)).toInt = (i.val : ℤ) := by
  rw [resultIdx?_eq_some_iff]
  constructor
  · intro h
    have := h 0
    rw [scatter1Col_start0, scatter1Col_window0, Nat.cast_zero, add_zero] at this
    exact this
  · intro h a
    match a with
    | ⟨0, _⟩ =>
      show (scatter1ColDims N E wf).start (ix2 e 0) idx 0 + ((scatter1ColDims N E wf).window (ix2 e 0) 0 : ℤ) = (i.val : ℤ)
      rw [scatter1Col_start0, scatter1Col_window0, Nat.cast_zero, add_zero]
      exact h
    | ⟨1, _⟩ =>
      show (scatter1ColDims N E wf).start (ix2 e 0) idx 1 + ((scatter1ColDims N E wf).window (ix2 e 0) 1 : ℤ) = ((0 : ℕ) : ℤ)
      rw [scatter1Col_start1, scatter1Col_window1, Nat.cast_zero, add_zero]

/-- THE SCATTER-ADD READ AT `(i, 0)`: the operand there plus the updates `(e, 0)` of the edges whose start index is `i`. -/
theorem scatterAdd1Col_apply {φ : FTy} (x : FVec Ideal ⟨2, ![N, 1]⟩ φ) (idx : IVec ⟨2, ![E, 1]⟩ w)
    (upd : FVec Ideal ⟨2, ![E, 1]⟩ φ) (i : Fin N) :
    Host.scatterAdd (F := Ideal) (scatter1ColDims N E wf) x idx upd (ix2 i 0)
      = x (ix2 i 0) + ∑ e ∈ Finset.univ.filter (fun e : Fin E => (idx (ix2 e 0)).toInt = (i.val : ℤ)), upd (ix2 e 0) := by
  unfold Host.scatterAdd
  rw [Ideal.hostScatterAdd_def]
  unfold Ideal.hostScatterAdd
  congr 1
  rw [sum_filter_equiv (ix2Equiv1 E)]
  exact Finset.sum_congr (Finset.filter_congr fun e _ => scatter1Col_resultIdx?_iff wf e i idx) fun _ _ => rfl

/-- The same read when the start indices are known to name nodes: `col e` is edge `e`'s node. -/
theorem scatterAdd1Col_apply_of_nodes {φ : FTy} (x : FVec Ideal ⟨2, ![N, 1]⟩ φ) (idx : IVec ⟨2, ![E, 1]⟩ w)
    (upd : FVec Ideal ⟨2, ![E, 1]⟩ φ) (col : Fin E → Fin N)
    (hcol : ∀ e, (idx (ix2 e 0)).toInt = ((col e).val : ℤ)) (i : Fin N) :
    Host.scatterAdd (F := Ideal) (scatter1ColDims N E wf) x idx upd (ix2 i 0)
      = x (ix2 i 0) + ∑ e ∈ Finset.univ.filter (fun e : Fin E => col e = i), upd (ix2 e 0) := by
  rw [scatterAdd1Col_apply]
  congr 1
  refine Finset.sum_congr (Finset.filter_congr fun e _ => ?_) fun _ _ => rfl
  rw [hcol e, Nat.cast_inj, Fin.val_inj]

end Scatter1Col

/-! ## A pair of start indices per edge, into a rank-2 array: the dense adjacency accumulation -/

section Scatter2
variable {N0 N1 E w : Nat} (wf : ScatterDims.WF ⟨2, ![N0, N1]⟩ ⟨2, ![E, 2]⟩ ⟨1, ![E]⟩ [] [0, 1] [0, 1] 1)

/-- `x.at[idx[:, 0], idx[:, 1]].add(upd)` for `x : [N0, N1]`, `idx : [E, 2]`, `upd : [E]`: no window axes, both
    operand axes inserted, the start index's two components naming them in order. -/
abbrev scatter2Dims (N0 N1 E : Nat) (wf : ScatterDims.WF ⟨2, ![N0, N1]⟩ ⟨2, ![E, 2]⟩ ⟨1, ![E]⟩ [] [0, 1] [0, 1] 1) :
    ScatterDims ⟨2, ![N0, N1]⟩ ⟨2, ![E, 2]⟩ ⟨1, ![E]⟩ where
  updateWindowDims := []
  insertedWindowDims := [0, 1]
  scatterDimsToOperandDims := [0, 1]
  indexVectorDim := 1
  wf := wf

/-- Edge `e`'s start on the first axis is `idx[e, 0]` read signed. -/
theorem scatter2_start0 (e : Fin E) (idx : IVec ⟨2, ![E, 2]⟩ w) :
    (scatter2Dims N0 N1 E wf).start (ix1 e) idx 0 = (idx (ix2 e 0)).toInt := by
  unfold ScatterDims.start
  have hm : (0 : Fin 2) ∈ (scatter2Dims N0 N1 E wf).scatterDimsToOperandDims := by
    show (0 : Fin 2) ∈ ([0, 1] : List (Fin 2))
    decide
  rw [dif_pos hm]
  have hsi : (scatter2Dims N0 N1 E wf).siIdx (ix1 e) ⟨List.idxOf (0 : Fin 2) (scatter2Dims N0 N1 E wf).scatterDimsToOperandDims,
      List.idxOf_lt_length_iff.2 hm⟩ = ix2 e 0 := by
    funext b; refine Fin.ext ?_
    match b with
    | ⟨0, _⟩ => rfl
    | ⟨1, _⟩ => rfl
  rw [hsi]

/-- Edge `e`'s start on the second axis is `idx[e, 1]` read signed. -/
theorem scatter2_start1 (e : Fin E) (idx : IVec ⟨2, ![E, 2]⟩ w) :
    (scatter2Dims N0 N1 E wf).start (ix1 e) idx 1 = (idx (ix2 e 1)).toInt := by
  unfold ScatterDims.start
  have hm : (1 : Fin 2) ∈ (scatter2Dims N0 N1 E wf).scatterDimsToOperandDims := by
    show (1 : Fin 2) ∈ ([0, 1] : List (Fin 2))
    decide
  rw [dif_pos hm]
  have hsi : (scatter2Dims N0 N1 E wf).siIdx (ix1 e) ⟨List.idxOf (1 : Fin 2) (scatter2Dims N0 N1 E wf).scatterDimsToOperandDims,
      List.idxOf_lt_length_iff.2 hm⟩ = ix2 e 1 := by
    funext b; refine Fin.ext ?_
    match b with
    | ⟨0, _⟩ => rfl
    | ⟨1, _⟩ => rfl
  rw [hsi]

/-- There is no window: the window coordinate is `0` on both axes. -/
theorem scatter2_window (j : (⟨1, ![E]⟩ : Shape).Idx) (a : Fin 2) : (scatter2Dims N0 N1 E wf).window j a = 0 := by
  unfold ScatterDims.window
  have hk : a ∉ (scatter2Dims N0 N1 E wf).sKept := by
    show a ∉ ([] : List (Fin 2))
    exact List.not_mem_nil
  rw [dif_neg hk]

/-- Edge `e` lands on `(j, i)` exactly when `idx[e, 0]` is `j` and `idx[e, 1]` is `i`, both read signed. -/
theorem scatter2_resultIdx?_iff (e : Fin E) (j : Fin N0) (i : Fin N1) (idx : IVec ⟨2, ![E, 2]⟩ w) :
    (scatter2Dims N0 N1 E wf).resultIdx? (ix1 e) idx = some (ix2 j i)
      ↔ (idx (ix2 e 0)).toInt = (j.val : ℤ) ∧ (idx (ix2 e 1)).toInt = (i.val : ℤ) := by
  rw [resultIdx?_eq_some_iff]
  constructor
  · intro h
    have h0 := h 0
    have h1 := h 1
    rw [scatter2_start0, scatter2_window, Nat.cast_zero, add_zero] at h0
    rw [scatter2_start1, scatter2_window, Nat.cast_zero, add_zero] at h1
    exact ⟨h0, h1⟩
  · rintro ⟨h0, h1⟩ a
    match a with
    | ⟨0, _⟩ =>
      show (scatter2Dims N0 N1 E wf).start (ix1 e) idx 0 + ((scatter2Dims N0 N1 E wf).window (ix1 e) 0 : ℤ) = (j.val : ℤ)
      rw [scatter2_start0, scatter2_window, Nat.cast_zero, add_zero]
      exact h0
    | ⟨1, _⟩ =>
      show (scatter2Dims N0 N1 E wf).start (ix1 e) idx 1 + ((scatter2Dims N0 N1 E wf).window (ix1 e) 1 : ℤ) = (i.val : ℤ)
      rw [scatter2_start1, scatter2_window, Nat.cast_zero, add_zero]
      exact h1

/-- THE SCATTER-ADD READ AT `(j, i)`: the operand there plus the updates of the edges whose pair of start
    indices is `(j, i)`. -/
theorem scatterAdd2_apply {φ : FTy} (x : FVec Ideal ⟨2, ![N0, N1]⟩ φ) (idx : IVec ⟨2, ![E, 2]⟩ w)
    (upd : FVec Ideal ⟨1, ![E]⟩ φ) (j : Fin N0) (i : Fin N1) :
    Host.scatterAdd (F := Ideal) (scatter2Dims N0 N1 E wf) x idx upd (ix2 j i)
      = x (ix2 j i) + ∑ e ∈ Finset.univ.filter (fun e : Fin E =>
          (idx (ix2 e 0)).toInt = (j.val : ℤ) ∧ (idx (ix2 e 1)).toInt = (i.val : ℤ)), upd (ix1 e) := by
  unfold Host.scatterAdd
  rw [Ideal.hostScatterAdd_def]
  unfold Ideal.hostScatterAdd
  congr 1
  rw [sum_filter_equiv (ix1Equiv E)]
  exact Finset.sum_congr (Finset.filter_congr fun e _ => scatter2_resultIdx?_iff wf e j i idx) fun _ _ => rfl

/-- The same read when both start indices are known to name nodes: `row e` and `col e` are edge `e`'s two
    nodes, and the edges summed are those with `row e = j ∧ col e = i`. -/
theorem scatterAdd2_apply_of_nodes {φ : FTy} (x : FVec Ideal ⟨2, ![N0, N1]⟩ φ) (idx : IVec ⟨2, ![E, 2]⟩ w)
    (upd : FVec Ideal ⟨1, ![E]⟩ φ) (row : Fin E → Fin N0) (col : Fin E → Fin N1)
    (hrow : ∀ e, (idx (ix2 e 0)).toInt = ((row e).val : ℤ)) (hcol : ∀ e, (idx (ix2 e 1)).toInt = ((col e).val : ℤ))
    (j : Fin N0) (i : Fin N1) :
    Host.scatterAdd (F := Ideal) (scatter2Dims N0 N1 E wf) x idx upd (ix2 j i)
      = x (ix2 j i) + ∑ e ∈ Finset.univ.filter (fun e : Fin E => row e = j ∧ col e = i), upd (ix1 e) := by
  rw [scatterAdd2_apply]
  congr 1
  refine Finset.sum_congr (Finset.filter_congr fun e _ => ?_) fun _ _ => rfl
  rw [hrow e, hcol e, Nat.cast_inj, Nat.cast_inj, Fin.val_inj, Fin.val_inj]

end Scatter2

/-! ## Clamped start indices -/

/-- The node a signed start index names once clamped into `[0, N − 1]`, as a gather reads it. -/
def clampIdx {N : Nat} (hN : 0 < N) (z : ℤ) : Fin N := ⟨min z.toNat (N - 1), by omega⟩

/-- Inside `[0, N)` the clamp is the identity. -/
theorem clampIdx_of_inRange {N : Nat} (hN : 0 < N) {z : ℤ} (h0 : 0 ≤ z) (h1 : z < N) :
    clampIdx hN z = ⟨z.toNat, by omega⟩ := by
  refine Fin.ext ?_
  show min z.toNat (N - 1) = z.toNat
  omega

/-- A signed start index is node `j` (a scatter's landing condition) exactly when it is inside `[0, N)` and
    clamps to `j` (a gather's reading). -/
theorem eq_coe_iff_clampIdx {N : Nat} (hN : 0 < N) (z : ℤ) (j : Fin N) :
    z = (j.val : ℤ) ↔ (0 ≤ z ∧ z < N) ∧ clampIdx hN z = j := by
  have hj := j.isLt
  constructor
  · intro h
    refine ⟨⟨by omega, by omega⟩, Fin.ext ?_⟩
    show min z.toNat (N - 1) = j.val
    omega
  · rintro ⟨⟨h0, h1⟩, h⟩
    have := congrArg Fin.val h
    change min z.toNat (N - 1) = j.val at this
    omega

/-! ## Gathers: one start index per edge -/

section Gather1
variable {N E w : Nat} {α : Type} (wf : GatherDims.WF ⟨1, ![N]⟩ ⟨2, ![E, 1]⟩ ⟨1, ![E]⟩ [] [0] [] [0] [] 1 ![1])

/-- `x[idx]` for `x : [N]`, `idx : [E, 1]`: slices of one element, the operand's axis collapsed and named by
    the start index's one component. -/
abbrev gather1Dims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT EDGE `e`: the operand at `idx[e, 0]`, read signed and clamped into `[0, N − 1]`. -/
theorem gather1_apply (hN : 0 < N) (x : (⟨1, ![N]⟩ : Shape).Idx → α) (idx : IVec ⟨2, ![E, 1]⟩ w) (e : Fin E) :
    Host.gather (gather1Dims N E wf) x idx (ix1 e) = x (ix1 (clampIdx hN (idx (ix2 e 0)).toInt)) := by
  unfold Host.gather
  congr 1
  funext a
  obtain rfl : a = 0 := Subsingleton.elim _ _
  refine Fin.ext ?_
  show (gather1Dims N E wf).start (ix1 e) idx 0 + (gather1Dims N E wf).batchCoord (ix1 e) 0
    + (gather1Dims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N E wf).startIndexMap from List.mem_singleton.mpr rfl)]
  have hsi : (gather1Dims N E wf).siIdx (ix1 e) ⟨List.idxOf (0 : Fin 1) (gather1Dims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather read at edge `e` when `idx[e, 0]` names a node: the operand at that node. -/
theorem gather1_apply_of_inRange (x : (⟨1, ![N]⟩ : Shape).Idx → α) (idx : IVec ⟨2, ![E, 1]⟩ w) (e : Fin E)
    (h0 : 0 ≤ (idx (ix2 e 0)).toInt) (h1 : (idx (ix2 e 0)).toInt < N) :
    Host.gather (gather1Dims N E wf) x idx (ix1 e) = x (ix1 ⟨(idx (ix2 e 0)).toInt.toNat, by omega⟩) := by
  have hN : 0 < N := by omega
  rw [gather1_apply wf hN, clampIdx_of_inRange hN h0 h1]

end Gather1

section Gather1Col
variable {N E w : Nat} {α : Type}
  (wf : GatherDims.WF ⟨2, ![N, 1]⟩ ⟨2, ![E, 1]⟩ ⟨2, ![E, 1]⟩ [1] [0] [] [0] [] 1 ![1, 1])

/-- `x[idx]` for `x : [N, 1]`, `idx : [E, 1]`: slices `[1, 1]`, the operand's leading axis collapsed and named by
    the start index's one component, its trailing axis the result's offset axis. -/
abbrev gather1ColDims (N E : Nat)
    (wf : GatherDims.WF ⟨2, ![N, 1]⟩ ⟨2, ![E, 1]⟩ ⟨2, ![E, 1]⟩ [1] [0] [] [0] [] 1 ![1, 1]) :
    GatherDims ⟨2, ![N, 1]⟩ ⟨2, ![E, 1]⟩ ⟨2, ![E, 1]⟩ where
  offsetDims := [1]
  collapsedSliceDims := [0]
  operandBatchingDims := []
  startIndicesBatchingDims := []
  startIndexMap := [0]
  indexVectorDim := 1
  sliceSizes := ![1, 1]
  wf := wf

/-- THE GATHER READ AT `(e, 0)`: the operand at `(idx[e, 0], 0)`, the start index read signed and clamped into
    `[0, N − 1]`. -/
theorem gather1Col_apply (hN : 0 < N) (x : (⟨2, ![N, 1]⟩ : Shape).Idx → α) (idx : IVec ⟨2, ![E, 1]⟩ w) (e : Fin E) :
    Host.gather (gather1ColDims N E wf) x idx (ix2 e 0) = x (ix2 (clampIdx hN (idx (ix2 e 0)).toInt) 0) := by
  unfold Host.gather
  congr 1
  funext a
  refine Fin.ext ?_
  match a with
  | ⟨0, _⟩ =>
    show (gather1ColDims N E wf).start (ix2 e 0) idx 0 + (gather1ColDims N E wf).batchCoord (ix2 e 0) 0
      + (gather1ColDims N E wf).offCoord (ix2 e 0) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather1ColDims N E wf).startIndexMap from List.mem_singleton.mpr rfl)]
    have hsi : (gather1ColDims N E wf).siIdx (ix2 e 0) ⟨List.idxOf (0 : Fin 2) (gather1ColDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gather1ColDims N E wf).start (ix2 e 0) idx 1 + (gather1ColDims N E wf).batchCoord (ix2 e 0) 1
      + (gather1ColDims N E wf).offCoord (ix2 e 0) 1 = 0
    have hs : (gather1ColDims N E wf).start (ix2 e 0) idx 1 = 0 := by
      unfold GatherDims.start
      have h : (1 : Fin 2) ∉ (gather1ColDims N E wf).startIndexMap := by
        show (1 : Fin 2) ∉ ([0] : List (Fin 2))
        decide
      rw [dif_neg h]
    have ho : (gather1ColDims N E wf).offCoord (ix2 e 0) 1 = 0 := by
      unfold GatherDims.offCoord
      have hk : (1 : Fin 2) ∈ (gather1ColDims N E wf).sKept := by
        show (1 : Fin 2) ∈ ([1] : List (Fin 2))
        decide
      rw [dif_pos hk]
      rfl
    rw [hs, GatherDims.batchCoord_eq_zero _ _ _ List.not_mem_nil, ho]

/-- The gather read at `(e, 0)` when `idx[e, 0]` names a node: the operand at `(that node, 0)`. -/
theorem gather1Col_apply_of_inRange (x : (⟨2, ![N, 1]⟩ : Shape).Idx → α) (idx : IVec ⟨2, ![E, 1]⟩ w) (e : Fin E)
    (h0 : 0 ≤ (idx (ix2 e 0)).toInt) (h1 : (idx (ix2 e 0)).toInt < N) :
    Host.gather (gather1ColDims N E wf) x idx (ix2 e 0) = x (ix2 ⟨(idx (ix2 e 0)).toInt.toNat, by omega⟩ 0) := by
  have hN : 0 < N := by omega
  rw [gather1Col_apply wf hN, clampIdx_of_inRange hN h0 h1]

end Gather1Col

end Cert.LibScatterRead
-- ==== Proof.LibRefScatter.lean ====
/-
  A scatter whose body returns the update and whose updates are all one value ("set these cells to c"), read at an
  index: the value where some update lands, the operand elsewhere. Then the four index patterns of a grid's edits:
  one whole row, one whole column, a span of one row from a start column, and one row of a one-channel slab.
-/
import Idealize.ShloMosaic.Lib.ValueIdx
import Idealize.ShloMosaic.Lib.Pipeline.Value

namespace Cert.LibRefScatter

open Idealize.ShloMosaic Idealize.ShloMosaic.ValueIdx

/-- An update lands on operand index `i` exactly when, on every axis, its start (read signed, not clamped) plus its
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have := congrArg (fun f => (f a).val) hi
      simp only at this
      have := h a
      omega
    · intro hi
      funext a
      refine Fin.ext ?_
      have := hi a
      show (d.start j idx a + (d.window j a : ℤ)).toNat = (i a).val
      omega
  · rename_i h
    constructor
    · intro hi; cases hi
    · intro hi
      exfalso
      refine h fun a => ?_
      have := hi a
      have := (i a).isLt
      omega

/-- A left fold of "set the cell the step names to c": a cell some step names ends at c. -/
theorem foldl_set_const {ι κ α : Type} [DecidableEq ι] (g : κ → Option ι) (c : α) (step : (ι → α) → κ → (ι → α))
    (hstep : ∀ r n i, step r n i = if g n = some i then c else r i) :
    ∀ (l : List κ) (x : ι → α) (i : ι), (∃ n ∈ l, g n = some i) → (l.foldl step x) i = c := by
  intro l
  induction l using List.reverseRecOn with
  | nil => intro x i h; simp at h
  | append_singleton l n ih =>
    intro x i h
    rw [List.foldl_append, List.foldl_cons, List.foldl_nil, hstep]
    by_cases hn : g n = some i
    · rw [if_pos hn]
    · rw [if_neg hn]
      refine ih x i ?_
      obtain ⟨m, hm, hg⟩ := h
      rcases List.mem_append.mp hm with hm | hm
      · exact ⟨m, hm, hg⟩
      · rw [List.mem_singleton] at hm; subst hm; exact absurd hg hn

theorem foldl_set_const_not {ι κ α : Type} [DecidableEq ι] (g : κ → Option ι) (c : α) (step : (ι → α) → κ → (ι → α))
    (hstep : ∀ r n i, step r n i = if g n = some i then c else r i) :
    ∀ (l : List κ) (x : ι → α) (i : ι), (¬ ∃ n ∈ l, g n = some i) → (l.foldl step x) i = x i := by
  intro l
  induction l using List.reverseRecOn with
  | nil => intro x i h; rfl
  | append_singleton l n ih =>
    intro x i h
    rw [List.foldl_append, List.foldl_cons, List.foldl_nil, hstep]
    have hn : ¬ g n = some i := fun hg => h ⟨n, by simp, hg⟩
    rw [if_neg hn]
    exact ih x i fun ⟨m, hm, hg⟩ => h ⟨m, List.mem_append_left _ hm, hg⟩

theorem scatter_step {s si u : Shape} {w : ℕ} {α : Type} (d : ScatterDims s si u) (idx : IVec si w) (c : α)
    (r : s.Idx → α) (n : Fin u.numel) (i : s.Idx) :
    (match d.resultIdx? (u.rowMajor.symm n) idx with
      | some i0 => fun i' => if i' = i0 then (fun (_ b : α) => b) (r i0) ((fun _ => c) (u.rowMajor.symm n)) else r i'
      | none => r) i = if d.resultIdx? (u.rowMajor.symm n) idx = some i then c else r i := by
  cases h : d.resultIdx? (u.rowMajor.symm n) idx with
  | none => simp
  | some i0 =>
    simp only [Option.some.injEq]
    by_cases e : i = i0
    · subst e; simp
    · rw [if_neg e, if_neg (fun e' => e e'.symm)]

/-- A scatter that overwrites with one value: the value where some update lands, the operand elsewhere. -/
theorem scatter_set_const_pos {s si u : Shape} {w : ℕ} {α : Type} (d : ScatterDims s si u) (x : s.Idx → α) (idx : IVec si w)
    (upd : u.Idx → α) (c : α) (hc : ∀ j, upd j = c) (i : s.Idx) (h : ∃ j : u.Idx, d.resultIdx? j idx = some i) :
    Host.scatter d (fun _ b => b) x idx upd i = c := by
  obtain rfl : upd = fun _ => c := funext hc
  unfold Host.scatter
  refine foldl_set_const (fun n => d.resultIdx? (u.rowMajor.symm n) idx) c _ (fun r n i => scatter_step d idx c r n i) _ x i ?_
  obtain ⟨j, h⟩ := h
  exact ⟨u.rowMajor j, List.mem_finRange _, by rw [Equiv.symm_apply_apply]; exact h⟩

theorem scatter_set_const_neg {s si u : Shape} {w : ℕ} {α : Type} (d : ScatterDims s si u) (x : s.Idx → α) (idx : IVec si w)
    (upd : u.Idx → α) (c : α) (hc : ∀ j, upd j = c) (i : s.Idx) (h : ¬ ∃ j : u.Idx, d.resultIdx? j idx = some i) :
    Host.scatter d (fun _ b => b) x idx upd i = x i := by
  obtain rfl : upd = fun _ => c := funext hc
  unfold Host.scatter
  refine foldl_set_const_not (fun n => d.resultIdx? (u.rowMajor.symm n) idx) c _ (fun r n i => scatter_step d idx c r n i) _ x i ?_
  rintro ⟨n, _, hn⟩
  exact h ⟨_, hn⟩

/-! ## One whole row -/

section Row
variable {n0 n1 w : Nat} {α : Type} (wf : ScatterDims.WF ⟨2, ![n0, n1]⟩ ⟨1, ![1]⟩ ⟨1, ![n1]⟩ [0] [0] [0] 0)

/-- `x.at[r, :].set(c)`: the start index names the row, the updates' axis is the window over the columns. -/
abbrev rowDims (n0 n1 : Nat) (wf : ScatterDims.WF ⟨2, ![n0, n1]⟩ ⟨1, ![1]⟩ ⟨1, ![n1]⟩ [0] [0] [0] 0) :
    ScatterDims ⟨2, ![n0, n1]⟩ ⟨1, ![1]⟩ ⟨1, ![n1]⟩ where
  updateWindowDims := [0]
  insertedWindowDims := [0]
  scatterDimsToOperandDims := [0]
  indexVectorDim := 0
  wf := wf

theorem row_start0 (j : (⟨1, ![n1]⟩ : Shape).Idx) (idx : IVec ⟨1, ![1]⟩ w) :
    (rowDims n0 n1 wf).start j idx 0 = (idx (ix1 0)).toInt := by
  unfold ScatterDims.start
  rw [dif_pos (show (0 : Fin 2) ∈ ([0] : List (Fin 2)) from by decide)]
  congr 2
  funext b; match b with | ⟨0, _⟩ => rfl

theorem row_resultIdx?_iff (j : (⟨1, ![n1]⟩ : Shape).Idx) (idx : IVec ⟨1, ![1]⟩ w) (i : (⟨2, ![n0, n1]⟩ : Shape).Idx) :
    (rowDims n0 n1 wf).resultIdx? j idx = some i ↔ (idx (ix1 0)).toInt = ((i 0).val : ℤ) ∧ (j 0).val = (i 1).val := by
  rw [resultIdx?_eq_some_iff]
  constructor
  · intro h
    have h0 := h 0
    have h1 := h 1
    rw [row_start0] at h0
    change (idx (ix1 0)).toInt + ((0 : ℕ) : ℤ) = _ at h0
    change (0 : ℤ) + (((j 0).val : ℕ) : ℤ) = _ at h1
    exact ⟨by omega, by omega⟩
  · rintro ⟨h0, h1⟩ a
    match a with
    | ⟨0, _⟩ =>
      show (rowDims n0 n1 wf).start j idx 0 + ((0 : ℕ) : ℤ) = ((i 0).val : ℤ)
      rw [row_start0]; omega
    | ⟨1, _⟩ =>
      show (0 : ℤ) + (((j 0).val : ℕ) : ℤ) = ((i 1).val : ℤ)
      omega

/-- The row set read at `i`: `c` on the named row, the operand elsewhere. -/
theorem scatter_row_apply (x : (⟨2, ![n0, n1]⟩ : Shape).Idx → α) (idx : IVec ⟨1, ![1]⟩ w) (upd : (⟨1, ![n1]⟩ : Shape).Idx → α)
    (c : α) (hc : ∀ j, upd j = c) (i : (⟨2, ![n0, n1]⟩ : Shape).Idx) :
    Host.scatter (rowDims n0 n1 wf) (fun _ b => b) x idx upd i
      = if (idx (ix1 0)).toInt = ((i 0).val : ℤ) then c else x i := by
  by_cases h : (idx (ix1 0)).toInt = ((i 0).val : ℤ)
  · rw [if_pos h]
    exact scatter_set_const_pos _ x idx upd c hc i ⟨ix1 (i 1), (row_resultIdx?_iff wf _ idx i).mpr ⟨h, rfl⟩⟩
  · rw [if_neg h]
    exact scatter_set_const_neg _ x idx upd c hc i fun ⟨j, hj⟩ => h ((row_resultIdx?_iff wf j idx i).mp hj).1

end Row

/-! ## One whole column -/

section Col
variable {n0 n1 w : Nat} {α : Type} (wf : ScatterDims.WF ⟨2, ![n0, n1]⟩ ⟨1, ![1]⟩ ⟨1, ![n0]⟩ [0] [1] [1] 0)

/-- `x.at[:, c].set(v)`: the start index names the column, the updates' axis is the window over the rows. -/
abbrev colDims (n0 n1 : Nat) (wf : ScatterDims.WF ⟨2, ![n0, n1]⟩ ⟨1, ![1]⟩ ⟨1, ![n0]⟩ [0] [1] [1] 0) :
    ScatterDims ⟨2, ![n0, n1]⟩ ⟨1, ![1]⟩ ⟨1, ![n0]⟩ where
  updateWindowDims := [0]
  insertedWindowDims := [1]
  scatterDimsToOperandDims := [1]
  indexVectorDim := 0
  wf := wf

theorem col_start1 (j : (⟨1, ![n0]⟩ : Shape).Idx) (idx : IVec ⟨1, ![1]⟩ w) :
    (colDims n0 n1 wf).start j idx 1 = (idx (ix1 0)).toInt := by
  unfold ScatterDims.start
  rw [dif_pos (show (1 : Fin 2) ∈ ([1] : List (Fin 2)) from by decide)]
  congr 2
  funext b; match b with | ⟨0, _⟩ => rfl

theorem col_resultIdx?_iff (j : (⟨1, ![n0]⟩ : Shape).Idx) (idx : IVec ⟨1, ![1]⟩ w) (i : (⟨2, ![n0, n1]⟩ : Shape).Idx) :
    (colDims n0 n1 wf).resultIdx? j idx = some i ↔ (idx (ix1 0)).toInt = ((i 1).val : ℤ) ∧ (j 0).val = (i 0).val := by
  rw [resultIdx?_eq_some_iff]
  constructor
  · intro h
    have h0 := h 0
    have h1 := h 1
    rw [col_start1] at h1
    change (idx (ix1 0)).toInt + ((0 : ℕ) : ℤ) = _ at h1
    change (0 : ℤ) + (((j 0).val : ℕ) : ℤ) = _ at h0
    exact ⟨by omega, by omega⟩
  · rintro ⟨h0, h1⟩ a
    match a with
    | ⟨0, _⟩ =>
      show (0 : ℤ) + (((j 0).val : ℕ) : ℤ) = ((i 0).val : ℤ)
      omega
    | ⟨1, _⟩ =>
      show (colDims n0 n1 wf).start j idx 1 + ((0 : ℕ) : ℤ) = ((i 1).val : ℤ)
      rw [col_start1]; omega

/-- The column set read at `i`: `c` on the named column, the operand elsewhere. -/
theorem scatter_col_apply (x : (⟨2, ![n0, n1]⟩ : Shape).Idx → α) (idx : IVec ⟨1, ![1]⟩ w) (upd : (⟨1, ![n0]⟩ : Shape).Idx → α)
    (c : α) (hc : ∀ j, upd j = c) (i : (⟨2, ![n0, n1]⟩ : Shape).Idx) :
    Host.scatter (colDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix1 (i 0), (col_resultIdx?_iff wf _ idx i).mpr ⟨h, rfl⟩⟩
  · rw [if_neg h]
    exact scatter_set_const_neg _ x idx upd c hc i fun ⟨j, hj⟩ => h ((col_resultIdx?_iff wf j idx i).mp hj).1

end Col

/-! ## A span of one row -/

section Span
variable {n0 n1 m w : Nat} {α : Type} (wf : ScatterDims.WF ⟨2, ![n0, n1]⟩ ⟨1, ![2]⟩ ⟨1, ![m]⟩ [0] [0] [0, 1] 0)

/-- `x.at[r, c0:c0+m].set(v)`: the start index is the pair (row, first column), the updates' axis the window over the
    columns from there. -/
abbrev spanDims (n0 n1 m : Nat) (wf : ScatterDims.WF ⟨2, ![n0, n1]⟩ ⟨1, ![2]⟩ ⟨1, ![m]⟩ [0] [0] [0, 1] 0) :
    ScatterDims ⟨2, ![n0, n1]⟩ ⟨1, ![2]⟩ ⟨1, ![m]⟩ where
  updateWindowDims := [0]
  insertedWindowDims := [0]
  scatterDimsToOperandDims := [0, 1]
  indexVectorDim := 0
  wf := wf

theorem span_start0 (j : (⟨1, ![m]⟩ : Shape).Idx) (idx : IVec ⟨1, ![2]⟩ w) :
    (spanDims n0 n1 m wf).start j idx 0 = (idx (ix1 0)).toInt := by
  unfold ScatterDims.start
  rw [dif_pos (show (0 : Fin 2) ∈ ([0, 1] : List (Fin 2)) from by decide)]
  congr 2
  funext b; match b with | ⟨0, _⟩ => rfl

theorem span_start1 (j : (⟨1, ![m]⟩ : Shape).Idx) (idx : IVec ⟨1, ![2]⟩ w) :
    (spanDims n0 n1 m wf).start j idx 1 = (idx (ix1 1)).toInt := by
  unfold ScatterDims.start
  rw [dif_pos (show (1 : Fin 2) ∈ ([0, 1] : List (Fin 2)) from by decide)]
  congr 2
  funext b; match b with | ⟨0, _⟩ => rfl

theorem span_resultIdx?_iff (j : (⟨1, ![m]⟩ : Shape).Idx) (idx : IVec ⟨1, ![2]⟩ w) (i : (⟨2, ![n0, n1]⟩ : Shape).Idx) :
    (spanDims n0 n1 m wf).resultIdx? j idx = some i
      ↔ (idx (ix1 0)).toInt = ((i 0).val : ℤ) ∧ (idx (ix1 1)).toInt + ((j 0).val : ℤ) = ((i 1).val : ℤ) := by
  rw [resultIdx?_eq_some_iff]
  constructor
  · intro h
    have h0 := h 0
    have h1 := h 1
    rw [span_start0] at h0
    rw [span_start1] at h1
    change (idx (ix1 0)).toInt + ((0 : ℕ) : ℤ) = _ at h0
    change (idx (ix1 1)).toInt + (((j 0).val : ℕ) : ℤ) = _ at h1
    exact ⟨by omega, by omega⟩
  · rintro ⟨h0, h1⟩ a
    match a with
    | ⟨0, _⟩ =>
      show (spanDims n0 n1 m wf).start j idx 0 + ((0 : ℕ) : ℤ) = ((i 0).val : ℤ)
      rw [span_start0]; omega
    | ⟨1, _⟩ =>
      show (spanDims n0 n1 m wf).start j idx 1 + (((j 0).val : ℕ) : ℤ) = ((i 1).val : ℤ)
      rw [span_start1]; omega

/-- The span set read at `i`: `c` on the named row from the first column for `m` columns, the operand elsewhere. -/
theorem scatter_span_apply (x : (⟨2, ![n0, n1]⟩ : Shape).Idx → α) (idx : IVec ⟨1, ![2]⟩ w) (upd : (⟨1, ![m]⟩ : Shape).Idx → α)
    (c : α) (hc : ∀ j, upd j = c) (i : (⟨2, ![n0, n1]⟩ : Shape).Idx) :
    Host.scatter (spanDims n0 n1 m wf) (fun _ b => b) x idx upd i
      = if (idx (ix1 0)).toInt = ((i 0).val : ℤ) ∧ (idx (ix1 1)).toInt ≤ ((i 1).val : ℤ)
          ∧ ((i 1).val : ℤ) < (idx (ix1 1)).toInt + (m : ℤ) then c else x i := by
  by_cases h : (idx (ix1 0)).toInt = ((i 0).val : ℤ) ∧ (idx (ix1 1)).toInt ≤ ((i 1).val : ℤ)
          ∧ ((i 1).val : ℤ) < (idx (ix1 1)).toInt + (m : ℤ)
  · rw [if_pos h]
    obtain ⟨h0, h1, h2⟩ := h
    refine scatter_set_const_pos _ x idx upd c hc i ⟨ix1 ⟨(((i 1).val : ℤ) - (idx (ix1 1)).toInt).toNat, by omega⟩, ?_⟩
    refine (span_resultIdx?_iff wf _ idx i).mpr ⟨h0, ?_⟩
    show (idx (ix1 1)).toInt + (((((i 1).val : ℤ) - (idx (ix1 1)).toInt).toNat : ℕ) : ℤ) = ((i 1).val : ℤ)
    omega
  · rw [if_neg h]
    refine scatter_set_const_neg _ x idx upd c hc i fun ⟨j, hj⟩ => h ?_
    obtain ⟨h0, h1⟩ := (span_resultIdx?_iff wf j idx i).mp hj
    have := (j 0).isLt
    change (j 0).val < m at this
    exact ⟨h0, by omega, by omega⟩

end Span

/-! ## One row of a one-channel slab -/

section Slab
variable {n0 n1 w : Nat} {α : Type} (wf : ScatterDims.WF ⟨3, ![1, n0, n1]⟩ ⟨1, ![1]⟩ ⟨2, ![1, n1]⟩ [0, 1] [1] [1] 0)

/-- `x.at[:, r, :].set(v)` on a `[1, n0, n1]` array: the start index names the row, the updates' two axes are the
    windows over the channel and the columns. -/
abbrev slabDims (n0 n1 : Nat) (wf : ScatterDims.WF ⟨3, ![1, n0, n1]⟩ ⟨1, ![1]⟩ ⟨2, ![1, n1]⟩ [0, 1] [1] [1] 0) :
    ScatterDims ⟨3, ![1, n0, n1]⟩ ⟨1, ![1]⟩ ⟨2, ![1, n1]⟩ where
  updateWindowDims := [0, 1]
  insertedWindowDims := [1]
  scatterDimsToOperandDims := [1]
  indexVectorDim := 0
  wf := wf

theorem slab_start1 (j : (⟨2, ![1, n1]⟩ : Shape).Idx) (idx : IVec ⟨1, ![1]⟩ w) :
    (slabDims n0 n1 wf).start j idx 1 = (idx (ix1 0)).toInt := by
  unfold ScatterDims.start
  rw [dif_pos (show (1 : Fin 3) ∈ ([1] : List (Fin 3)) from by decide)]
  congr 2
  funext b; match b with | ⟨0, _⟩ => rfl

theorem slab_resultIdx?_iff (j : (⟨2, ![1, n1]⟩ : Shape).Idx) (idx : IVec ⟨1, ![1]⟩ w) (i : (⟨3, ![1, n0, n1]⟩ : Shape).Idx) :
    (slabDims n0 n1 wf).resultIdx? j idx = some i
      ↔ (idx (ix1 0)).toInt = ((i 1).val : ℤ) ∧ (j 0).val = (i 0).val ∧ (j 1).val = (i 2).val := by
  rw [resultIdx?_eq_some_iff]
  constructor
  · intro h
    have h0 := h 0
    have h1 := h 1
    have h2 := h 2
    rw [slab_start1] at h1
    change (0 : ℤ) + (((j 0).val : ℕ) : ℤ) = _ at h0
    change (idx (ix1 0)).toInt + ((0 : ℕ) : ℤ) = _ at h1
    change (0 : ℤ) + (((j 1).val : ℕ) : ℤ) = _ at h2
    exact ⟨by omega, by omega, by omega⟩
  · rintro ⟨h0, h1, h2⟩ a
    match a with
    | ⟨0, _⟩ =>
      show (0 : ℤ) + (((j 0).val : ℕ) : ℤ) = ((i 0).val : ℤ)
      omega
    | ⟨1, _⟩ =>
      show (slabDims n0 n1 wf).start j idx 1 + ((0 : ℕ) : ℤ) = ((i 1).val : ℤ)
      rw [slab_start1]; omega
    | ⟨2, _⟩ =>
      show (0 : ℤ) + (((j 1).val : ℕ) : ℤ) = ((i 2).val : ℤ)
      omega

/-- The slab's row set read at `i`: `c` on the named row, the operand elsewhere. -/
theorem scatter_slab_apply (x : (⟨3, ![1, n0, n1]⟩ : Shape).Idx → α) (idx : IVec ⟨1, ![1]⟩ w)
    (upd : (⟨2, ![1, n1]⟩ : Shape).Idx → α) (c : α) (hc : ∀ j, upd j = c) (i : (⟨3, ![1, n0, n1]⟩ : Shape).Idx) :
    Host.scatter (slabDims n0 n1 wf) (fun _ b => b) x idx upd i
      = if (idx (ix1 0)).toInt = ((i 1).val : ℤ) then c else x i := by
  by_cases h : (idx (ix1 0)).toInt = ((i 1).val : ℤ)
  · rw [if_pos h]
    exact scatter_set_const_pos _ x idx upd c hc i ⟨ix2 (i 0) (i 2), (slab_resultIdx?_iff wf _ idx i).mpr ⟨h, rfl, rfl⟩⟩
  · rw [if_neg h]
    exact scatter_set_const_neg _ x idx upd c hc i fun ⟨j, hj⟩ => h ((slab_resultIdx?_iff wf j idx i).mp hj).1

end Slab

end Cert.LibRefScatter
-- ==== Proof.LibScatterSet.lean ====
/-
  A scatter whose body returns the update (`x.at[…].set(v)`) read at an index, for updates that vary: where exactly one
  update lands the cell holds that update, where none lands it holds the operand. Then the index patterns of a padded
  copy: a block of columns from a start column, a block at a corner, one cell, and a span of one row.
-/
import Idealize.ShloMosaic.Lib.ValueIdx
import Idealize.ShloMosaic.Lib.Pipeline.Value
import proofs.«173566_j57604101374655_2_alg».proof.Proof.LibRefScatter

namespace Cert.LibScatterSet

open Idealize.ShloMosaic Idealize.ShloMosaic.ValueIdx
open Cert.LibRefScatter (resultIdx?_eq_some_iff)

/-- A left fold of "set the cell the step names to the step's value", read at a cell `i` on which every step that names
    it carries the value `c`, and some step names it: the cell ends at `c`. -/
theorem foldl_set_agree {ι κ α : Type} [DecidableEq ι] (g : κ → Option ι) (v : κ → α) (i : ι) (c : α)
    (step : (ι → α) → κ → (ι → α)) (hstep : ∀ r n, step r n i = if g n = some i then v n else r i) :
    ∀ (l : List κ) (x : ι → α), (∀ n ∈ l, g n = some i → v n = c) → (∃ n ∈ l, g n = some i) → (l.foldl step x) i = c := by
  intro l
  induction l using List.reverseRecOn with
  | nil => intro x _ h; simp at h
  | append_singleton l n ih =>
    intro x hv h
    rw [List.foldl_append, List.foldl_cons, List.foldl_nil, hstep]
    by_cases hn : g n = some i
    · rw [if_pos hn]; exact hv n (by simp) hn
    · rw [if_neg hn]
      refine ih x (fun k hk => hv k (List.mem_append_left _ hk)) ?_
      obtain ⟨k, hk, hg⟩ := h
      rcases List.mem_append.mp hk with hk | hk
      · exact ⟨k, hk, hg⟩
      · rw [List.mem_singleton] at hk; subst hk; exact absurd hg hn

/-- The same fold read at a cell no step names: the cell keeps its first contents. -/
theorem foldl_set_none {ι κ α : Type} [DecidableEq ι] (g : κ → Option ι) (v : κ → α) (i : ι)
    (step : (ι → α) → κ → (ι → α)) (hstep : ∀ r n, step r n i = if g n = some i then v n else r i) :
    ∀ (l : List κ) (x : ι → α), (∀ n ∈ l, g n ≠ some i) → (l.foldl step x) i = x i := by
  intro l
  induction l using List.reverseRecOn with
  | nil => intro x _; rfl
  | append_singleton l n ih =>
    intro x h
    rw [List.foldl_append, List.foldl_cons, List.foldl_nil, hstep, if_neg (h n (by simp))]
    exact ih x fun k hk => h k (List.mem_append_left _ hk)

/-- One step of the scatter's fold read at `i`. -/
theorem scatter_step_at {s si u : Shape} {w : ℕ} {α : Type} (d : ScatterDims s si u) (idx : IVec si w) (upd : u.Idx → α)
    (r : s.Idx → α) (n : Fin u.numel) (i : s.Idx) :
    (match d.resultIdx? (u.rowMajor.symm n) idx with
      | some i0 => fun i' => if i' = i0 then (fun (_ b : α) => b) (r i0) (upd (u.rowMajor.symm n)) else r i'
      | none => r) i = if d.resultIdx? (u.rowMajor.symm n) idx = some i then upd (u.rowMajor.symm n) else r i := by
  cases h : d.resultIdx? (u.rowMajor.symm n) idx with
  | none => simp
  | some i0 =>
    simp only [Option.some.injEq]
    by_cases e : i = i0
    · subst e; simp
    · rw [if_neg e, if_neg (fun e' => e e'.symm)]

/-- Where update `j` lands on `i` and no other update does, the scatter-set holds `upd j` at `i`. -/
theorem scatter_set_apply_of_lands {s si u : Shape} {w : ℕ} {α : Type} (d : ScatterDims s si u) (x : s.Idx → α)
    (idx : IVec si w) (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine foldl_set_agree (fun n => d.resultIdx? (u.rowMajor.symm n) idx) (fun n => upd (u.rowMajor.symm n)) i (upd j) _
    (fun r n => scatter_step_at d idx upd r n i) _ x ?_ ?_
  · intro n _ hn; rw [huniq _ hn]
  · exact ⟨u.rowMajor j, List.mem_finRange _, by rw [Equiv.symm_apply_apply]; exact hj⟩

/-- Where no update lands on `i`, the scatter-set holds the operand at `i`. -/
theorem scatter_set_apply_of_not_lands {s si u : Shape} {w : ℕ} {α : Type} (d : ScatterDims s si u) (x : s.Idx → α)
    (idx : IVec si w) (upd : u.Idx → α) (i : s.Idx) (h : ∀ j, d.resultIdx? j idx ≠ some i) :
    Host.scatter d (fun _ b => b) x idx upd i = x i := by
  unfold Host.scatter
  exact foldl_set_none (fun n => d.resultIdx? (u.rowMajor.symm n) idx) (fun n => upd (u.rowMajor.symm n)) i _
    (fun r n => scatter_step_at d idx upd r n i) _ x fun n _ => h _

/-! ## A block of columns from a start column: `x.at[:, c₀:c₀+m₁].set(v)` -/

section ColBlock
variable {n0 n1 m0 m1 w : Nat} {α : Type}
  (wf : ScatterDims.WF ⟨2, ![n0, n1]⟩ ⟨1, ![1]⟩ ⟨2, ![m0, m1]⟩ [0, 1] [] [1] 0)

/-- The one start index names the first column; both axes of the updates are windows. -/
abbrev colBlockDims (n0 n1 m0 m1 : Nat) (wf : ScatterDims.WF ⟨2, ![n0, n1]⟩ ⟨1, ![1]⟩ ⟨2, ![m0, m1]⟩ [0, 1] [] [1] 0) :
    ScatterDims ⟨2, ![n0, n1]⟩ ⟨1, ![1]⟩ ⟨2, ![m0, m1]⟩ where
  updateWindowDims := [0, 1]
  insertedWindowDims := []
  scatterDimsToOperandDims := [1]
  indexVectorDim := 0
  wf := wf

theorem colBlock_start0 (j : (⟨2, ![m0, m1]⟩ : Shape).Idx) (idx : IVec ⟨1, ![1]⟩ w) :
    (colBlockDims n0 n1 m0 m1 wf).start j idx 0 = 0 := by
  unfold ScatterDims.start
  rw [dif_neg (show ¬ (0 : Fin 2) ∈ ([1] : List (Fin 2)) from by decide)]

theorem colBlock_start1 (j : (⟨2, ![m0, m1]⟩ : Shape).Idx) (idx : IVec ⟨1, ![1]⟩ w) :
    (colBlockDims n0 n1 m0 m1 wf).start j idx 1 = (idx (ix1 0)).toInt := by
  unfold ScatterDims.start
  rw [dif_pos (show (1 : Fin 2) ∈ ([1] : List (Fin 2)) from by decide)]
  congr 2
  funext b; match b with | ⟨0, _⟩ => rfl

theorem colBlock_resultIdx?_iff (j : (⟨2, ![m0, m1]⟩ : Shape).Idx) (idx : IVec ⟨1, ![1]⟩ w)
    (i : (⟨2, ![n0, n1]⟩ : Shape).Idx) :
    (colBlockDims n0 n1 m0 m1 wf).resultIdx? j idx = some i
      ↔ (j 0).val = (i 0).val ∧ (idx (ix1 0)).toInt + ((j 1).val : ℤ) = ((i 1).val : ℤ) := by
  rw [resultIdx?_eq_some_iff]
  constructor
  · intro h
    have h0 := h 0
    have h1 := h 1
    rw [colBlock_start0] at h0
    rw [colBlock_start1] at h1
    change (0 : ℤ) + (((j 0).val : ℕ) : ℤ) = _ at h0
    change (idx (ix1 0)).toInt + (((j 1).val : ℕ) : ℤ) = _ at h1
    exact ⟨by omega, by omega⟩
  · rintro ⟨h0, h1⟩ a
    match a with
    | ⟨0, _⟩ =>
      show (colBlockDims n0 n1 m0 m1 wf).start j idx 0 + (((j 0).val : ℕ) : ℤ) = ((i 0).val : ℤ)
      rw [colBlock_start0]; omega
    | ⟨1, _⟩ =>
      show (colBlockDims n0 n1 m0 m1 wf).start j idx 1 + (((j 1).val : ℕ) : ℤ) = ((i 1).val : ℤ)
      rw [colBlock_start1]; omega

/-- The block set read at `i`, the start column being `c₀`: the update at `(i₀, i₁ - c₀)` inside the block, the
    operand elsewhere. -/
theorem scatter_colBlock_apply (x : (⟨2, ![n0, n1]⟩ : Shape).Idx → α) (idx : IVec ⟨1, ![1]⟩ w)
    (upd : (⟨2, ![m0, m1]⟩ : Shape).Idx → α) (c0 : ℕ) (hc : (idx (ix1 0)).toInt = (c0 : ℤ))
    (i : (⟨2, ![n0, n1]⟩ : Shape).Idx) :
    Host.scatter (colBlockDims n0 n1 m0 m1 wf) (fun _ b => b) x idx upd i
      = if h : (i 0).val < m0 ∧ c0 ≤ (i 1).val ∧ (i 1).val < c0 + m1
          then upd (ix2 ⟨(i 0).val, h.1⟩ ⟨(i 1).val - c0, by omega⟩) else x i := by
  by_cases h : (i 0).val < m0 ∧ c0 ≤ (i 1).val ∧ (i 1).val < c0 + m1
  · rw [dif_pos h]
    refine scatter_set_apply_of_lands _ x idx upd i _ ?_ ?_
    · refine (colBlock_resultIdx?_iff wf _ idx i).mpr ⟨rfl, ?_⟩
      rw [hc]
      show (c0 : ℤ) + (((i 1).val - c0 : ℕ) : ℤ) = ((i 1).val : ℤ)
      omega
    · intro j' hj'
      obtain ⟨e0, e1⟩ := (colBlock_resultIdx?_iff wf j' idx i).mp hj'
      rw [hc] at e1
      rw [eq_ix2 j']
      congr 1
      · exact Fin.ext e0
      · refine Fin.ext ?_
        show (j' 1).val = (i 1).val - c0
        omega
  · rw [dif_neg h]
    refine scatter_set_apply_of_not_lands _ x idx upd i fun j hj => h ?_
    obtain ⟨e0, e1⟩ := (colBlock_resultIdx?_iff wf j idx i).mp hj
    rw [hc] at e1
    have h0 : (j 0).val < m0 := (j 0).isLt
    have h1 : (j 1).val < m1 := (j 1).isLt
    exact ⟨by omega, by omega, by omega⟩

end ColBlock

/-! ## A block at a corner: `x.at[r₀:r₀+m₀, c₀:c₀+m₁].set(v)` -/

section Corner
variable {n0 n1 m0 m1 w : Nat} {α : Type}
  (wf : ScatterDims.WF ⟨2, ![n0, n1]⟩ ⟨1, ![2]⟩ ⟨2, ![m0, m1]⟩ [0, 1] [] [0, 1] 0)

/-- The start index is the pair (first row, first column); both axes of the updates are windows. -/
abbrev cornerDims (n0 n1 m0 m1 : Nat) (wf : ScatterDims.WF ⟨2, ![n0, n1]⟩ ⟨1, ![2]⟩ ⟨2, ![m0, m1]⟩ [0, 1] [] [0, 1] 0) :
    ScatterDims ⟨2, ![n0, n1]⟩ ⟨1, ![2]⟩ ⟨2, ![m0, m1]⟩ where
  updateWindowDims := [0, 1]
  insertedWindowDims := []
  scatterDimsToOperandDims := [0, 1]
  indexVectorDim := 0
  wf := wf

theorem corner_start0 (j : (⟨2, ![m0, m1]⟩ : Shape).Idx) (idx : IVec ⟨1, ![2]⟩ w) :
    (cornerDims n0 n1 m0 m1 wf).start j idx 0 = (idx (ix1 0)).toInt := by
  unfold ScatterDims.start
  rw [dif_pos (show (0 : Fin 2) ∈ ([0, 1] : List (Fin 2)) from by decide)]
  congr 2
  funext b; match b with | ⟨0, _⟩ => rfl

theorem corner_start1 (j : (⟨2, ![m0, m1]⟩ : Shape).Idx) (idx : IVec ⟨1, ![2]⟩ w) :
    (cornerDims n0 n1 m0 m1 wf).start j idx 1 = (idx (ix1 1)).toInt := by
  unfold ScatterDims.start
  rw [dif_pos (show (1 : Fin 2) ∈ ([0, 1] : List (Fin 2)) from by decide)]
  congr 2
  funext b; match b with | ⟨0, _⟩ => rfl

theorem corner_resultIdx?_iff (j : (⟨2, ![m0, m1]⟩ : Shape).Idx) (idx : IVec ⟨1, ![2]⟩ w)
    (i : (⟨2, ![n0, n1]⟩ : Shape).Idx) :
    (cornerDims n0 n1 m0 m1 wf).resultIdx? j idx = some i
      ↔ (idx (ix1 0)).toInt + ((j 0).val : ℤ) = ((i 0).val : ℤ) ∧ (idx (ix1 1)).toInt + ((j 1).val : ℤ) = ((i 1).val : ℤ) := by
  rw [resultIdx?_eq_some_iff]
  constructor
  · intro h
    have h0 := h 0
    have h1 := h 1
    rw [corner_start0] at h0
    rw [corner_start1] at h1
    change (idx (ix1 0)).toInt + (((j 0).val : ℕ) : ℤ) = _ at h0
    change (idx (ix1 1)).toInt + (((j 1).val : ℕ) : ℤ) = _ at h1
    exact ⟨by omega, by omega⟩
  · rintro ⟨h0, h1⟩ a
    match a with
    | ⟨0, _⟩ =>
      show (cornerDims n0 n1 m0 m1 wf).start j idx 0 + (((j 0).val : ℕ) : ℤ) = ((i 0).val : ℤ)
      rw [corner_start0]; omega
    | ⟨1, _⟩ =>
      show (cornerDims n0 n1 m0 m1 wf).start j idx 1 + (((j 1).val : ℕ) : ℤ) = ((i 1).val : ℤ)
      rw [corner_start1]; omega

/-- The block set read at `i`, the corner being `(r₀, c₀)`: the update at `(i₀ - r₀, i₁ - c₀)` inside the block, the
    operand elsewhere. -/
theorem scatter_corner_apply (x : (⟨2, ![n0, n1]⟩ : Shape).Idx → α) (idx : IVec ⟨1, ![2]⟩ w)
    (upd : (⟨2, ![m0, m1]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (cornerDims n0 n1 m0 m1 wf) (fun _ b => b) x idx upd i
      = if h : (r0 ≤ (i 0).val ∧ (i 0).val < r0 + m0) ∧ c0 ≤ (i 1).val ∧ (i 1).val < c0 + m1
          then upd (ix2 ⟨(i 0).val - r0, by omega⟩ ⟨(i 1).val - c0, by omega⟩) else x i := by
  by_cases h : (r0 ≤ (i 0).val ∧ (i 0).val < r0 + m0) ∧ c0 ≤ (i 1).val ∧ (i 1).val < c0 + m1
  · rw [dif_pos h]
    refine scatter_set_apply_of_lands _ x idx upd i _ ?_ ?_
    · refine (corner_resultIdx?_iff wf _ idx i).mpr ⟨?_, ?_⟩
      · rw [hr]
        show (r0 : ℤ) + (((i 0).val - r0 : ℕ) : ℤ) = ((i 0).val : ℤ)
        omega
      · rw [hc]
        show (c0 : ℤ) + (((i 1).val - c0 : ℕ) : ℤ) = ((i 1).val : ℤ)
        omega
    · intro j' hj'
      obtain ⟨e0, e1⟩ := (corner_resultIdx?_iff wf j' idx i).mp hj'
      rw [hr] at e0
      rw [hc] at e1
      rw [eq_ix2 j']
      congr 1
      · refine Fin.ext ?_
        show (j' 0).val = (i 0).val - r0
        omega
      · refine Fin.ext ?_
        show (j' 1).val = (i 1).val - c0
        omega
  · rw [dif_neg h]
    refine scatter_set_apply_of_not_lands _ x idx upd i fun j hj => h ?_
    obtain ⟨e0, e1⟩ := (corner_resultIdx?_iff wf j idx i).mp hj
    rw [hr] at e0
    rw [hc] at e1
    have h0 : (j 0).val < m0 := (j 0).isLt
    have h1 : (j 1).val < m1 := (j 1).isLt
    exact ⟨⟨by omega, by omega⟩, by omega, by omega⟩

end Corner

/-! ## One cell: `x.at[r, c].set(v)` -/

section Cell
variable {n0 n1 w : Nat} {α : Type}
  (wf : ScatterDims.WF ⟨2, ![n0, n1]⟩ ⟨1, ![2]⟩ ⟨0, ![]⟩ [] [0, 1] [0, 1] 0)

/-- The start index is the cell; the update is one scalar. -/
abbrev cellDims (n0 n1 : Nat) (wf : ScatterDims.WF ⟨2, ![n0, n1]⟩ ⟨1, ![2]⟩ ⟨0, ![]⟩ [] [0, 1] [0, 1] 0) :
    ScatterDims ⟨2, ![n0, n1]⟩ ⟨1, ![2]⟩ ⟨0, ![]⟩ where
  updateWindowDims := []
  insertedWindowDims := [0, 1]
  scatterDimsToOperandDims := [0, 1]
  indexVectorDim := 0
  wf := wf

theorem cell_start0 (j : (⟨0, ![]⟩ : Shape).Idx) (idx : IVec ⟨1, ![2]⟩ w) :
    (cellDims n0 n1 wf).start j idx 0 = (idx (ix1 0)).toInt := by
  unfold ScatterDims.start
  rw [dif_pos (show (0 : Fin 2) ∈ ([0, 1] : List (Fin 2)) from by decide)]
  congr 2
  funext b; match b with | ⟨0, _⟩ => rfl

theorem cell_start1 (j : (⟨0, ![]⟩ : Shape).Idx) (idx : IVec ⟨1, ![2]⟩ w) :
    (cellDims n0 n1 wf).start j idx 1 = (idx (ix1 1)).toInt := by
  unfold ScatterDims.start
  rw [dif_pos (show (1 : Fin 2) ∈ ([0, 1] : List (Fin 2)) from by decide)]
  congr 2
  funext b; match b with | ⟨0, _⟩ => rfl

theorem cell_resultIdx?_iff (j : (⟨0, ![]⟩ : Shape).Idx) (idx : IVec ⟨1, ![2]⟩ w) (i : (⟨2, ![n0, n1]⟩ : Shape).Idx) :
    (cellDims n0 n1 wf).resultIdx? j idx = some i
      ↔ (idx (ix1 0)).toInt = ((i 0).val : ℤ) ∧ (idx (ix1 1)).toInt = ((i 1).val : ℤ) := by
  rw [resultIdx?_eq_some_iff]
  constructor
  · intro h
    have h0 := h 0
    have h1 := h 1
    rw [cell_start0] at h0
    rw [cell_start1] at h1
    change (idx (ix1 0)).toInt + ((0 : ℕ) : ℤ) = _ at h0
    change (idx (ix1 1)).toInt + ((0 : ℕ) : ℤ) = _ at h1
    exact ⟨by omega, by omega⟩
  · rintro ⟨h0, h1⟩ a
    match a with
    | ⟨0, _⟩ =>
      show (cellDims n0 n1 wf).start j idx 0 + ((0 : ℕ) : ℤ) = ((i 0).val : ℤ)
      rw [cell_start0]; omega
    | ⟨1, _⟩ =>
      show (cellDims n0 n1 wf).start j idx 1 + ((0 : ℕ) : ℤ) = ((i 1).val : ℤ)
      rw [cell_start1]; omega

/-- The cell set read at `i`: the scalar at the named cell, the operand elsewhere. -/
theorem scatter_cell_apply (x : (⟨2, ![n0, n1]⟩ : Shape).Idx → α) (idx : IVec ⟨1, ![2]⟩ w)
    (upd : (⟨0, ![]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (cellDims n0 n1 wf) (fun _ b => b) x idx upd i
      = if (i 0).val = r0 ∧ (i 1).val = c0 then upd ix0 else x i := by
  by_cases h : (i 0).val = r0 ∧ (i 1).val = c0
  · rw [if_pos h]
    refine scatter_set_apply_of_lands _ x idx upd i ix0 ?_ fun j' _ => eq_ix0 j'
    refine (cell_resultIdx?_iff wf _ idx i).mpr ⟨?_, ?_⟩
    · rw [hr]; omega
    · rw [hc]; omega
  · rw [if_neg h]
    refine scatter_set_apply_of_not_lands _ x idx upd i fun j hj => h ?_
    obtain ⟨e0, e1⟩ := (cell_resultIdx?_iff wf j idx i).mp hj
    rw [hr] at e0
    rw [hc] at e1
    exact ⟨by omega, by omega⟩

end Cell

/-! ## A span of one row: `x.at[r, c₀:c₀+m].set(v)` -/

section Span
variable {n0 n1 m w : Nat} {α : Type} (wf : ScatterDims.WF ⟨2, ![n0, n1]⟩ ⟨1, ![2]⟩ ⟨1, ![m]⟩ [0] [0] [0, 1] 0)

open Cert.LibRefScatter (spanDims span_resultIdx?_iff)

/-- The span set read at `i`, the row being `r₀` and the first column `c₀`: the update at `i₁ - c₀` on the span, the
    operand elsewhere. -/
theorem scatter_span_set_apply (x : (⟨2, ![n0, n1]⟩ : Shape).Idx → α) (idx : IVec ⟨1, ![2]⟩ w)
    (upd : (⟨1, ![m]⟩ : Shape).Idx → α) (r0 c0 : ℕ) (hr : (idx (ix1 0)).toInt = (r0 : ℤ))
    (hc : (idx (ix1 1)).toInt = (c0 : ℤ)) (i : (⟨2, ![n0, n1]⟩ : Shape).Idx) :
    Host.scatter (spanDims n0 n1 m wf) (fun _ b => b) x idx upd i
      = if h : (i 0).val = r0 ∧ c0 ≤ (i 1).val ∧ (i 1).val < c0 + m
          then upd (ix1 ⟨(i 1).val - c0, by omega⟩) else x i := by
  by_cases h : (i 0).val = r0 ∧ c0 ≤ (i 1).val ∧ (i 1).val < c0 + m
  · rw [dif_pos h]
    refine scatter_set_apply_of_lands _ x idx upd i _ ?_ ?_
    · refine (span_resultIdx?_iff wf _ idx i).mpr ⟨?_, ?_⟩
      · rw [hr]; omega
      · rw [hc]
        show (c0 : ℤ) + (((i 1).val - c0 : ℕ) : ℤ) = ((i 1).val : ℤ)
        omega
    · intro j' hj'
      obtain ⟨e0, e1⟩ := (span_resultIdx?_iff wf j' idx i).mp hj'
      rw [hc] at e1
      rw [eq_ix1 j']
      congr 1
      refine Fin.ext ?_
      show (j' 0).val = (i 1).val - c0
      omega
  · rw [dif_neg h]
    refine scatter_set_apply_of_not_lands _ x idx upd i fun j hj => h ?_
    obtain ⟨e0, e1⟩ := (span_resultIdx?_iff wf j idx i).mp hj
    rw [hr] at e0
    rw [hc] at e1
    have h1 : (j 0).val < m := (j 0).isLt
    exact ⟨by omega, by omega, by omega⟩

end Span

end Cert.LibScatterSet
-- ==== Proof.LibScatterWhole.lean ====
/-
  A scatter whose body returns the update (`x.at[:, :].set(u)`) and whose start-index vector is EMPTY, read at an
  index. The update has the operand's shape, both of its axes are window axes over the operand's two axes, and no
  operand axis is named by a start index: the one window starts at the origin and covers the whole operand. Update
  cell (r, q) therefore lands on operand cell (r, q) and on no other, every operand cell is written exactly once, and
  the result is the update itself, whatever the operand held.
-/
import Idealize.ShloMosaic.Lib.ValueIdx
import Idealize.ShloMosaic.Lib.Pipeline.Value
import proofs.«173566_j57604101374655_2_alg».proof.Proof.LibScatterSet

namespace Cert.LibScatterWhole

open Idealize.ShloMosaic Idealize.ShloMosaic.ValueIdx

section Whole
variable {n0 n1 w : ℕ} {α : Type}
  (wf : ScatterDims.WF ⟨2, ![n0, n1]⟩ ⟨1, ![0]⟩ ⟨2, ![n0, n1]⟩ [0, 1] [] [] 0)

/-- Both axes of the update are windows over the operand's two axes and the start index has no
    component: the one window starts at the origin. -/
abbrev wholeDims (n0 n1 : ℕ) (wf : ScatterDims.WF ⟨2, ![n0, n1]⟩ ⟨1, ![0]⟩ ⟨2, ![n0, n1]⟩ [0, 1] [] [] 0) :
    ScatterDims ⟨2, ![n0, n1]⟩ ⟨1, ![0]⟩ ⟨2, ![n0, n1]⟩ where
  updateWindowDims := [0, 1]
  insertedWindowDims := []
  scatterDimsToOperandDims := []
  indexVectorDim := 0
  wf := wf

/-- No axis is named by the start index: every start is 0. -/
theorem whole_start (j : (⟨2, ![n0, n1]⟩ : Shape).Idx) (idx : IVec ⟨1, ![0]⟩ w) (a : Fin 2) :
    (wholeDims n0 n1 wf).start j idx a = 0 := by
  unfold ScatterDims.start
  rw [dif_neg (show ¬ a ∈ ([] : List (Fin 2)) from List.not_mem_nil)]

/-- Update (r, q) lands on operand cell (r, q) and on no other. -/
theorem whole_resultIdx?_iff (j : (⟨2, ![n0, n1]⟩ : Shape).Idx) (idx : IVec ⟨1, ![0]⟩ w)
    (i : (⟨2, ![n0, n1]⟩ : Shape).Idx) :
    (wholeDims n0 n1 wf).resultIdx? j idx = some i ↔ j = i := by
  rw [Cert.LibRefScatter.resultIdx?_eq_some_iff]
  constructor
  · intro h
    have h0 := h 0
    have h1 := h 1
    rw [whole_start] at h0 h1
    change (0 : ℤ) + (((j 0).val : ℕ) : ℤ) = _ at h0
    change (0 : ℤ) + (((j 1).val : ℕ) : ℤ) = _ at h1
    rw [eq_ix2 j, eq_ix2 i]
    congr 1
    · exact Fin.ext (by omega)
    · exact Fin.ext (by omega)
  · rintro rfl a
    match a with
    | ⟨0, _⟩ =>
      show (wholeDims n0 n1 wf).start j idx 0 + (((j 0).val : ℕ) : ℤ) = ((j 0).val : ℤ)
      rw [whole_start]; omega
    | ⟨1, _⟩ =>
      show (wholeDims n0 n1 wf).start j idx 1 + (((j 1).val : ℕ) : ℤ) = ((j 1).val : ℤ)
      rw [whole_start]; omega

/-- The result is the update: every cell is written exactly once. -/
theorem scatter_whole_apply (x : (⟨2, ![n0, n1]⟩ : Shape).Idx → α) (idx : IVec ⟨1, ![0]⟩ w)
    (upd : (⟨2, ![n0, n1]⟩ : Shape).Idx → α) (i : (⟨2, ![n0, n1]⟩ : Shape).Idx) :
    Host.scatter (wholeDims n0 n1 wf) (fun _ b => b) x idx upd i = upd i :=
  Cert.LibScatterSet.scatter_set_apply_of_lands _ x idx upd i i
    ((whole_resultIdx?_iff wf i idx i).mpr rfl) (fun j' hj' => (whole_resultIdx?_iff wf j' idx i).mp hj')

end Whole

end Cert.LibScatterWhole
-- ==== Proof.RefValue.lean ====
/-
  The reference program's result, read at an index, is the shared specification.

  For a position n below 2^20 the index chain computes n mod 4096: the signed remainder of a
  non-negative word by 4096 is the natural remainder, it is never negative, so neither sign fix-up
  changes it, and the gather (which would clamp an index outside [0, 4096)) reads the input at exactly
  that cell. The threshold is then applied cell by cell; the flat results are laid out row-major as a
  1024 × 1024 picture, so pixel (r, q) holds position r · 1024 + q, whose cell is
  (r · 1024 + q) mod 4096 = (r mod 4) · 1024 + q. Writing the picture over zeros with an empty start
  index replaces every pixel, and the two broadcasts repeat it over the 48 channels.
-/
import proofs.«173566_j57604101374655_2_alg».proof.Proof.RefTerm
import proofs.«173566_j57604101374655_2_alg».proof.Proof.Spec
import proofs.«173566_j57604101374655_2_alg».proof.Proof.LibScatterRead
import proofs.«173566_j57604101374655_2_alg».proof.Proof.LibScatterSet
import proofs.«173566_j57604101374655_2_alg».proof.Proof.LibScatterWhole
import Idealize.ShloMosaic.PureOps.Ideal
import Idealize.ShloMosaic.Lib.ValueIdx
import Idealize.ShloMosaic.Lib.ValueLayout
import Idealize.ShloMosaic.Lib.Pipeline.Value

noncomputable section

namespace Cert.ReferenceIdeal.RefValue

open Idealize.ShloMosaic Idealize.ShloMosaic.ValueIdx Idealize.SL.Sem
open Cert.ReferenceIdeal.RefTerm
open Cert.LibScatterWhole (scatter_whole_apply)

/-! ## Words: the index chain on one position -/

/-- A natural below 2^31 read as a signed 32-bit word is itself. -/
theorem toInt_ofNat_small (n : ℕ) (hn : n < 2 ^ 31) : (BitVec.ofNat 32 n).toInt = (n : ℤ) := by
  rw [BitVec.toInt_eq_toNat_cond, BitVec.toNat_ofNat, Nat.mod_eq_of_lt (by omega)]
  rw [if_pos (by omega)]

/-- Its sign bit is clear. -/
theorem msb_ofNat_small (n : ℕ) (hn : n < 2 ^ 31) : (BitVec.ofNat 32 n).msb = false := by
  rw [BitVec.msb_eq_false_iff_two_mul_lt, BitVec.toNat_ofNat, Nat.mod_eq_of_lt (by omega)]
  omega

/-- It is not below zero as a signed word. -/
theorem cmpi_slt_zero_ofNat (n : ℕ) (hn : n < 2 ^ 31) :
    IntOp.cmpi .slt (BitVec.ofNat 32 n) 0#32 = 0#1 := by
  unfold IntOp.cmpi
  show BitVec.ofBool ((BitVec.ofNat 32 n).slt 0#32) = 0#1
  rw [BitVec.slt_eq_decide, toInt_ofNat_small n hn]
  have : ¬ ((n : ℤ) < (0#32 : BitVec 32).toInt) := by
    have : (0#32 : BitVec 32).toInt = 0 := by decide
    omega
  rw [decide_eq_false this]
  rfl

/-- The signed remainder of a non-negative word by 4096 is the natural remainder. -/
theorem remsi_host_ofNat (n : ℕ) (hn : n < 2 ^ 31) :
    IntOp.remsi .host (BitVec.ofNat 32 n) 4096#32 = BitVec.ofNat 32 (n % 4096) := by
  unfold IntOp.remsi
  have hc : ¬ IntOp.SDivCorner (BitVec.ofNat 32 n) 4096#32 := by
    unfold IntOp.SDivCorner
    rintro (h | ⟨_, h⟩)
    · exact absurd h (by decide)
    · exact absurd h (by decide)
  rw [if_neg hc, BitVec.srem_eq, msb_ofNat_small n hn, show (4096#32 : BitVec 32).msb = false from by decide]
  show BitVec.ofNat 32 n % 4096#32 = BitVec.ofNat 32 (n % 4096)
  apply BitVec.eq_of_toNat_eq
  rw [BitVec.toNat_umod, BitVec.toNat_ofNat, BitVec.toNat_ofNat, Nat.mod_eq_of_lt (by omega : n < 2 ^ 32)]
  show n % 4096 = n % 4096 % 2 ^ 32
  omega

/-! ## The index chain at a position -/

/-- The divisor is 4096 (it is not zero). -/
theorem divisor_apply (k : S_.Idx) : divisor k = 4096#32 := by
  show Scalar.select (IntOp.cmpi .eq 4096#32 0#32) 1#32 4096#32 = 4096#32
  decide

/-- A scalar broadcast to any shape reads the scalar. -/
theorem bcast0_apply {α : Type} {t : Shape} (h : S_.BroadcastsInDim t ![]) (x : S_.Idx → α) (j : t.Idx) :
    broadcastInDim t ![] h x j = x ix0 :=
  broadcastInDim_apply _ h x j ix0 (fun a => a.elim0)

variable [Facts]
open Facts₀ Facts

theorem rem0_apply (i : Fin 1048576) : rem0 (ix1 i) = BitVec.ofNat 32 (i.val % 4096) := by
  show IntOp.remsi .host (BitVec.ofNat 32 i.val) (broadcastInDim S1048576 ![] bcast_S_S1048576 divisor (ix1 i)) = _
  rw [bcast0_apply, divisor_apply]
  exact remsi_host_ofNat i.val (by have := i.isLt; omega)

theorem rem1_apply (i : Fin 1048576) : rem1 (ix1 i) = BitVec.ofNat 32 (i.val % 4096) := by
  show Scalar.select
      (IntOp.andi
        (IntOp.cmpi .ne
          (IntOp.cmpi .slt (rem0 (ix1 i)) (broadcastInDim S1048576 ![] bcast_S_S1048576 (constantI S_ 32 0#32) (ix1 i)))
          (broadcastInDim S1048576 ![] bcast_S_S1048576 (cmpi .slt divisor (constantI S_ 32 0#32)) (ix1 i)))
        (IntOp.cmpi .ne (rem0 (ix1 i)) (broadcastInDim S1048576 ![] bcast_S_S1048576 (constantI S_ 32 0#32) (ix1 i))))
      (IntOp.addi (rem0 (ix1 i)) (broadcastInDim S1048576 ![] bcast_S_S1048576 divisor (ix1 i)))
      (rem0 (ix1 i)) = _
  rw [bcast0_apply, bcast0_apply, bcast0_apply, rem0_apply]
  show Scalar.select
      (IntOp.andi
        (IntOp.cmpi .ne (IntOp.cmpi .slt (BitVec.ofNat 32 (i.val % 4096)) 0#32) (IntOp.cmpi .slt (divisor ix0) 0#32))
        (IntOp.cmpi .ne (BitVec.ofNat 32 (i.val % 4096)) 0#32))
      (IntOp.addi (BitVec.ofNat 32 (i.val % 4096)) (divisor ix0))
      (BitVec.ofNat 32 (i.val % 4096)) = _
  rw [divisor_apply, cmpi_slt_zero_ofNat _ (by omega)]
  have h0 : IntOp.cmpi .ne 0#1 (IntOp.cmpi .slt 4096#32 0#32) = 0#1 := by decide
  rw [h0]
  have h1 : ∀ x : BitVec 1, IntOp.andi 0#1 x = 0#1 := fun x => by unfold IntOp.andi; exact BitVec.zero_and
  rw [h1, select_zero]

theorem idxFlat_apply (i : Fin 1048576) : idxFlat (ix1 i) = BitVec.ofNat 32 (i.val % 4096) := by
  show Scalar.select
      (IntOp.cmpi .slt (rem1 (ix1 i)) (broadcastInDim S1048576 ![] bcast_S_S1048576 (constantI S_ 32 0#32) (ix1 i)))
      (IntOp.addi (rem1 (ix1 i)) (broadcastInDim S1048576 ![] bcast_S_S1048576 (constantI S_ 32 4096#32) (ix1 i)))
      (rem1 (ix1 i)) = _
  rw [bcast0_apply, rem1_apply]
  show Scalar.select (IntOp.cmpi .slt (BitVec.ofNat 32 (i.val % 4096)) 0#32) _ _ = _
  rw [cmpi_slt_zero_ofNat _ (by omega), select_zero]

theorem idxCol_apply (i : Fin 1048576) : idxCol (ix2 i 0) = BitVec.ofNat 32 (i.val % 4096) := by
  show broadcastInDim S1048576x1 ![0] bcast_S1048576_S1048576x1_0 idxFlat (ix2 i 0) = _
  rw [broadcastInDim_apply _ _ idxFlat (ix2 i 0) (ix1 i) (fun a => by
    obtain rfl : a = 0 := Subsingleton.elim _ _
    rfl)]
  exact idxFlat_apply i

/-! ## The gather at a position -/

/-- Position i gathers the input at cell i mod 4096. -/
theorem gather_apply {α : Type} (a : S4096.Idx → α) (i : Fin 1048576) :
    Host.gather gather_S4096_S1048576x1_S1048576_n_0_n_n_0_1_1 a idxCol (ix1 i)
      = a (ix1 ⟨i.val % 4096, Nat.mod_lt _ (by decide)⟩) := by
  have hw : (idxCol (ix2 i 0)).toInt = ((i.val % 4096 : ℕ) : ℤ) := by
    rw [idxCol_apply, toInt_ofNat_small _ (by omega)]
  have h0 : 0 ≤ (idxCol (ix2 i 0)).toInt := by rw [hw]; omega
  have h1 : (idxCol (ix2 i 0)).toInt < (4096 : ℕ) := by rw [hw]; omega
  refine (Cert.LibScatterRead.gather1_apply_of_inRange
    gather_S4096_S1048576x1_S1048576_n_0_n_n_0_1_1_wf a idxCol i h0 h1).trans ?_
  refine congrArg a (congrArg ix1 (Fin.ext ?_))
  show (idxCol (ix2 i 0)).toInt.toNat = i.val % 4096
  rw [hw]
  omega

/-! ## The flat thresholded values at a position -/

/-- Position i holds the threshold of the input at cell i mod 4096. -/
theorem flat_apply (a : FVec Ideal S4096 .f32) (i : Fin 1048576) :
    flat (F := Ideal) a (ix1 i) = Cert.Spec.thr (a (ix1 ⟨i.val % 4096, Nat.mod_lt _ (by decide)⟩)) := by
  show Scalar.select
      (FloatOps.cmpf .ogt
        (FloatOps.hostAbsf (Host.gather gather_S4096_S1048576x1_S1048576_n_0_n_n_0_1_1 a idxCol (ix1 i)))
        (broadcastInDim S1048576 ![] bcast_S_S1048576 (constant (F := Ideal) S_ .f32 0x3F000000#32) (ix1 i)))
      (broadcastInDim S1048576 ![] bcast_S_S1048576 (constant (F := Ideal) S_ .f32 0x3F800000#32) (ix1 i))
      (broadcastInDim S1048576 ![] bcast_S_S1048576 (constant (F := Ideal) S_ .f32 0x00000000#32) (ix1 i)) = _
  rw [bcast0_apply, bcast0_apply, bcast0_apply, gather_apply]
  rfl

/-! ## The picture and the result -/

/-- Pixel (r, q) of the picture is the threshold of the cell the pixel looks at. -/
theorem picture_apply (a : FVec Ideal S4096 .f32) (r q : Fin 1024) :
    picture (F := Ideal) a (ix2 r q) = Cert.Spec.thr (a (ix1 (Cert.Spec.cellOf r q))) := by
  refine (scatter_whole_apply scatter_S1024x1024_S0_S1024x1024_01_n_n_0_wf _ _ _ (ix2 r q)).trans ?_
  have hp : r.val * 1024 + q.val < 1048576 := by have := r.isLt; have := q.isLt; omega
  rw [shapeCast_apply (flat (F := Ideal) a) shapeCasts_S1048576_S1024x1024 (ix2 r q)
    (ix1 ⟨r.val * 1024 + q.val, hp⟩) (by
      rw [Shape.rowMajor_val_one, Shape.rowMajor_val_two]
      rfl)]
  rw [flat_apply]
  refine congrArg (fun c => Cert.Spec.thr (a (ix1 c))) (Fin.ext ?_)
  exact (Cert.Spec.cellOf_eq_mod r q).symm

/-- THE REFERENCE'S VALUE: the shared specification. -/
theorem refOut_eq (a : FVec Ideal S4096 .f32) : refOut (F := Ideal) a = Cert.Spec.G a := by
  funext j
  obtain ⟨ch, r, q, rfl⟩ : ∃ (ch : Fin 48) (r q : Fin 1024), j = ix3 ch r q := ⟨j 0, j 1, j 2, eq_ix3 j⟩
  rw [Cert.Spec.G_ix3]
  show broadcastInDim S48x1024x1024 ![0, 1, 2] bcast_S1x1024x1024_S48x1024x1024_0_1_2
    (broadcastInDim S1x1024x1024 ![1, 2] bcast_S1024x1024_S1x1024x1024_1_2 (picture (F := Ideal) a)) (ix3 ch r q) = _
  rw [broadcastInDim_apply _ _ _ (ix3 ch r q) (ix3 (0 : Fin 1) r q) (fun b => by
    match b with
    | ⟨0, _⟩ => rfl
    | ⟨1, _⟩ => rfl
    | ⟨2, _⟩ => rfl)]
  rw [broadcastInDim_apply _ _ _ (ix3 (0 : Fin 1) r q) (ix2 r q) (fun b => by
    match b with
    | ⟨0, _⟩ => rfl
    | ⟨1, _⟩ => rfl)]
  exact picture_apply a r q

end Cert.ReferenceIdeal.RefValue

end
-- ==== Proof.lean ====
/-
  The proof of `Cert.Claim`.

  Both programs take 4096 numbers a and produce 48 identical 1024 × 1024 pictures: pixel (r, q) of every channel
  is 1 where the absolute value of input cell (r mod 4) · 1024 + q exceeds 1/2 and 0 elsewhere (Proof/Spec.lean,
  the function `G`).

  The kernel program computes the four distinct rows on the host — the input as a 4 × 1024 array, its absolute
  value compared with 1/2, the choice between 1 and 0 — repeats them 256 times down into the 1024 × 1024 picture
  array, and then runs a region of two grid points over that array as its one input window, whole at both points.
  At point t the body starts 24 copies of the resident picture, copy k into channel 24 · t + k of the result, and
  waits for all 24 before it returns, so each point drains what it issued. The 48 destinations are disjoint
  one-channel slabs, so after both points every channel holds the picture (Proof/FanValue.lean), the picture
  array is the specification's picture (Proof/KerHost.lean), and the result is `G` of the input
  (Proof/KerBridge.lean); the run itself, and that the input array is left as launched, is Proof/FanRun.lean
  over the body's runs (their copies over the printed kernel, Proof/KFanRun.lean and the modules it imports,
  give its frame at the bit-exact instance).

  The reference program counts the 2^20 pixels, takes each count's remainder by 4096 (the signed remainder and
  its two sign corrections, which never fire on a count), gathers the input there, thresholds, reshapes to
  1024 × 1024, writes the whole picture over a picture of zeros and broadcasts it to 48 channels. It is a
  straight line of 49 host operations (Proof/RefRun.lean: every execution ends with the result at the
  operations' composed term of the input, the input unchanged), and that term is `G` of the input, index by
  index: pixel (r, q) is count r · 1024 + q, whose remainder by 4096 is (r mod 4) · 1024 + q
  (Proof/RefValue.lean).

  So from memories that agree on the input, both runs end with the result `G` of it: the algebraic claim's shared
  value. The three frames are the runs read at the input array; the idealization rewrote no operation, so what
  it preserves is nothing to prove.
-/
import proofs.«173566_j57604101374655_2_alg».proof.Defs
import proofs.«173566_j57604101374655_2_alg».proof.Proof.Gen.Kernel
import proofs.«173566_j57604101374655_2_alg».proof.Proof.Gen.KernelIdeal
import proofs.«173566_j57604101374655_2_alg».proof.Proof.Gen.ReferenceIdeal
import proofs.«173566_j57604101374655_2_alg».proof.Proof.Gen.Pre_finite_inputs
import proofs.«173566_j57604101374655_2_alg».proof.Proof.KFanRun
import proofs.«173566_j57604101374655_2_alg».proof.Proof.FanRun
import proofs.«173566_j57604101374655_2_alg».proof.Proof.KerBridge
import proofs.«173566_j57604101374655_2_alg».proof.Proof.RefRun
import proofs.«173566_j57604101374655_2_alg».proof.Proof.RefValue

noncomputable section

namespace Cert.Proof

open Idealize.ShloMosaic Idealize.SL.Sem

/-- The printed kernel runs and leaves its input array as launched: the fan-out's run at the bit-exact instance,
    read at the input array. -/
theorem frame_k : Cert.frame_Kernel := fun m g _ =>
  (θ_run Cert.Kernel.defs _ _).mono (fun _ h c => Cert.Kernel.Fan.final_arg0 h c)
    (Cert.Kernel.Fan.run_main (F := Bits) m g)

/-- The same run at the ideal instance. -/
theorem frame_ki : Cert.frame_KernelIdeal := fun m g _ =>
  (θ_run Cert.KernelIdeal.defs _ _).mono (fun _ h c => Cert.KernelIdeal.Fan.final_arg0 h c)
    (Cert.KernelIdeal.Fan.run_main (F := Ideal) m g)

/-- The reference runs and no operation of it writes its input array. -/
theorem frame_ri : Cert.frame_ReferenceIdeal := fun m g _ =>
  (θ_run Cert.ReferenceIdeal.defs _ _).mono (fun _ h c => (h c).2) (Cert.ReferenceIdeal.RefRun.run (F := Ideal) m g)

/-- The idealization rewrote no operation. -/
theorem preserves : Cert.preserves_Kernel_KernelIdeal := trivial

/-- At the ideal instance, from memories that agree on the input, the kernel's result buffer ends at the 48 copies
    of the picture array and the reference's at its operations' composed term; each is the specification's `G` of
    the input, which is the shared value. -/
theorem algebraic : Cert.algebraic_KernelIdeal_ReferenceIdeal := by
  intro m g m' g' _ hagree
  refine ⟨fun c => Cert.Spec.G (F := Ideal)
      (m ((c.tc : Thread Cert.KernelIdeal.nD Cert.KernelIdeal.τ).loc Cert.KernelIdeal.main_arg0)), ?_, ?_⟩
  · exact (θ_run Cert.KernelIdeal.defs _ _).mono
      (fun _ h c => ⟨(Cert.KernelIdeal.Fan.final_v9 h c).trans (Cert.KernelIdeal.Bridge.written_eq_G m c),
        Cert.KernelIdeal.Fan.final_arg0 h c⟩)
      (Cert.KernelIdeal.Fan.run_main (F := Ideal) m g)
  · refine (θ_run Cert.ReferenceIdeal.defs _ _).mono (fun _ h c => ⟨(h c).1.trans ?_, (h c).2⟩)
      (Cert.ReferenceIdeal.RefRun.run (F := Ideal) m' g')
    rw [hagree c]
    exact Cert.ReferenceIdeal.RefValue.refOut_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
